-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59_1)) (v1 : (c : Dev Cert.KernelIdeal.nD) → Buf (Elt Ideal) ((c.tc : Thread Cert.KernelIdeal.nD Cert.KernelIdeal.τ).loc Cert.KernelIdeal.main_v59_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_1) = v0 c
          ∧ r.2.mem ((c.tc : Thread Cert.KernelIdeal.nD Cert.KernelIdeal.τ).loc Cert.KernelIdeal.main_v59_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x4 : S_.BroadcastsInDim S2x4 (![] : Fin 0 → Fin S2x4.rank)
  reducesTo_S2x4_S_d0_1 : S2x4.ReducesTo [0, 1] S_

variable [Facts]

def fn_part2 {F : FTy → Type} [FloatOps F] (main_arg8 : FVec F S2x4 .f32) (main_arg9 : FVec F S4 .f32) (main_v33 : IVec S_ 1) : IVec S_ 1 :=
  let main_v34 : FVec F S2x4 .f32 := Host.absf main_arg8
  let main_cst_12 : FVec F S_ .f32 := constant S_ .f32 0x7F800000#32
  let main_v35 : FVec F S2x4 .f32 := broadcastInDim S2x4 ![] bcast_S_S2x4 main_cst_12
  let main_v36 : IVec S2x4 1 := cmpf .olt main_v34 main_v35
  let main_c_13 : IVec S_ 1 := constantI S_ 1 1#1
  let main_v37 : IVec S_ 1 := (fun x v => Host.reduce IntOp.andi x v reducesTo_S2x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x4 .f32) (main_arg9 : FVec F S4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x6400000 32) (main_arg2 : FVec F S128x4 .f32) (main_arg3 : FVec F S4 .f32) (main_arg4 : FVec F S4x4 .f32) (main_arg5 : FVec F S4 .f32) (main_arg6 : FVec F S4x2 .f32) (main_arg7 : FVec F S2 .f32) (main_arg8 : FVec F S2x4 .f32) (main_arg9 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x6400000 : Shape := ⟨2, ![2, 6400000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x1 : Shape := ⟨2, ![100000, 1]⟩
abbrev S100000x4 : Shape := ⟨2, ![100000, 4]⟩
abbrev S10000x128 : Shape := ⟨2, ![10000, 128]⟩
abbrev S10000x1 : Shape := ⟨2, ![10000, 1]⟩
abbrev S10000x4 : Shape := ⟨2, ![10000, 4]⟩
abbrev S6500000x4 : Shape := ⟨2, ![6500000, 4]⟩
abbrev S1x4 : Shape := ⟨2, ![1, 4]⟩
abbrev S5000x4 : Shape := ⟨2, ![5000, 4]⟩
abbrev S5000x1 : Shape := ⟨2, ![5000, 1]⟩
abbrev S100000x2 : Shape := ⟨2, ![100000, 2]⟩
abbrev S10000x2 : Shape := ⟨2, ![10000, 2]⟩
abbrev S6500000x2 : Shape := ⟨2, ![6500000, 2]⟩
abbrev S1x2 : Shape := ⟨2, ![1, 2]⟩
abbrev S5000x2 : Shape := ⟨2, ![5000, 2]⟩

abbrev nBuf : Space → Nat
  | .hbm => 86
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S128x4, .bf16⟩
  | .hbm, ⟨33, _⟩ => ⟨S100000x4, .f32⟩
  | .hbm, ⟨34, _⟩ => ⟨S_, .i32⟩
  | .hbm, ⟨35, _⟩ => ⟨S6500000, .i32⟩
  | .hbm, ⟨36, _⟩ => ⟨S6500000, .i1⟩
  | .hbm, ⟨37, _⟩ => ⟨S_, .i32⟩
  | .hbm, ⟨38, _⟩ => ⟨S6500000, .i32⟩
  | .hbm, ⟨39, _⟩ => ⟨S6500000, .i32⟩
  | .hbm, ⟨40, _⟩ => ⟨S6500000, .i32⟩
  | .hbm, ⟨41, _⟩ => ⟨S6500000x1, .i32⟩
  | .hbm, ⟨42, _⟩ => ⟨S6500000x4, .f32⟩
  | .hbm, ⟨43, _⟩ => ⟨S_, .f32⟩
  | .hbm, ⟨44, _⟩ => ⟨S100000x4, .f32⟩
  | .hbm, ⟨45, _⟩ => ⟨S6500000x1, .i32⟩
  | .hbm, ⟨46, _⟩ => ⟨S100000x4, .f32⟩
  | .hbm, ⟨47, _⟩ => ⟨S1x4, .f32⟩
  | .hbm, ⟨48, _⟩ => ⟨S100000x4, .f32⟩
  | .hbm, ⟨49, _⟩ => ⟨S4x4, .bf16⟩
  | .hbm, ⟨50, _⟩ => ⟨S100000x4, .f32⟩
  | .hbm, ⟨51, _⟩ => ⟨S_, .i32⟩
  | .hbm, ⟨52, _⟩ => ⟨S6500000, .i32⟩
  | .hbm, ⟨53, _⟩ => ⟨S6500000, .i1⟩
  | .hbm, ⟨54, _⟩ => ⟨S_, .i32⟩
  | .hbm, ⟨55, _⟩ => ⟨S6500000, .i32⟩
  | .hbm, ⟨56, _⟩ => ⟨S6500000, .i32⟩
  | .hbm, ⟨57, _⟩ => ⟨S6500000, .i32⟩
  | .hbm, ⟨58, _⟩ => ⟨S6500000x1, .i32⟩
  | .hbm, ⟨59, _⟩ => ⟨S6500000x4, .f32⟩
  | .hbm, ⟨60, _⟩ => ⟨S_, .f32⟩
  | .hbm, ⟨61, _⟩ => ⟨S100000x4, .f32⟩
  | .hbm, ⟨62, _⟩ => ⟨S6500000x1, .i32⟩
  | .hbm, ⟨63, _⟩ => ⟨S100000x4, .f32⟩
  | .hbm, ⟨64, _⟩ => ⟨S1x4, .f32⟩
  | .hbm, ⟨65, _⟩ => ⟨S100000x4, .f32⟩
  | .hbm, ⟨66, _⟩ => ⟨S4x2, .bf16⟩
  | .hbm, ⟨67, _⟩ => ⟨S100000x2, .f32⟩
  | .hbm, ⟨68, _⟩ => ⟨S_, .i32⟩
  | .hbm, ⟨69, _⟩ => ⟨S6500000, .i32⟩
  | .hbm, ⟨70, _⟩ => ⟨S6500000, .i1⟩
  | .hbm, ⟨71, _⟩ => ⟨S_, .i32⟩
  | .hbm, ⟨72, _⟩ => ⟨S6500000, .i32⟩
  | .hbm, ⟨73, _⟩ => ⟨S6500000, .i32⟩
  | .hbm, ⟨74, _⟩ => ⟨S6500000, .i32⟩
  | .hbm, ⟨75, _⟩ => ⟨S6500000x1, .i32⟩
  | .hbm, ⟨76, _⟩ => ⟨S6500000x2, .f32⟩
  | .hbm, ⟨77, _⟩ => ⟨S_, .f32⟩
  | .hbm, ⟨78, _⟩ => ⟨S100000x2, .f32⟩
  | .hbm, ⟨79, _⟩ => ⟨S6500000x1, .i32⟩
  | .hbm, ⟨80, _⟩ => ⟨S100000x2, .f32⟩
  | .hbm, ⟨81, _⟩ => ⟨S1x2, .f32⟩
  | .hbm, ⟨82, _⟩ => ⟨S1x4, .f32⟩
  | .hbm, ⟨83, _⟩ => ⟨S2x4, .bf16⟩
  | .hbm, ⟨84, _⟩ => ⟨S100000x2, .f32⟩
  | .hbm, ⟨85, _⟩ => ⟨S100000x4, .f32⟩
  | .local _ .vmem, ⟨0, _⟩ => ⟨S10000x128, .f32⟩
  | .local _ .vmem, ⟨1, _⟩ => ⟨S10000x128, .f32⟩
  | .local _ .vmem, ⟨2, _⟩ => ⟨S128x4, .bf16⟩
  | .local _ .vmem, ⟨3, _⟩ => ⟨S10000x1, .f32⟩
  | .local _ .vmem, ⟨4, _⟩ => ⟨S10000x1, .f32⟩
  | .local _ .vmem, ⟨5, _⟩ => ⟨S10000x4, .f32⟩
  | .local _ .vmem, ⟨6, _⟩ => ⟨S10000x4, .f32⟩
  | .local _ .vmem, ⟨7, _⟩ => ⟨S5000x4, .f32⟩
  | .local _ .vmem, ⟨8, _⟩ => ⟨S5000x4, .f32⟩
  | .local _ .vmem, ⟨9, _⟩ => ⟨S5000x1, .f32⟩
  | .local _ .vmem, ⟨10, _⟩ => ⟨S5000x1, .f32⟩
  | .local _ .vmem, ⟨11, _⟩ => ⟨S1x4, .f32⟩
  | .local _ .vmem, ⟨12, _⟩ => ⟨S5000x4, .f32⟩
  | .local _ .vmem, ⟨13, _⟩ => ⟨S5000x4, .f32⟩
  | .local _ .vmem, ⟨14, _⟩ => ⟨S10000x4, .f32⟩
  | .local _ .vmem, ⟨15, _⟩ => ⟨S10000x4, .f32⟩
  | .local _ .vmem, ⟨16, _⟩ => ⟨S4x4, .bf16⟩
  | .local _ .vmem, ⟨17, _⟩ => ⟨S10000x1, .f32⟩
  | .local _ .vmem, ⟨18, _⟩ => ⟨S10000x1, .f32⟩
  | .local _ .vmem, ⟨19, _⟩ => ⟨S10000x4, .f32⟩
  | .local _ .vmem, ⟨20, _⟩ => ⟨S10000x4, .f32⟩
  | .local _ .vmem, ⟨21, _⟩ => ⟨S5000x4, .f32⟩
  | .local _ .vmem, ⟨22, _⟩ => ⟨S5000x4, .f32⟩
  | .local _ .vmem, ⟨23, _⟩ => ⟨S5000x1, .f32⟩
  | .local _ .vmem, ⟨24, _⟩ => ⟨S5000x1, .f32⟩
  | .local _ .vmem, ⟨25, _⟩ => ⟨S1x4, .f32⟩
  | .local _ .vmem, ⟨26, _⟩ => ⟨S5000x4, .f32⟩
  | .local _ .vmem, ⟨27, _⟩ => ⟨S5000x4, .f32⟩
  | .local _ .vmem, ⟨28, _⟩ => ⟨S10000x4, .f32⟩
  | .local _ .vmem, ⟨29, _⟩ => ⟨S10000x4, .f32⟩
  | .local _ .vmem, ⟨30, _⟩ => ⟨S4x2, .bf16⟩
  | .local _ .vmem, ⟨31, _⟩ => ⟨S10000x1, .f32⟩
  | .local _ .vmem, ⟨32, _⟩ => ⟨S10000x1, .f32⟩
  | .local _ .vmem, ⟨33, _⟩ => ⟨S10000x2, .f32⟩
  | .local _ .vmem, ⟨34, _⟩ => ⟨S10000x2, .f32⟩
  | .local _ .vmem, ⟨35, _⟩ => ⟨S5000x2, .f32⟩
  | .local _ .vmem, ⟨36, _⟩ => ⟨S5000x2, .f32⟩
  | .local _ .vmem, ⟨37, _⟩ => ⟨S5000x1, .f32⟩
  | .local _ .vmem, ⟨38, _⟩ => ⟨S5000x1, .f32⟩
  | .local _ .vmem, ⟨39, _⟩ => ⟨S1x2, .f32⟩
  | .local _ .vmem, ⟨40, _⟩ => ⟨S2x4, .bf16⟩
  | .local _ .vmem, ⟨41, _⟩ => ⟨S1x4, .f32⟩
  | .local _ .vmem, ⟨42, _⟩ => ⟨S5000x2, .f32⟩
  | .local _ .vmem, ⟨43, _⟩ => ⟨S5000x2, .f32⟩
  | .local _ .vmem, ⟨44, _⟩ => ⟨S5000x4, .f32⟩
  | .local _ .vmem, ⟨45, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59_0 : Ref sig .tc := ⟨.hbm, 84, rfl⟩
abbrev main_v59_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc5_stg6_0 : Ref sig .tc := ⟨.vmem, 44, rfl⟩
abbrev cc5_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc5_sem6_0 : DmaSem sig := 44
abbrev cc5_sem6_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x2 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x4 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x4 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x4 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  shapeCasts_S100000_S100000x1 : S100000.ShapeCasts S100000x1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S10000x4_S10000x4_0_0 : ∀ a, (![0, 0] : Fin 2 → Nat) a + S10000x4.size a ≤ S10000x4.size a
  h_S10000x4 : 0 < S10000x4.numel
  bcast_S_S100000x4 : S_.BroadcastsInDim S100000x4 (![] : Fin 0 → Fin S100000x4.rank)
  shapeCasts_S4_S1x4 : S4.ShapeCasts S1x4
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x4 : S5000x1.Broadcasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  shapeCasts_S10000x4_S10000x4 : S10000x4.ShapeCasts S10000x4
  broadcasts_S10000x1_S10000x4 : S10000x1.Broadcasts S10000x4
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4x2_S4x2_0_0 : ∀ a, (![0, 0] : Fin 2 → Nat) a + S4x2.size a ≤ S4x2.size a
  h_S4x2 : 0 < S4x2.numel
  shapeCasts_S4x2_S4x2 : S4x2.ShapeCasts S4x2
  inb_S10000x2_S10000x2_0_0 : ∀ a, (![0, 0] : Fin 2 → Nat) a + S10000x2.size a ≤ S10000x2.size a
  h_S10000x2 : 0 < S10000x2.numel
  bcast_S_S100000x2 : S_.BroadcastsInDim S100000x2 (![] : Fin 0 → Fin S100000x2.rank)
  shapeCasts_S2_S1x2 : S2.ShapeCasts S1x2
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S2x4_S2x4_0_0 : ∀ a, (![0, 0] : Fin 2 → Nat) a + S2x4.size a ≤ S2x4.size a
  h_S2x4 : 0 < S2x4.numel
  shapeCasts_S2x4_S2x4 : S2x4.ShapeCasts S2x4
  scatter_S100000_S6500000x1_S6500000_n_0_0_1_wf : ScatterDims.WF S100000 S6500000x1 S6500000 [] [0] [0] 1
  dot_S10000x128_S128x4_S10000x4_1_0_0_1_n_n_wf : DotDims.WF S10000x128 S128x4 S10000x4 [1] [0] [0] [1] [] []
  gather_S100000x4_S6500000x1_S6500000x4_1_0_n_n_0_1_14_wf : GatherDims.WF S100000x4 S6500000x1 S6500000x4 [1] [0] [] [0] [] 1 ![1, 4]
  scatter_S100000x4_S6500000x1_S6500000x4_1_0_0_1_wf : ScatterDims.WF S100000x4 S6500000x1 S6500000x4 [1] [0] [0] 1
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  dot_S5000x2_S2x4_S5000x4_1_0_0_1_n_n_wf : DotDims.WF S5000x2 S2x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .bf16 = 32 ∨ (Rect.block (s := S128x4) S128x4.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x4.size a ≤ S100000x4.size a
  hwx0_3 : ∀ i : grid0.Coords, EltTy.bits .f32 = 32 ∨ (Rect.block (s := S100000x4) S10000x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S100000x4.size a
  hwx1_0 : ∀ i : grid1.Coords, EltTy.bits .f32 = 32 ∨ (Rect.block (s := S100000x4) S5000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4.size a ≤ S1x4.size a
  hwx1_2 : ∀ i : grid1.Coords, EltTy.bits .f32 = 32 ∨ (Rect.block (s := S1x4) S1x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x4.size a ≤ S100000x4.size a
  hwx1_3 : ∀ i : grid1.Coords, EltTy.bits .f32 = 32 ∨ (Rect.block (s := S100000x4) S5000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S100000x4.size a
  hwx2_0 : ∀ i : grid2.Coords, EltTy.bits .f32 = 32 ∨ (Rect.block (s := S100000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .bf16 = 32 ∨ (Rect.block (s := S4x4) S4x4.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x4.size a ≤ S100000x4.size a
  hwx2_3 : ∀ i : grid2.Coords, EltTy.bits .f32 = 32 ∨ (Rect.block (s := S100000x4) S10000x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x4.size a ≤ S100000x4.size a
  hwx3_0 : ∀ i : grid3.Coords, EltTy.bits .f32 = 32 ∨ (Rect.block (s := S100000x4) S5000x4.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x4.size a ≤ S100000x4.size a
  hwx3_3 : ∀ i : grid3.Coords, EltTy.bits .f32 = 32 ∨ (Rect.block (s := S100000x4) S5000x4.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x4.size a ≤ S100000x4.size a
  hwx4_0 : ∀ i : grid4.Coords, EltTy.bits .f32 = 32 ∨ (Rect.block (s := S100000x4) S10000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x2.size a ≤ S4x2.size a
  hwx4_1 : ∀ i : grid4.Coords, EltTy.bits .bf16 = 32 ∨ (Rect.block (s := S4x2) S4x2.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x2.size a ≤ S100000x2.size a
  hwx4_3 : ∀ i : grid4.Coords, EltTy.bits .f32 = 32 ∨ (Rect.block (s := S100000x2) S10000x2.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S100000x2.size a
  hwx5_0 : ∀ i : grid5.Coords, EltTy.bits .f32 = 32 ∨ (Rect.block (s := S100000x2) S5000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2x4.size a ≤ S2x4.size a
  hwx5_3 : ∀ i : grid5.Coords, EltTy.bits .bf16 = 32 ∨ (Rect.block (s := S2x4) S2x4.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x4.size a ≤ S1x4.size a
  hwx5_4 : ∀ i : grid5.Coords, EltTy.bits .f32 = 32 ∨ (Rect.block (s := S1x4) S1x4.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x2.size a ≤ S100000x2.size a
  hwx5_5 : ∀ i : grid5.Coords, EltTy.bits .f32 = 32 ∨ (Rect.block (s := S100000x2) S5000x2.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x4.size a ≤ S100000x4.size a
  hwx5_6 : ∀ i : grid5.Coords, EltTy.bits .f32 = 32 ∨ (Rect.block (s := S100000x4) S5000x4.size (cc5_transform_6 i) (hinb5_6 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S100000x4_S6500000x1_S6500000x4_1_0_n_n_0_1_14 : GatherDims S100000x4 S6500000x1 S6500000x4 where
  offsetDims := [1]
  collapsedSliceDims := [0]
  operandBatchingDims := []
  startIndicesBatchingDims := []
  startIndexMap := [0]
  indexVectorDim := 1
  sliceSizes := ![1, 4]
  wf := gather_S100000x4_S6500000x1_S6500000x4_1_0_n_n_0_1_14_wf
def scatter_S100000x4_S6500000x1_S6500000x4_1_0_0_1 : ScatterDims S100000x4 S6500000x1 S6500000x4 where
  updateWindowDims := [1]
  insertedWindowDims := [0]
  scatterDimsToOperandDims := [0]
  indexVectorDim := 1
  wf := scatter_S100000x4_S6500000x1_S6500000x4_1_0_0_1_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf
def dot_S5000x2_S2x4_S5000x4_1_0_0_1_n_n : DotDims S5000x2 S2x4 S5000x4 where
  lhsContracting := [1]
  rhsContracting := [0]
  lhsNonContracting := [0]
  rhsNonContracting := [1]
  lhsBatch := []
  rhsBatch := []
  wf := dot_S5000x2_S2x4_S5000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S10000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x4.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S10000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S4x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v45) S10000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v58) S2x4.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x4.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59_0) S5000x2.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v59_1) S5000x4.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S100000x4 : Shape := ⟨2, ![100000, 4]⟩
abbrev S_ : Shape := ⟨0, ![]⟩
abbrev S6500000x1 : Shape := ⟨2, ![6500000, 1]⟩
abbrev S6500000x4 : Shape := ⟨2, ![6500000, 4]⟩
abbrev S1x4 : Shape := ⟨2, ![1, 4]⟩
abbrev S100000x2 : Shape := ⟨2, ![100000, 2]⟩
abbrev S6500000x2 : Shape := ⟨2, ![6500000, 2]⟩
abbrev S1x2 : Shape := ⟨2, ![1, 2]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x6400000, .i32⟩
  | 2 => ⟨S128x4, .f32⟩
  | 3 => ⟨S4, .f32⟩
  | 4 => ⟨S4x4, .f32⟩
  | 5 => ⟨S4, .f32⟩
  | 6 => ⟨S4x2, .f32⟩
  | 7 => ⟨S2, .f32⟩
  | 8 => ⟨S2x4, .f32⟩
  | 9 => ⟨S4, .f32⟩
  | 10 => ⟨S100000, .i32⟩
  | 11 => ⟨S1x6400000, .i32⟩
  | 12 => ⟨S6400000, .i32⟩
  | 13 => ⟨S6500000, .i32⟩
  | 14 => ⟨S1x6400000, .i32⟩
  | 15 => ⟨S6400000, .i32⟩
  | 16 => ⟨S6500000, .i32⟩
  | 17 => ⟨S100000x4, .f32⟩
  | 18 => ⟨S_, .f32⟩
  | 19 => ⟨S6500000, .f32⟩
  | 20 => ⟨S_, .f32⟩
  | 21 => ⟨S100000, .f32⟩
  | 22 => ⟨S6500000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S6500000, .i32⟩
  | 34 => ⟨S6500000, .i1⟩
  | 35 => ⟨S_, .i32⟩
  | 36 => ⟨S6500000, .i32⟩
  | 37 => ⟨S6500000, .i32⟩
  | 38 => ⟨S6500000, .i32⟩
  | 39 => ⟨S6500000x1, .i32⟩
  | 40 => ⟨S6500000, .f32⟩
  | 41 => ⟨S_, .i32⟩
  | 42 => ⟨S6500000, .i32⟩
  | 43 => ⟨S6500000, .i1⟩
  | 44 => ⟨S_, .i32⟩
  | 45 => ⟨S6500000, .i32⟩
  | 46 => ⟨S6500000, .i32⟩
  | 47 => ⟨S6500000, .i32⟩
  | 48 => ⟨S6500000x1, .i32⟩
  | 49 => ⟨S6500000, .f32⟩
  | 50 => ⟨S6500000, .f32⟩
  | 51 => ⟨S_, .i32⟩
  | 52 => ⟨S6500000, .i32⟩
  | 53 => ⟨S6500000, .i1⟩
  | 54 => ⟨S_, .i32⟩
  | 55 => ⟨S6500000, .i32⟩
  | 56 => ⟨S6500000, .i32⟩
  | 57 => ⟨S6500000, .i32⟩
  | 58 => ⟨S6500000x1, .i32⟩
  | 59 => ⟨S6500000x4, .f32⟩
  | 60 => ⟨S6500000x1, .f32⟩
  | 61 => ⟨S6500000x4, .f32⟩
  | 62 => ⟨S6500000x4, .f32⟩
  | 63 => ⟨S_, .f32⟩
  | 64 => ⟨S100000x4, .f32⟩
  | 65 => ⟨S6500000x1, .i32⟩
  | 66 => ⟨S100000x4, .f32⟩
  | 67 => ⟨S1x4, .f32⟩
  | 68 => ⟨S100000x4, .f32⟩
  | 69 => ⟨S100000x4, .f32⟩
  | 70 => ⟨S100000x4, .f32⟩
  | 71 => ⟨S100000x4, .f32⟩
  | 72 => ⟨S_, .f32⟩
  | 73 => ⟨S6500000, .f32⟩
  | 74 => ⟨S_, .f32⟩
  | 75 => ⟨S100000, .f32⟩
  | 76 => ⟨S6500000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S6500000, .i32⟩
  | 88 => ⟨S6500000, .i1⟩
  | 89 => ⟨S_, .i32⟩
  | 90 => ⟨S6500000, .i32⟩
  | 91 => ⟨S6500000, .i32⟩
  | 92 => ⟨S6500000, .i32⟩
  | 93 => ⟨S6500000x1, .i32⟩
  | 94 => ⟨S6500000, .f32⟩
  | 95 => ⟨S_, .i32⟩
  | 96 => ⟨S6500000, .i32⟩
  | 97 => ⟨S6500000, .i1⟩
  | 98 => ⟨S_, .i32⟩
  | 99 => ⟨S6500000, .i32⟩
  | 100 => ⟨S6500000, .i32⟩
  | 101 => ⟨S6500000, .i32⟩
  | 102 => ⟨S6500000x1, .i32⟩
  | 103 => ⟨S6500000, .f32⟩
  | 104 => ⟨S6500000, .f32⟩
  | 105 => ⟨S_, .i32⟩
  | 106 => ⟨S6500000, .i32⟩
  | 107 => ⟨S6500000, .i1⟩
  | 108 => ⟨S_, .i32⟩
  | 109 => ⟨S6500000, .i32⟩
  | 110 => ⟨S6500000, .i32⟩
  | 111 => ⟨S6500000, .i32⟩
  | 112 => ⟨S6500000x1, .i32⟩
  | 113 => ⟨S6500000x4, .f32⟩
  | 114 => ⟨S6500000x1, .f32⟩
  | 115 => ⟨S6500000x4, .f32⟩
  | 116 => ⟨S6500000x4, .f32⟩
  | 117 => ⟨S_, .f32⟩
  | 118 => ⟨S100000x4, .f32⟩
  | 119 => ⟨S6500000x1, .i32⟩
  | 120 => ⟨S100000x4, .f32⟩
  | 121 => ⟨S1x4, .f32⟩
  | 122 => ⟨S100000x4, .f32⟩
  | 123 => ⟨S100000x4, .f32⟩
  | 124 => ⟨S100000x4, .f32⟩
  | 125 => ⟨S100000x2, .f32⟩
  | 126 => ⟨S_, .f32⟩
  | 127 => ⟨S6500000, .f32⟩
  | _ => ⟨S100000x128, .f32⟩

abbrev hbmTy0_1 (i : Nat) : BufTy := match i % 128 with
  | 0 => ⟨S_, .f32⟩
  | 1 => ⟨S100000, .f32⟩
  | 2 => ⟨S6500000x1, .i32⟩
  | 3 => ⟨S100000, .f32⟩
  | 4 => ⟨S_, .f32⟩
  | 5 => ⟨S100000, .f32⟩
  | 6 => ⟨S100000, .i1⟩
  | 7 => ⟨S100000, .f32⟩
  | 8 => ⟨S_, .f32⟩
  | 9 => ⟨S_, .f32⟩
  | 10 => ⟨S100000, .f32⟩
  | 11 => ⟨S100000, .f32⟩
  | 12 => ⟨S_, .i32⟩
  | 13 => ⟨S6500000, .i32⟩
  | 14 => ⟨S6500000, .i1⟩
  | 15 => ⟨S_, .i32⟩
  | 16 => ⟨S6500000, .i32⟩
  | 17 => ⟨S6500000, .i32⟩
  | 18 => ⟨S6500000, .i32⟩
  | 19 => ⟨S6500000x1, .i32⟩
  | 20 => ⟨S6500000, .f32⟩
  | 21 => ⟨S_, .i32⟩
  | 22 => ⟨S6500000, .i32⟩
  | 23 => ⟨S6500000, .i1⟩
  | 24 => ⟨S_, .i32⟩
  | 25 => ⟨S6500000, .i32⟩
  | 26 => ⟨S6500000, .i32⟩
  | 27 => ⟨S6500000, .i32⟩
  | 28 => ⟨S6500000x1, .i32⟩
  | 29 => ⟨S6500000, .f32⟩
  | 30 => ⟨S6500000, .f32⟩
  | 31 => ⟨S_, .i32⟩
  | 32 => ⟨S6500000, .i32⟩
  | 33 => ⟨S6500000, .i1⟩
  | 34 => ⟨S_, .i32⟩
  | 35 => ⟨S6500000, .i32⟩
  | 36 => ⟨S6500000, .i32⟩
  | 37 => ⟨S6500000, .i32⟩
  | 38 => ⟨S6500000x1, .i32⟩
  | 39 => ⟨S6500000x2, .f32⟩
  | 40 => ⟨S6500000x1, .f32⟩
  | 41 => ⟨S6500000x2, .f32⟩
  | 42 => ⟨S6500000x2, .f32⟩
  | 43 => ⟨S_, .f32⟩
  | 44 => ⟨S100000x2, .f32⟩
  | 45 => ⟨S6500000x1, .i32⟩
  | 46 => ⟨S100000x2, .f32⟩
  | 47 => ⟨S1x2, .f32⟩
  | 48 => ⟨S100000x2, .f32⟩
  | 49 => ⟨S100000x2, .f32⟩
  | 50 => ⟨S100000x2, .f32⟩
  | 51 => ⟨S100000x4, .f32⟩
  | 52 => ⟨S1x4, .f32⟩
  | 53 => ⟨S100000x4, .f32⟩
  | 54 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_23 : Ref sig .tc := ⟨.hbm, 136, rfl⟩
abbrev main_call2_v0 : Ref sig .tc := ⟨.hbm, 137, rfl⟩
abbrev main_call2_v1 : Ref sig .tc := ⟨.hbm, 138, rfl⟩
abbrev main_v97 : Ref sig .tc := ⟨.hbm, 139, rfl⟩
abbrev main_c_24 : Ref sig .tc := ⟨.hbm, 140, rfl⟩
abbrev main_v98 : Ref sig .tc := ⟨.hbm, 141, rfl⟩
abbrev main_v99 : Ref sig .tc := ⟨.hbm, 142, rfl⟩
abbrev main_c_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_26 : Ref sig .tc := ⟨.hbm, 149, rfl⟩
abbrev main_v105 : Ref sig .tc := ⟨.hbm, 150, rfl⟩
abbrev main_v106 : Ref sig .tc := ⟨.hbm, 151, rfl⟩
abbrev main_c_27 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_28 : Ref sig .tc := ⟨.hbm, 159, rfl⟩
abbrev main_v113 : Ref sig .tc := ⟨.hbm, 160, rfl⟩
abbrev main_v114 : Ref sig .tc := ⟨.hbm, 161, rfl⟩
abbrev main_c_29 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_30 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x4_0_1 : S6500000x1.BroadcastsInDim S6500000x4 (![0, 1] : Fin 2 → Fin S6500000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x4_S100000x4_1_0_0_1_n_n_wf : DotDims.WF S100000x128 S128x4 S100000x4 [1] [0] [0] [1] [] []
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x4_S6500000x1_S6500000x4_1_0_n_n_0_1_14_wf : GatherDims.WF S100000x4 S6500000x1 S6500000x4 [1] [0] [] [0] [] 1 ![1, 4]
  scatter_S100000x4_S6500000x1_S6500000x4_1_0_0_1_wf : ScatterDims.WF S100000x4 S6500000x1 S6500000x4 [1] [0] [0] 1
  dot_S100000x4_S4x4_S100000x4_1_0_0_1_n_n_wf : DotDims.WF S100000x4 S4x4 S100000x4 [1] [0] [0] [1] [] []
  dot_S100000x4_S4x2_S100000x2_1_0_0_1_n_n_wf : DotDims.WF S100000x4 S4x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  dot_S100000x2_S2x4_S100000x4_1_0_0_1_n_n_wf : DotDims.WF S100000x2 S2x4 S100000x4 [1] [0] [0] [1] [] []

variable [Facts₀]

def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x4_S6500000x1_S6500000x4_1_0_n_n_0_1_14 : GatherDims S100000x4 S6500000x1 S6500000x4 where
  offsetDims := [1]
  collapsedSliceDims := [0]
  operandBatchingDims := []
  startIndicesBatchingDims := []
  startIndexMap := [0]
  indexVectorDim := 1
  sliceSizes := ![1, 4]
  wf := gather_S100000x4_S6500000x1_S6500000x4_1_0_n_n_0_1_14_wf
def scatter_S100000x4_S6500000x1_S6500000x4_1_0_0_1 : ScatterDims S100000x4 S6500000x1 S6500000x4 where
  updateWindowDims := [1]
  insertedWindowDims := [0]
  scatterDimsToOperandDims := [0]
  indexVectorDim := 1
  wf := scatter_S100000x4_S6500000x1_S6500000x4_1_0_0_1_wf
def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf
def dot_S100000x2_S2x4_S100000x4_1_0_0_1_n_n : DotDims S100000x2 S2x4 S100000x4 where
  lhsContracting := [1]
  rhsContracting := [0]
  lhsNonContracting := [0]
  rhsNonContracting := [1]
  lhsBatch := []
  rhsBatch := []
  wf := dot_S100000x2_S2x4_S100000x4_1_0_0_1_n_n_wf

class Facts : Prop extends Facts₀ where

variable [Facts]
-- ==== Proof.KRun.lean ====
/-
  The idealized kernel's run with its two result arrays named.

  Every weakly fair execution of the program ends with the array of class scores and the array of third-layer features
  holding what the last of its six regions leaves in them — the contents of the last segment boundary, read at the two
  result buffers — and with the ten argument arrays as they were launched.
-/
import proofs.«139661_j19516331393575_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two result arrays at the last boundary's contents, the arguments unchanged. -/
theorem run_results : θ_run defs (onTc (τ := τ) (main (F := F))) ⟨m, fun _ => 0, ρ⟩ (fun r => ∀ c : Dev nD,
      r.2.mem ((c.tc : Thread nD τ).loc main_v59_1) = W14 m ρ c (Proc.devRef .tc main_v59_1)
      ∧ r.2.mem ((c.tc : Thread nD τ).loc main_v59_0) = W14 m ρ c (Proc.devRef .tc main_v59_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v59_1 (by decide)),
       h c _ (mem_uc main_v59_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.KRun

end
-- ==== Proof.LibERealLaws.lean ====
/-
  General laws of the extended reals used by the certificate: one-hot sums, a non-negative finite
  scalar distributing over a finite sum, and division by a positive real.
-/
import Idealize.ShloMosaic.PureOps.Ideal
import Mathlib.Data.EReal.Operations
import Mathlib.Data.EReal.Inv

namespace Cert.LibERealLaws

open scoped BigOperators
open Idealize.ShloMosaic

/-! ### One-hot sums

x * 0 = 0 and x * 1 = x hold for EVERY extended real (also at the infinities), so a sum against a
one-hot vector picks out one term with no finiteness hypothesis. -/

/-- ∑ k, x k * [k = d] = x d, for any family of extended reals. -/
theorem one_hot_sum_right {ι : Type*} [Fintype ι] [DecidableEq ι] (x : ι → EReal) (d : ι) :
    (∑ k, x k * (if k = d then (1 : EReal) else 0)) = x d := by
  rw [Finset.sum_eq_single d]
  · rw [if_pos rfl, mul_one]
  · intro b _ hb; rw [if_neg hb, mul_zero]
  · intro h; exact absurd (Finset.mem_univ d) h

/-- ∑ k, [k = d] * x k = x d, for any family of extended reals. -/
theorem one_hot_sum_left {ι : Type*} [Fintype ι] [DecidableEq ι] (x : ι → EReal) (d : ι) :
    (∑ k, (if k = d then (1 : EReal) else 0) * x k) = x d := by
  rw [Finset.sum_eq_single d]
  · rw [if_pos rfl, one_mul]
  · intro b _ hb; rw [if_neg hb, zero_mul]
  · intro h; exact absurd (Finset.mem_univ d) h

/-- ∑ k, x k * [d = k] = x d (the one-hot written with the sides of the equation swapped). -/
theorem one_hot_sum_right' {ι : Type*} [Fintype ι] [DecidableEq ι] (x : ι → EReal) (d : ι) :
    (∑ k, x k * (if d = k then (1 : EReal) else 0)) = x d := by
  rw [Finset.sum_eq_single d]
  · rw [if_pos rfl, mul_one]
  · intro b _ hb; rw [if_neg (Ne.symm hb), mul_zero]
  · intro h; exact absurd (Finset.mem_univ d) h

/-- ∑ k, [d = k] * x k = x d (the one-hot written with the sides of the equation swapped). -/
theorem one_hot_sum_left' {ι : Type*} [Fintype ι] [DecidableEq ι] (x : ι → EReal) (d : ι) :
    (∑ k, (if d = k then (1 : EReal) else 0) * x k) = x d := by
  rw [Finset.sum_eq_single d]
  · rw [if_pos rfl, one_mul]
  · intro b _ hb; rw [if_neg (Ne.symm hb), zero_mul]
  · intro h; exact absurd (Finset.mem_univ d) h

/-- 0 + ∑ k, x k * [k = d] = x d: the one-hot sum read as "initial value 0 plus the sum". -/
theorem zero_add_one_hot_sum_right {ι : Type*} [Fintype ι] [DecidableEq ι] (x : ι → EReal) (d : ι) :
    (0 : EReal) + (∑ k, x k * (if k = d then (1 : EReal) else 0)) = x d := by
  rw [zero_add, one_hot_sum_right]

/-- 0 + ∑ k, [k = d] * x k = x d: the one-hot sum read as "initial value 0 plus the sum". -/
theorem zero_add_one_hot_sum_left {ι : Type*} [Fintype ι] [DecidableEq ι] (x : ι → EReal) (d : ι) :
    (0 : EReal) + (∑ k, (if k = d then (1 : EReal) else 0) * x k) = x d := by
  rw [zero_add, one_hot_sum_left]

/-- 0 + ∑ k, x k * [d = k] = x d. -/
theorem zero_add_one_hot_sum_right' {ι : Type*} [Fintype ι] [DecidableEq ι] (x : ι → EReal) (d : ι) :
    (0 : EReal) + (∑ k, x k * (if d = k then (1 : EReal) else 0)) = x d := by
  rw [zero_add, one_hot_sum_right']

/-- 0 + ∑ k, [d = k] * x k = x d. -/
theorem zero_add_one_hot_sum_left' {ι : Type*} [Fintype ι] [DecidableEq ι] (x : ι → EReal) (d : ι) :
    (0 : EReal) + (∑ k, (if d = k then (1 : EReal) else 0) * x k) = x d := by
  rw [zero_add, one_hot_sum_left']

/-- The one-hot sums over Fin n, the form a contraction over a tensor axis takes: both orders of the
    product, each with and without a leading 0 +. -/
theorem one_hot_sum {n : ℕ} (x : Fin n → EReal) (d : Fin n) :
    (∑ k, x k * (if k = d then (1 : EReal) else 0)) = x d
      ∧ (∑ k, (if k = d then (1 : EReal) else 0) * x k) = x d
      ∧ (0 : EReal) + (∑ k, x k * (if k = d then (1 : EReal) else 0)) = x d
      ∧ (0 : EReal) + (∑ k, (if k = d then (1 : EReal) else 0) * x k) = x d :=
  ⟨one_hot_sum_right x d, one_hot_sum_left x d, zero_add_one_hot_sum_right x d,
    zero_add_one_hot_sum_left x d⟩

/-! ### A non-negative finite scalar distributes over a finite sum

Multiplication by an extended real does not distribute over addition in general (⊤ + ⊥), but it
does for a factor c with 0 ≤ c and c ≠ ⊤, whatever the summands are. -/

/-- c * ∑ k ∈ s, f k = ∑ k ∈ s, c * f k for 0 ≤ c, c ≠ ⊤ and any extended reals f k. -/
theorem mul_finset_sum {ι : Type*} (s : Finset ι) {c : EReal} (h0 : 0 ≤ c) (ht : c ≠ ⊤)
    (f : ι → EReal) : c * ∑ k ∈ s, f k = ∑ k ∈ s, c * f k := by
  classical
  induction s using Finset.induction_on with
  | empty => rw [Finset.sum_empty, Finset.sum_empty, mul_zero]
  | insert a s ha ih =>
    rw [Finset.sum_insert ha, Finset.sum_insert ha,
      EReal.left_distrib_of_nonneg_of_ne_top h0 ht, ih]

/-- c * ∑ k, f k = ∑ k, c * f k over a finite type, for 0 ≤ c, c ≠ ⊤. -/
theorem mul_sum {ι : Type*} [Fintype ι] {c : EReal} (h0 : 0 ≤ c) (ht : c ≠ ⊤) (f : ι → EReal) :
    c * ∑ k, f k = ∑ k, c * f k :=
  mul_finset_sum Finset.univ h0 ht f

/-- c * ∑ k, a k * b k = ∑ k, (c * a k) * b k over a finite type, for 0 ≤ c, c ≠ ⊤. -/
theorem mul_sum_mul {ι : Type*} [Fintype ι] {c : EReal} (h0 : 0 ≤ c) (ht : c ≠ ⊤)
    (a b : ι → EReal) : c * ∑ k, a k * b k = ∑ k, (c * a k) * b k := by
  rw [mul_sum h0 ht]
  exact Finset.sum_congr rfl fun k _ => (mul_assoc c (a k) (b k)).symm

/-- 0 ≤ 2 in the extended reals. -/
theorem two_nonneg : (0 : EReal) ≤ 2 := by
  have h : ((0 : ℝ) : EReal) ≤ ((2 : ℝ) : EReal) := EReal.coe_le_coe_iff.2 (by norm_num)
  exact_mod_cast h

/-- 2 ≠ ⊤ in the extended reals. -/
theorem two_ne_top : (2 : EReal) ≠ ⊤ := by
  have h : ((2 : ℝ) : EReal) ≠ ⊤ := EReal.coe_ne_top 2
  exact_mod_cast h

/-- 2 * ∑ k, f k = ∑ k, 2 * f k for any extended reals f k. -/
theorem two_mul_sum {n : ℕ} (f : Fin n → EReal) : (2 : EReal) * ∑ k, f k = ∑ k, 2 * f k :=
  mul_sum two_nonneg two_ne_top f

/-- 2 * ∑ k, a k * b k = ∑ k, (2 * a k) * b k for any extended reals a k, b k. -/
theorem two_mul_sum_mul {n : ℕ} (a b : Fin n → EReal) :
    (2 : EReal) * ∑ k, a k * b k = ∑ k, (2 * a k) * b k :=
  mul_sum_mul two_nonneg two_ne_top a b

/-- A real coefficient c ≥ 0 coerced: ↑c * ∑ k, f k = ∑ k, ↑c * f k. -/
theorem coe_mul_sum {ι : Type*} [Fintype ι] {c : ℝ} (h0 : 0 ≤ c) (f : ι → EReal) :
    (c : EReal) * ∑ k, f k = ∑ k, (c : EReal) * f k :=
  mul_sum (EReal.coe_nonneg.2 h0) (EReal.coe_ne_top c) f

/-! ### Division by a positive real

Ideal.div x y is x * y⁻¹ off y = 0; for y a positive real it is multiplication by the real
y⁻¹, at the infinities too, and so commutes with the other factors of a product. -/

/-- x / L = x * L⁻¹ for a real L > 0 and every extended real x. -/
theorem div_pos_real {L : ℝ} (hL : 0 < L) (x : EReal) :
    Ideal.div x (L : EReal) = x * ((L⁻¹ : ℝ) : EReal) := by
  rw [Ideal.div_coe hL.ne', one_div]

/-- (c / L) * x = c * (x / L) for a real L > 0 and all extended reals c, x. -/
theorem div_mul_eq_mul_div {L : ℝ} (hL : 0 < L) (c x : EReal) :
    Ideal.div c (L : EReal) * x = c * Ideal.div x (L : EReal) := by
  rw [div_pos_real hL, div_pos_real hL, mul_assoc, mul_comm ((L⁻¹ : ℝ) : EReal) x]

/-- x * (1 / L) = x / L for a real L > 0 and every extended real x. -/
theorem mul_one_div {L : ℝ} (hL : 0 < L) (x : EReal) :
    x * Ideal.div 1 (L : EReal) = Ideal.div x (L : EReal) := by
  rw [div_pos_real hL, div_pos_real hL, one_mul]

/-- (1 / L) * x = x / L for a real L > 0 and every extended real x. -/
theorem one_div_mul {L : ℝ} (hL : 0 < L) (x : EReal) :
    Ideal.div 1 (L : EReal) * x = Ideal.div x (L : EReal) := by
  rw [mul_comm, mul_one_div hL]

/-- (x / L) * y = (x * y) / L for a real L > 0. -/
theorem div_mul {L : ℝ} (hL : 0 < L) (x y : EReal) :
    Ideal.div x (L : EReal) * y = Ideal.div (x * y) (L : EReal) := by
  rw [div_pos_real hL, div_pos_real hL, mul_assoc, mul_comm ((L⁻¹ : ℝ) : EReal) y, mul_assoc]

/-- x * (y / L) = (x * y) / L for a real L > 0. -/
theorem mul_div {L : ℝ} (hL : 0 < L) (x y : EReal) :
    x * Ideal.div y (L : EReal) = Ideal.div (x * y) (L : EReal) := by
  rw [div_pos_real hL, div_pos_real hL, mul_assoc]

/-- A quotient of a real by a positive real is the real quotient. -/
theorem div_coe_coe {L : ℝ} (hL : 0 < L) (r : ℝ) :
    Ideal.div (r : EReal) (L : EReal) = ((r / L : ℝ) : EReal) := by
  rw [div_pos_real hL, ← EReal.coe_mul, div_eq_mul_inv]

/-! ### Products of positive reals -/

/-- The square of a real, coerced: ↑a * ↑a = ↑(a * a). -/
theorem coe_mul_self (a : ℝ) : ((a : ℝ) : EReal) * (a : EReal) = ((a * a : ℝ) : EReal) :=
  (EReal.coe_mul a a).symm

/-- The square of a positive real is a positive real: ↑a * ↑a = ↑(a * a) with 0 < a * a. -/
theorem coe_mul_self_pos {a : ℝ} (ha : 0 < a) :
    ((a : ℝ) : EReal) * (a : EReal) = ((a * a : ℝ) : EReal) ∧ 0 < a * a :=
  ⟨coe_mul_self a, mul_pos ha ha⟩

/-- The product of two positive reals, coerced, is a positive real. -/
theorem coe_mul_pos {a b : ℝ} (ha : 0 < a) (hb : 0 < b) :
    ((a : ℝ) : EReal) * (b : EReal) = ((a * b : ℝ) : EReal) ∧ 0 < a * b :=
  ⟨(EReal.coe_mul a b).symm, mul_pos ha hb⟩

end Cert.LibERealLaws
-- ==== Proof.GcnLaw.lean ====
/-
  One graph-convolution layer with symmetric normalisation, in two arrangements, and the law that joins them.

  Fix a graph on `N` nodes with `E` edges.  Edge `e` reads node `s e` and, when `P e i` holds, is added into node `i`;
  `t e` is the node the edge's normalisation is taken at, and an edge added into `i` has `t e = i`.  Every node `j`
  carries a weight `d j` (the inverse square root of its degree) with `0 ≤ d j` and `d j ≠ ⊤`.

  * The FIRST arrangement multiplies each message `(h · W) (s e)` by `d (s e) * d (t e)` and then adds the messages of the
    edges into `i`.
  * The SECOND arrangement scales row `j` of `h` by `d j` before the product with `W`, adds the messages of the edges into
    `i`, and multiplies the sum by `d i`.

  The two agree on the extended reals WHATEVER the entries of `h`, `W` and the bias are: the only factors moved across a
  sum are the weights `d j`, and a factor `c` with `0 ≤ c`, `c ≠ ⊤` distributes over any finite sum of extended reals.
-/
import proofs.«139661_j19516331393575_2_alg».proof.Proof.LibERealLaws

noncomputable section

namespace Cert.GcnLaw

open scoped BigOperators
open Idealize.ShloMosaic

variable {N E K C : ℕ}

/-- Entry `(j, c)` of the product of `h` with `W`. -/
def rowDot (h : Fin N → Fin K → EReal) (W : Fin K → Fin C → EReal) (j : Fin N) (c : Fin C) : EReal :=
  ∑ k, h j k * W k c

/-- Scaling a row by a weight before the product is scaling the product: `∑ k, (x k * d) * w k = (∑ k, x k * w k) * d`
    for `0 ≤ d`, `d ≠ ⊤`. -/
theorem prescale_row {d : EReal} (h0 : 0 ≤ d) (ht : d ≠ ⊤) (x w : Fin K → EReal) :
    ∑ k, (x k * d) * w k = (∑ k, x k * w k) * d := by
  rw [mul_comm (∑ k, x k * w k) d, Cert.LibERealLaws.mul_sum h0 ht]
  refine Finset.sum_congr rfl fun k _ => ?_
  rw [mul_comm (x k) d, mul_assoc]

/-- The sum over the edges into `i` of messages carrying `d (s e) * d (t e)` is `d i` times the sum of the messages
    carrying `d (s e)` alone: on those edges `t e = i`, and `d i` distributes over the sum. -/
theorem agg_law (d : Fin N → EReal) (hd0 : ∀ j, 0 ≤ d j) (hdt : ∀ j, d j ≠ ⊤) (g : Fin N → EReal)
    (s t : Fin E → Fin N) (Q : Fin E → Prop) [DecidablePred Q] (i : Fin N) (ht : ∀ e, Q e → t e = i) :
    ∑ e, (if Q e then g (s e) * (d (s e) * d (t e)) else 0) = (∑ e, if Q e then g (s e) * d (s e) else 0) * d i := by
  rw [mul_comm _ (d i), Cert.LibERealLaws.mul_sum (hd0 i) (hdt i)]
  refine Finset.sum_congr rfl fun e _ => ?_
  by_cases hQ : Q e
  · rw [if_pos hQ, if_pos hQ, ht e hQ, ← mul_assoc, mul_comm (d i)]
  · rw [if_neg hQ, if_neg hQ, mul_zero]

/-- The first arrangement of a layer, at node `i` and feature `c`. -/
def refLayer (d : Fin N → EReal) (s t : Fin E → Fin N) (P : Fin E → Fin N → Prop) [∀ e i, Decidable (P e i)]
    (h : Fin N → Fin K → EReal) (W : Fin K → Fin C → EReal) (b : Fin C → EReal) (i : Fin N) (c : Fin C) : EReal :=
  Ideal.tanh ((0 + ∑ e, if P e i then rowDot h W (s e) c * (d (s e) * d (t e)) else 0) + b c)

/-- The second arrangement of a layer, at node `i` and feature `c`. -/
def kerLayer (d : Fin N → EReal) (s : Fin E → Fin N) (P : Fin E → Fin N → Prop) [∀ e i, Decidable (P e i)]
    (h : Fin N → Fin K → EReal) (W : Fin K → Fin C → EReal) (b : Fin C → EReal) (i : Fin N) (c : Fin C) : EReal :=
  Ideal.tanh ((0 + ∑ e, if P e i then (∑ k, (h (s e) k * d (s e)) * W k c) else 0) * d i + b c)

/-- THE LAW: the two arrangements of a layer are one function. -/
theorem layer_eq (d : Fin N → EReal) (hd0 : ∀ j, 0 ≤ d j) (hdt : ∀ j, d j ≠ ⊤) (s t : Fin E → Fin N)
    (P : Fin E → Fin N → Prop) [∀ e i, Decidable (P e i)] (ht : ∀ e i, P e i → t e = i)
    (h : Fin N → Fin K → EReal) (W : Fin K → Fin C → EReal) (b : Fin C → EReal) (i : Fin N) (c : Fin C) :
    refLayer d s t P h W b i c = kerLayer d s P h W b i c := by
  unfold refLayer kerLayer
  refine congrArg Ideal.tanh (congrArg (fun z => z + b c) ?_)
  rw [zero_add, zero_add,
    agg_law d hd0 hdt (fun j => rowDot h W j c) s t (fun e => P e i) i (fun e he => ht e i he)]
  refine congrArg (fun z => z * d i) (Finset.sum_congr rfl fun e _ => ?_)
  by_cases hP : P e i
  · rw [if_pos hP, if_pos hP, prescale_row (hd0 (s e)) (hdt (s e))]
    rfl
  · rw [if_neg hP, if_neg hP]

/-! ### The weight of a node -/

/-- The weight of a node of degree `deg`: the inverse square root where the degree is positive, zero elsewhere. -/
def weight (deg : EReal) : EReal := if 0 < deg then Ideal.rsqrt deg else 0

/-- The inverse square root of a positive extended real is a nonnegative real (zero at `⊤`). -/
theorem rsqrt_of_pos {x : EReal} (hx : 0 < x) : 0 ≤ Ideal.rsqrt x ∧ Ideal.rsqrt x ≠ ⊤ := by
  induction x using EReal.rec with
  | bot => exact absurd hx (by simp)
  | top => exact ⟨le_of_eq rfl, by simp [Ideal.rsqrt_top]⟩
  | coe r =>
    have hr : 0 < r := EReal.coe_pos.mp hx
    rw [Ideal.rsqrt_coe, if_neg (not_lt.mpr hr.le), if_neg hr.ne']
    exact ⟨EReal.coe_nonneg.mpr (inv_nonneg.mpr (Real.sqrt_nonneg r)), EReal.coe_ne_top _⟩

theorem weight_nonneg (deg : EReal) : 0 ≤ weight deg := by
  unfold weight
  split
  · rename_i h; exact (rsqrt_of_pos h).1
  · exact le_refl 0

theorem weight_ne_top (deg : EReal) : weight deg ≠ ⊤ := by
  unfold weight
  split
  · rename_i h; exact (rsqrt_of_pos h).2
  · exact EReal.zero_ne_top

end Cert.GcnLaw

end
-- ==== Proof.GcnAffine.lean ====
/-
  The closing affine layer: entry `(i, c)` of a matrix product plus a bias.
-/
import proofs.«139661_j19516331393575_2_alg».proof.Proof.GcnLaw

noncomputable section

namespace Cert.GcnAffine

open scoped BigOperators

variable {N K C : ℕ}

/-- Row `i` of `H` times column `c` of `W`, plus `b c`. -/
def affine (H : Fin N → Fin K → EReal) (W : Fin K → Fin C → EReal) (b : Fin C → EReal) (i : Fin N) (c : Fin C) : EReal :=
  (∑ k, H i k * W k c) + b c

/-- A sum of products plus a constant whose factors and constant are those of the affine layer. -/
theorem affine_intro (f g : Fin K → EReal) (b0 : EReal) (H : Fin N → Fin K → EReal) (W : Fin K → Fin C → EReal)
    (b : Fin C → EReal) (i : Fin N) (c : Fin C) (hf : ∀ k, f k = H i k) (hg : ∀ k, g k = W k c) (hb : b0 = b c) :
    (∑ k, f k * g k) + b0 = affine H W b i c := by
  unfold affine
  rw [hb]
  refine congrArg (fun z => z + b c) (Finset.sum_congr rfl fun k _ => ?_)
  rw [hf, hg]

/-- The affine layer depends on its data only through their values. -/
theorem affine_congr {H H' : Fin N → Fin K → EReal} {W W' : Fin K → Fin C → EReal} {b b' : Fin C → EReal}
    (hH : ∀ i k, H i k = H' i k) (hW : ∀ k c, W k c = W' k c) (hb : ∀ c, b c = b' c) (i : Fin N) (c : Fin C) :
    affine H W b i c = affine H' W' b' i c := by
  obtain rfl : H = H' := funext fun i => funext (hH i)
  obtain rfl : W = W' := funext fun k => funext (hW k)
  obtain rfl : b = b' := funext hb
  rfl

end Cert.GcnAffine

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.KReg0.lean ====
/-
  Region 0 of the idealized kernel: the first layer's scaled product, as one function of whole arrays.

  The region walks the node rows in ten blocks of 10000.  At a block it multiplies each row of the features by that
  row's weight, and the product of the scaled block with the whole 128 x 4 matrix is written to the same rows of the
  output.  A row of the product reads only its own row, so the block written at a point is the same rows of ONE whole-array
  function: entry `(i, c)` is the sum over `k` of `(x (i, k) * d (i, 0)) * w (k, c)`.  The ten blocks tile the rows, so after
  the region the output array is that function of the region's three input arrays.
-/
import proofs.«139661_j19516331393575_2_alg».proof.Proof.Gen.KernelIdeal.Frame
import proofs.«139661_j19516331393575_2_alg».proof.Proof.LibRowOps
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KReg

open Cert.KernelIdeal Cert.KernelIdeal.Gen

theorem hz : (![0, 0] : Fin 2 → Nat) = fun _ => 0 := funext fun a => by fin_cases a <;> rfl

/-- A column `[a, 1]` broadcast along a second axis reads, at `(p, q)`, the column's entry `p`. -/
theorem bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-! ## Region 0 -/

theorem dot0_l0 (i : S10000x4.Idx) (q : dot_S10000x128_S128x4_S10000x4_1_0_0_1_n_n.contr.Idx) :
    (dot_S10000x128_S128x4_S10000x4_1_0_0_1_n_n.lhsIdx i q 0).val = (i 0).val := by
  unfold DotDims.lhsIdx
  rw [dif_neg (show ¬(0 : Fin S10000x128.rank) ∈ dot_S10000x128_S128x4_S10000x4_1_0_0_1_n_n.lhsBatch by decide),
    dif_pos (show (0 : Fin S10000x128.rank) ∈ dot_S10000x128_S128x4_S10000x4_1_0_0_1_n_n.lhsNonContracting by decide)]
  rfl
theorem dot0_l1 (i : S10000x4.Idx) (q : dot_S10000x128_S128x4_S10000x4_1_0_0_1_n_n.contr.Idx) :
    (dot_S10000x128_S128x4_S10000x4_1_0_0_1_n_n.lhsIdx i q 1).val = (q ⟨0, by decide⟩).val :=
  dot_S10000x128_S128x4_S10000x4_1_0_0_1_n_n.lhsIdx_val_of_single rfl i q
theorem dot0_r0 (i : S10000x4.Idx) (q : dot_S10000x128_S128x4_S10000x4_1_0_0_1_n_n.contr.Idx) :
    (dot_S10000x128_S128x4_S10000x4_1_0_0_1_n_n.rhsIdx i q 0).val = (q ⟨0, by decide⟩).val :=
  dot_S10000x128_S128x4_S10000x4_1_0_0_1_n_n.rhsIdx_val_of_single rfl i q
theorem dot0_r1 (i : S10000x4.Idx) (q : dot_S10000x128_S128x4_S10000x4_1_0_0_1_n_n.contr.Idx) :
    (dot_S10000x128_S128x4_S10000x4_1_0_0_1_n_n.rhsIdx i q 1).val = (i 1).val := by
  unfold DotDims.rhsIdx
  rw [dif_neg (show ¬(1 : Fin S128x4.rank) ∈ dot_S10000x128_S128x4_S10000x4_1_0_0_1_n_n.rhsBatch by decide),
    dif_pos (show (1 : Fin S128x4.rank) ∈ dot_S10000x128_S128x4_S10000x4_1_0_0_1_n_n.rhsNonContracting by decide)]
  rfl

/-- The block product at `(p, q)`: the sum over `k` of the scaled feature times the matrix entry. -/
theorem pay0_apply (x : Vec Ideal S10000x128 .f32) (dv : Vec Ideal S10000x1 .f32) (w : Vec Ideal S128x4 .bf16)
    (p : Fin 10000) (q : Fin 4) :
    k0_pay1 x dv w (ix2 p q) = ∑ k : Fin 128, (x (ix2 p k) * dv (ix2 p (0 : Fin 1))) * w (ix2 k q) := by
  unfold k0_pay1
  refine (Cert.LibRowOps.matmul_zero_apply dot_S10000x128_S128x4_S10000x4_1_0_0_1_n_n none _ _ rfl rfl
    dot0_l0 dot0_l1 dot0_r0 dot0_r1 p q).trans ?_
  refine Finset.sum_congr rfl fun k _ => ?_
  rw [shapeCast_self, shapeCast_self]
  show (x (ix2 p k) * broadcastTo S10000x128 dv broadcasts_S10000x1_S10000x128 (ix2 p k)) * w (ix2 k q) = _
  rw [bcast_col]

/-- The first layer's scaled product as a function of the whole arrays. -/
def G0 (x : S100000x128.Idx → EReal) (w : S128x4.Idx → EReal) (d : S100000x1.Idx → EReal) : S100000x4.Idx → EReal :=
  fun i => ∑ k : Fin 128, (x (ix2 ⟨(i 0).val, (i 0).isLt⟩ k) * d (ix2 ⟨(i 0).val, (i 0).isLt⟩ (0 : Fin 1)))
    * w (ix2 k ⟨(i 1).val, (i 1).isLt⟩)

/-- Where each window's block sits at a point: the row windows at block `t`, the matrix at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `G0` of the arrays as the region finds them. -/
theorem flushed0 (c : Dev nD) (t : Fin cfg0.N) :
    (dat0 V c).flushed 3 t
      = ((cfg0.win 3).blk t).view.read (Elt Ideal) (G0 (V c main_arg0) (V c main_v16) (V c main_v15)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x4) hz]
  obtain ⟨e00, e01, e10, e11, e20, e21, e30, e31⟩ := idx0 t
  funext j
  obtain ⟨p, q, rfl⟩ : ∃ (p : Fin 10000) (q : Fin 4), j = ix2 p q := ⟨j 0, j 1, eq_ix2 j⟩
  show k0_pay1 (iblk0 V c 0 t) (iblk0 V c 2 t) (iblk0 V c 1 t) (ix2 p q)
    = G0 (V c main_arg0) (V c main_v16) (V c main_v15) (((cfg0.win 3).blk t).view.emb (ix2 p q))
  refine (pay0_apply (iblk0 V c 0 t) (iblk0 V c 2 t) (iblk0 V c 1 t) p q).trans ?_
  unfold G0
  refine Finset.sum_congr rfl fun k _ => ?_
  have h0 : iblk0 V c 0 t (ix2 p k) = V c main_arg0 (ix2 ⟨((((cfg0.win 3).blk t).view.emb (ix2 p q)) 0).val, ((((cfg0.win 3).blk t).view.emb (ix2 p q)) 0).isLt⟩ k) := by
    unfold iblk0
    rw [View.read_apply]
    show V c main_arg0 _ = V c main_arg0 _
    congr 1
    funext a; apply Fin.ext
    match a with
    | ⟨0, _⟩ => show win0_0.index t 0 * 10000 + 1 * p.val = win0_3.index t 0 * 10000 + 1 * p.val; rw [e00, e30]
    | ⟨1, _⟩ => show win0_0.index t 1 * 128 + 1 * k.val = k.val; rw [e01]; omega
  have h2 : iblk0 V c 2 t (ix2 p (0 : Fin 1)) = V c main_v15 (ix2 ⟨((((cfg0.win 3).blk t).view.emb (ix2 p q)) 0).val, ((((cfg0.win 3).blk t).view.emb (ix2 p q)) 0).isLt⟩ (0 : Fin 1)) := by
    unfold iblk0
    rw [View.read_apply]
    show V c main_v15 _ = V c main_v15 _
    congr 1
    funext a; apply Fin.ext
    match a with
    | ⟨0, _⟩ => show win0_2.index t 0 * 10000 + 1 * p.val = win0_3.index t 0 * 10000 + 1 * p.val; rw [e20, e30]
    | ⟨1, _⟩ => show win0_2.index t 1 * 1 + 1 * 0 = 0; rw [e21]
  have h1 : iblk0 V c 1 t (ix2 k q) = V c main_v16 (ix2 k ⟨((((cfg0.win 3).blk t).view.emb (ix2 p q)) 1).val, ((((cfg0.win 3).blk t).view.emb (ix2 p q)) 1).isLt⟩) := by
    unfold iblk0
    rw [View.read_apply]
    show V c main_v16 _ = V c main_v16 _
    congr 1
    funext a; apply Fin.ext
    match a with
    | ⟨0, _⟩ => show win0_1.index t 0 * 128 + 1 * k.val = k.val; rw [e10]; omega
    | ⟨1, _⟩ => show win0_1.index t 1 * 4 + 1 * q.val = win0_3.index t 1 * 4 + 1 * q.val; rw [e11, e31]
  rw [h0, h2, h1]

/-- An index of the output is in point `t`'s block iff each coordinate is in the block's range on its axis. -/
theorem mem_blk0 (t : Fin cfg0.N) (i : S100000x4.Idx) :
    i ∈ ((cfg0.win 3).blk t).view.set ↔ ∀ a : Fin 2, win0_3.index t a * S10000x4.size a ≤ (i a).val
      ∧ (i a).val < win0_3.index t a * S10000x4.size a + S10000x4.size a := by
  show i ∈ ((View.whole main_v17).slice (win0_3.rect t)).set ↔ _
  rw [View.set_slice_whole, Rect.mem_set_unit]
  exact Iff.rfl

/-- THE OUTPUT ARRAY after region 0. -/
theorem final0 (c : Dev nD) :
    (dat0 V c).arrAt 3 cfg0.N = G0 (V c main_arg0) (V c main_v16) (V c main_v15) :=
  (dat0 V c).arrAt_eq_of_cover 3 _ (fun t _ => flushed0 V c t) fun i => by
    have hN : cfg0.N = 10 := N_0
    have hi0 : (i 0).val < 100000 := (i 0).isLt
    have hi1 : (i 1).val < 4 := (i 1).isLt
    refine ⟨⟨(i 0).val / 10000, by rw [hN]; omega⟩, flush0_3 _, ?_⟩
    rw [mem_blk0]
    obtain ⟨-, -, -, -, -, -, e30, e31⟩ := idx0 ⟨(i 0).val / 10000, by rw [hN]; omega⟩
    intro a
    match a with
    | ⟨0, _⟩ =>
      show win0_3.index _ 0 * 10000 ≤ (i 0).val ∧ (i 0).val < win0_3.index _ 0 * 10000 + 10000
      rw [e30]; show (i 0).val / 10000 * 10000 ≤ (i 0).val ∧ (i 0).val < (i 0).val / 10000 * 10000 + 10000; omega
    | ⟨1, _⟩ =>
      show win0_3.index _ 1 * 4 ≤ (i 1).val ∧ (i 1).val < win0_3.index _ 1 * 4 + 4
      rw [e31]; omega

end Cert.KernelIdeal.KReg

end
-- ==== Proof.KReg1.lean ====
/-
  Region 1 of the idealized kernel: the first layer's scale, bias and tanh, as one function of whole arrays.

  The node rows are walked in twenty blocks of 5000.  At a block every entry of the aggregated messages is multiplied by
  its row's weight, the bias of its column is added, and tanh is taken.  The operation is entry by entry, so every block
  written is the same rows of one whole-array function, and the twenty blocks tile the rows.
-/
import proofs.«139661_j19516331393575_2_alg».proof.Proof.KReg0
import Idealize.ShloMosaic.PureOps.Ideal
set_option maxRecDepth 16384

noncomputable section

open Idealize.ShloMosaic Idealize.ShloMosaic.TcCoe Idealize.SL.Sem Idealize.ShloMosaic.ValueIdx
open Idealize.ShloMosaic.Pipeline (Dat)

namespace Cert.KernelIdeal.KReg

open Cert.KernelIdeal Cert.KernelIdeal.Gen

variable (V : (c : Dev nD) → (b : Ref sig .tc) → Buf (Elt Ideal) ((c : Thread nD τ).loc b))

/-! ## Region 1 -/

/-- The body at `(p, q)`: the aggregate times the row's weight, plus the column's bias, through tanh. -/
theorem pay1_apply (a : Vec Ideal S5000x4 .f32) (dv : Vec Ideal S5000x1 .f32) (b : Vec Ideal S1x4 .f32)
    (p : Fin 5000) (q : Fin 4) :
    k1_pay1 a dv b (ix2 p q) = Ideal.tanh (a (ix2 p q) * dv (ix2 p (0 : Fin 1)) + b (ix2 (0 : Fin 1) q)) := by
  unfold k1_pay1
  rw [shapeCast_self, shapeCast_self, shapeCast_self]
  show Ideal.tanh (a (ix2 p q) * broadcastTo S5000x4 dv broadcasts_S5000x1_S5000x4 (ix2 p q)
    + broadcastTo S5000x4 b broadcasts_S1x4_S5000x4 (ix2 p q)) = _
  rw [bcast_col, broadcastTo_1b_ab_apply]

/-- The first layer's output as a function of the whole arrays. -/
def G1 (a : S100000x4.Idx → EReal) (d : S100000x1.Idx → EReal) (b : S1x4.Idx → EReal) : S100000x4.Idx → EReal :=
  fun i => Ideal.tanh (a i * d (ix2 ⟨(i 0).val, (i 0).isLt⟩ (0 : Fin 1)) + b (ix2 (0 : Fin 1) ⟨(i 1).val, (i 1).isLt⟩))

/-- Where each window's block sits at a point: the row windows at block `t`, the bias at its one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `G1` of the arrays as the region finds them. -/
theorem flushed1 (c : Dev nD) (t : Fin cfg1.N) :
    (dat1 V c).flushed 3 t
      = ((cfg1.win 3).blk t).view.read (Elt Ideal) (G1 (V c main_v27) (V c main_v15) (V c main_v28)) := by
  show (cfg1.win 3).cut (grid1.coords t) ((dat1 V c).after 3 t) = _
  rw [after1_3]
  unfold out1_3
  rw [View.canon_unit_zero hz]
  simp only [View.ld_unit_zero (S := S5000x4) hz, View.ld_unit_zero (S := S5000x1) hz, View.ld_unit_zero (S := S1x4) hz]
  obtain ⟨e00, e01, e10, e11, e20, e21, e30, e31⟩ := idx1 t
  funext j
  obtain ⟨p, q, rfl⟩ : ∃ (p : Fin 5000) (q : Fin 4), j = ix2 p q := ⟨j 0, j 1, eq_ix2 j⟩
  show k1_pay1 (iblk1 V c 0 t) (iblk1 V c 1 t) (iblk1 V c 2 t) (ix2 p q)
    = G1 (V c main_v27) (V c main_v15) (V c main_v28) (((cfg1.win 3).blk t).view.emb (ix2 p q))
  refine (pay1_apply (iblk1 V c 0 t) (iblk1 V c 1 t) (iblk1 V c 2 t) p q).trans ?_
  unfold G1
  have h0 : iblk1 V c 0 t (ix2 p q) = V c main_v27 (((cfg1.win 3).blk t).view.emb (ix2 p q)) := by
    unfold iblk1
    rw [View.read_apply]
    show V c main_v27 _ = V c main_v27 _
    congr 1
  have h1 : iblk1 V c 1 t (ix2 p (0 : Fin 1)) = V c main_v15 (ix2 ⟨((((cfg1.win 3).blk t).view.emb (ix2 p q)) 0).val, ((((cfg1.win 3).blk t).view.emb (ix2 p q)) 0).isLt⟩ (0 : Fin 1)) := by
    unfold iblk1
    rw [View.read_apply]
    show V c main_v15 _ = V c main_v15 _
    congr 1
    funext a; apply Fin.ext
    match a with
    | ⟨0, _⟩ => show win1_1.index t 0 * 5000 + 1 * p.val = win1_3.index t 0 * 5000 + 1 * p.val; rw [e10, e30]
    | ⟨1, _⟩ => show win1_1.index t 1 * 1 + 1 * 0 = 0; rw [e11]
  have h2 : iblk1 V c 2 t (ix2 (0 : Fin 1) q) = V c main_v28 (ix2 (0 : Fin 1) ⟨((((cfg1.win 3).blk t).view.emb (ix2 p q)) 1).val, ((((cfg1.win 3).blk t).view.emb (ix2 p q)) 1).isLt⟩) := by
    unfold iblk1
    rw [View.read_apply]
    show V c main_v28 _ = V c main_v28 _
    congr 1
    funext a; apply Fin.ext
    match a with
    | ⟨0, _⟩ => show win1_2.index t 0 * 1 + 1 * 0 = 0; rw [e20]
    | ⟨1, _⟩ => show win1_2.index t 1 * 4 + 1 * q.val = win1_3.index t 1 * 4 + 1 * q.val; rw [e21, e31]
  rw [h0, h1, h2]

/-- An index of the output is in point `t`'s block iff each coordinate is in the block's range on its axis. -/
theorem mem_blk1 (t : Fin cfg1.N) (i : S100000x4.Idx) :
    i ∈ ((cfg1.win 3).blk t).view.set ↔ ∀ a : Fin 2, win1_3.index t a * S5000x4.size a ≤ (i a).val
      ∧ (i a).val < win1_3.index t a * S5000x4.size a + S5000x4.size a := by
  show i ∈ ((View.whole main_v29).slice (win1_3.rect t)).set ↔ _
  rw [View.set_slice_whole, Rect.mem_set_unit]
  exact Iff.rfl

/-- THE OUTPUT ARRAY after region 1. -/
theorem final1 (c : Dev nD) :
    (dat1 V c).arrAt 3 cfg1.N = G1 (V c main_v27) (V c main_v15) (V c main_v28) :=
  (dat1 V c).arrAt_eq_of_cover 3 _ (fun t _ => flushed1 V c t) fun i => by
    have hN : cfg1.N = 20 := N_1
    have hi0 : (i 0).val < 100000 := (i 0).isLt
    have hi1 : (i 1).val < 4 := (i 1).isLt
    refine ⟨⟨(i 0).val / 5000, by rw [hN]; omega⟩, flush1_3 _, ?_⟩
    rw [mem_blk1]
    obtain ⟨-, -, -, -, -, -, e30, e31⟩ := idx1 ⟨(i 0).val / 5000, by rw [hN]; omega⟩
    intro a
    match a with
    | ⟨0, _⟩ =>
      show win1_3.index _ 0 * 5000 ≤ (i 0).val ∧ (i 0).val < win1_3.index _ 0 * 5000 + 5000
      rw [e30]; show (i 0).val / 5000 * 5000 ≤ (i 0).val ∧ (i 0).val < (i 0).val / 5000 * 5000 + 5000; omega
    | ⟨1, _⟩ =>
      show win1_3.index _ 1 * 4 ≤ (i 1).val ∧ (i 1).val < win1_3.index _ 1 * 4 + 4
      rw [e31]; omega

end Cert.KernelIdeal.KReg

end
-- ==== Proof.KReg2.lean ====
/-
  Region 2 of the idealized kernel: the second layer's scaled product, as one function of whole arrays.

  As in region 0, the node rows are walked in ten blocks of 10000; each row of the layer's input is multiplied by its
  weight and the scaled block is multiplied by the whole 4 x 4 matrix.  A row of the product reads only its own row, so
  every block written is the same rows of one whole-array function, and the ten blocks tile the rows.
-/
import proofs.«139661_j19516331393575_2_alg».proof.Proof.KReg0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KReg

open Cert.KernelIdeal Cert.KernelIdeal.Gen

variable (V : (c : Dev nD) → (b : Ref sig .tc) → Buf (Elt Ideal) ((c : Thread nD τ).loc b))

/-! ## Region 2 -/

theorem dot2_l0 (i : S10000x4.Idx) (q : dot_S10000x4_S4x4_S10000x4_1_0_0_1_n_n.contr.Idx) :
    (dot_S10000x4_S4x4_S10000x4_1_0_0_1_n_n.lhsIdx i q 0).val = (i 0).val := by
  unfold DotDims.lhsIdx
  rw [dif_neg (show ¬(0 : Fin S10000x4.rank) ∈ dot_S10000x4_S4x4_S10000x4_1_0_0_1_n_n.lhsBatch by decide),
    dif_pos (show (0 : Fin S10000x4.rank) ∈ dot_S10000x4_S4x4_S10000x4_1_0_0_1_n_n.lhsNonContracting by decide)]
  rfl
theorem dot2_l1 (i : S10000x4.Idx) (q : dot_S10000x4_S4x4_S10000x4_1_0_0_1_n_n.contr.Idx) :
    (dot_S10000x4_S4x4_S10000x4_1_0_0_1_n_n.lhsIdx i q 1).val = (q ⟨0, by decide⟩).val :=
  dot_S10000x4_S4x4_S10000x4_1_0_0_1_n_n.lhsIdx_val_of_single rfl i q
theorem dot2_r0 (i : S10000x4.Idx) (q : dot_S10000x4_S4x4_S10000x4_1_0_0_1_n_n.contr.Idx) :
    (dot_S10000x4_S4x4_S10000x4_1_0_0_1_n_n.rhsIdx i q 0).val = (q ⟨0, by decide⟩).val :=
  dot_S10000x4_S4x4_S10000x4_1_0_0_1_n_n.rhsIdx_val_of_single rfl i q
theorem dot2_r1 (i : S10000x4.Idx) (q : dot_S10000x4_S4x4_S10000x4_1_0_0_1_n_n.contr.Idx) :
    (dot_S10000x4_S4x4_S10000x4_1_0_0_1_n_n.rhsIdx i q 1).val = (i 1).val := by
  unfold DotDims.rhsIdx
  rw [dif_neg (show ¬(1 : Fin S4x4.rank) ∈ dot_S10000x4_S4x4_S10000x4_1_0_0_1_n_n.rhsBatch by decide),
    dif_pos (show (1 : Fin S4x4.rank) ∈ dot_S10000x4_S4x4_S10000x4_1_0_0_1_n_n.rhsNonContracting by decide)]
  rfl

/-- The block product at `(p, q)`: the sum over `k` of the scaled input times the matrix entry. -/
theorem pay2_apply (x : Vec Ideal S10000x4 .f32) (dv : Vec Ideal S10000x1 .f32) (w : Vec Ideal S4x4 .bf16)
    (p : Fin 10000) (q : Fin 4) :
    k2_pay1 x dv w (ix2 p q) = ∑ k : Fin 4, (x (ix2 p k) * dv (ix2 p (0 : Fin 1))) * w (ix2 k q) := by
  unfold k2_pay1
  refine (Cert.LibRowOps.matmul_zero_apply dot_S10000x4_S4x4_S10000x4_1_0_0_1_n_n none _ _ rfl rfl
    dot2_l0 dot2_l1 dot2_r0 dot2_r1 p q).trans ?_
  refine Finset.sum_congr rfl fun k _ => ?_
  rw [shapeCast_self, shapeCast_self, shapeCast_self]
  show (x (ix2 p k) * broadcastTo S10000x4 dv broadcasts_S10000x1_S10000x4 (ix2 p k)) * w (ix2 k q) = _
  rw [bcast_col]

/-- The second layer's scaled product as a function of the whole arrays. -/
def G2 (x : S100000x4.Idx → EReal) (w : S4x4.Idx → EReal) (d : S100000x1.Idx → EReal) : S100000x4.Idx → EReal :=
  fun i => ∑ k : Fin 4, (x (ix2 ⟨(i 0).val, (i 0).isLt⟩ k) * d (ix2 ⟨(i 0).val, (i 0).isLt⟩ (0 : Fin 1)))
    * w (ix2 k ⟨(i 1).val, (i 1).isLt⟩)

/-- Where each window's block sits at a point: the row windows at block `t`, the matrix at its one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of `G2` of the arrays as the region finds them. -/
theorem flushed2 (c : Dev nD) (t : Fin cfg2.N) :
    (dat2 V c).flushed 3 t
      = ((cfg2.win 3).blk t).view.read (Elt Ideal) (G2 (V c main_v29) (V c main_v30) (V c main_v15)) := by
  show (cfg2.win 3).cut (grid2.coords t) ((dat2 V c).after 3 t) = _
  rw [after2_3]
  unfold out2_3
  rw [View.canon_unit_zero hz]
  simp only [View.ld_unit_zero (S := S10000x4) hz, View.ld_unit_zero (S := S10000x1) hz, View.ld_unit_zero (S := S4x4) hz]
  obtain ⟨e00, e01, e10, e11, e20, e21, e30, e31⟩ := idx2 t
  funext j
  obtain ⟨p, q, rfl⟩ : ∃ (p : Fin 10000) (q : Fin 4), j = ix2 p q := ⟨j 0, j 1, eq_ix2 j⟩
  show k2_pay1 (iblk2 V c 0 t) (iblk2 V c 2 t) (iblk2 V c 1 t) (ix2 p q)
    = G2 (V c main_v29) (V c main_v30) (V c main_v15) (((cfg2.win 3).blk t).view.emb (ix2 p q))
  refine (pay2_apply (iblk2 V c 0 t) (iblk2 V c 2 t) (iblk2 V c 1 t) p q).trans ?_
  unfold G2
  refine Finset.sum_congr rfl fun k _ => ?_
  have h0 : iblk2 V c 0 t (ix2 p k) = V c main_v29 (ix2 ⟨((((cfg2.win 3).blk t).view.emb (ix2 p q)) 0).val, ((((cfg2.win 3).blk t).view.emb (ix2 p q)) 0).isLt⟩ k) := by
    unfold iblk2
    rw [View.read_apply]
    show V c main_v29 _ = V c main_v29 _
    congr 1
    funext a; apply Fin.ext
    match a with
    | ⟨0, _⟩ => show win2_0.index t 0 * 10000 + 1 * p.val = win2_3.index t 0 * 10000 + 1 * p.val; rw [e00, e30]
    | ⟨1, _⟩ => show win2_0.index t 1 * 4 + 1 * k.val = k.val; rw [e01]; omega
  have h2 : iblk2 V c 2 t (ix2 p (0 : Fin 1)) = V c main_v15 (ix2 ⟨((((cfg2.win 3).blk t).view.emb (ix2 p q)) 0).val, ((((cfg2.win 3).blk t).view.emb (ix2 p q)) 0).isLt⟩ (0 : Fin 1)) := by
    unfold iblk2
    rw [View.read_apply]
    show V c main_v15 _ = V c main_v15 _
    congr 1
    funext a; apply Fin.ext
    match a with
    | ⟨0, _⟩ => show win2_2.index t 0 * 10000 + 1 * p.val = win2_3.index t 0 * 10000 + 1 * p.val; rw [e20, e30]
    | ⟨1, _⟩ => show win2_2.index t 1 * 1 + 1 * 0 = 0; rw [e21]
  have h1 : iblk2 V c 1 t (ix2 k q) = V c main_v30 (ix2 k ⟨((((cfg2.win 3).blk t).view.emb (ix2 p q)) 1).val, ((((cfg2.win 3).blk t).view.emb (ix2 p q)) 1).isLt⟩) := by
    unfold iblk2
    rw [View.read_apply]
    show V c main_v30 _ = V c main_v30 _
    congr 1
    funext a; apply Fin.ext
    match a with
    | ⟨0, _⟩ => show win2_1.index t 0 * 4 + 1 * k.val = k.val; rw [e10]; omega
    | ⟨1, _⟩ => show win2_1.index t 1 * 4 + 1 * q.val = win2_3.index t 1 * 4 + 1 * q.val; rw [e11, e31]
  rw [h0, h2, h1]

/-- An index of the output is in point `t`'s block iff each coordinate is in the block's range on its axis. -/
theorem mem_blk2 (t : Fin cfg2.N) (i : S100000x4.Idx) :
    i ∈ ((cfg2.win 3).blk t).view.set ↔ ∀ a : Fin 2, win2_3.index t a * S10000x4.size a ≤ (i a).val
      ∧ (i a).val < win2_3.index t a * S10000x4.size a + S10000x4.size a := by
  show i ∈ ((View.whole main_v31).slice (win2_3.rect t)).set ↔ _
  rw [View.set_slice_whole, Rect.mem_set_unit]
  exact Iff.rfl

/-- THE OUTPUT ARRAY after region 2. -/
theorem final2 (c : Dev nD) :
    (dat2 V c).arrAt 3 cfg2.N = G2 (V c main_v29) (V c main_v30) (V c main_v15) :=
  (dat2 V c).arrAt_eq_of_cover 3 _ (fun t _ => flushed2 V c t) fun i => by
    have hN : cfg2.N = 10 := N_2
    have hi0 : (i 0).val < 100000 := (i 0).isLt
    have hi1 : (i 1).val < 4 := (i 1).isLt
    refine ⟨⟨(i 0).val / 10000, by rw [hN]; omega⟩, flush2_3 _, ?_⟩
    rw [mem_blk2]
    obtain ⟨-, -, -, -, -, -, e30, e31⟩ := idx2 ⟨(i 0).val / 10000, by rw [hN]; omega⟩
    intro a
    match a with
    | ⟨0, _⟩ =>
      show win2_3.index _ 0 * 10000 ≤ (i 0).val ∧ (i 0).val < win2_3.index _ 0 * 10000 + 10000
      rw [e30]; show (i 0).val / 10000 * 10000 ≤ (i 0).val ∧ (i 0).val < (i 0).val / 10000 * 10000 + 10000; omega
    | ⟨1, _⟩ =>
      show win2_3.index _ 1 * 4 ≤ (i 1).val ∧ (i 1).val < win2_3.index _ 1 * 4 + 4
      rw [e31]; omega

end Cert.KernelIdeal.KReg

end
-- ==== Proof.KReg3.lean ====
/-
  Region 3 of the idealized kernel: the second layer's scale, bias and tanh, as one function of whole arrays.

  The node rows are walked in twenty blocks of 5000.  At a block every entry of the aggregated messages is multiplied by
  its row's weight, the bias of its column is added, and tanh is taken.  The operation is entry by entry, so every block
  written is the same rows of one whole-array function, and the twenty blocks tile the rows.
-/
import proofs.«139661_j19516331393575_2_alg».proof.Proof.KReg0
import Idealize.ShloMosaic.PureOps.Ideal
set_option maxRecDepth 16384

noncomputable section

open Idealize.ShloMosaic Idealize.ShloMosaic.TcCoe Idealize.SL.Sem Idealize.ShloMosaic.ValueIdx
open Idealize.ShloMosaic.Pipeline (Dat)

namespace Cert.KernelIdeal.KReg

open Cert.KernelIdeal Cert.KernelIdeal.Gen

variable (V : (c : Dev nD) → (b : Ref sig .tc) → Buf (Elt Ideal) ((c : Thread nD τ).loc b))

/-! ## Region 3 -/

/-- The body at `(p, q)`: the aggregate times the row's weight, plus the column's bias, through tanh. -/
theorem pay3_apply (a : Vec Ideal S5000x4 .f32) (dv : Vec Ideal S5000x1 .f32) (b : Vec Ideal S1x4 .f32)
    (p : Fin 5000) (q : Fin 4) :
    k3_pay1 a dv b (ix2 p q) = Ideal.tanh (a (ix2 p q) * dv (ix2 p (0 : Fin 1)) + b (ix2 (0 : Fin 1) q)) := by
  unfold k3_pay1
  rw [shapeCast_self, shapeCast_self, shapeCast_self]
  show Ideal.tanh (a (ix2 p q) * broadcastTo S5000x4 dv broadcasts_S5000x1_S5000x4 (ix2 p q)
    + broadcastTo S5000x4 b broadcasts_S1x4_S5000x4 (ix2 p q)) = _
  rw [bcast_col, broadcastTo_1b_ab_apply]

/-- The second layer's output as a function of the whole arrays. -/
def G3 (a : S100000x4.Idx → EReal) (d : S100000x1.Idx → EReal) (b : S1x4.Idx → EReal) : S100000x4.Idx → EReal :=
  fun i => Ideal.tanh (a i * d (ix2 ⟨(i 0).val, (i 0).isLt⟩ (0 : Fin 1)) + b (ix2 (0 : Fin 1) ⟨(i 1).val, (i 1).isLt⟩))

/-- Where each window's block sits at a point: the row windows at block `t`, the bias at its one block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of `G3` of the arrays as the region finds them. -/
theorem flushed3 (c : Dev nD) (t : Fin cfg3.N) :
    (dat3 V c).flushed 3 t
      = ((cfg3.win 3).blk t).view.read (Elt Ideal) (G3 (V c main_v41) (V c main_v15) (V c main_v42)) := by
  show (cfg3.win 3).cut (grid3.coords t) ((dat3 V c).after 3 t) = _
  rw [after3_3]
  unfold out3_3
  rw [View.canon_unit_zero hz]
  simp only [View.ld_unit_zero (S := S5000x4) hz, View.ld_unit_zero (S := S5000x1) hz, View.ld_unit_zero (S := S1x4) hz]
  obtain ⟨e00, e01, e10, e11, e20, e21, e30, e31⟩ := idx3 t
  funext j
  obtain ⟨p, q, rfl⟩ : ∃ (p : Fin 5000) (q : Fin 4), j = ix2 p q := ⟨j 0, j 1, eq_ix2 j⟩
  show k3_pay1 (iblk3 V c 0 t) (iblk3 V c 1 t) (iblk3 V c 2 t) (ix2 p q)
    = G3 (V c main_v41) (V c main_v15) (V c main_v42) (((cfg3.win 3).blk t).view.emb (ix2 p q))
  refine (pay3_apply (iblk3 V c 0 t) (iblk3 V c 1 t) (iblk3 V c 2 t) p q).trans ?_
  unfold G3
  have h0 : iblk3 V c 0 t (ix2 p q) = V c main_v41 (((cfg3.win 3).blk t).view.emb (ix2 p q)) := by
    unfold iblk3
    rw [View.read_apply]
    show V c main_v41 _ = V c main_v41 _
    congr 1
  have h1 : iblk3 V c 1 t (ix2 p (0 : Fin 1)) = V c main_v15 (ix2 ⟨((((cfg3.win 3).blk t).view.emb (ix2 p q)) 0).val, ((((cfg3.win 3).blk t).view.emb (ix2 p q)) 0).isLt⟩ (0 : Fin 1)) := by
    unfold iblk3
    rw [View.read_apply]
    show V c main_v15 _ = V c main_v15 _
    congr 1
    funext a; apply Fin.ext
    match a with
    | ⟨0, _⟩ => show win3_1.index t 0 * 5000 + 1 * p.val = win3_3.index t 0 * 5000 + 1 * p.val; rw [e10, e30]
    | ⟨1, _⟩ => show win3_1.index t 1 * 1 + 1 * 0 = 0; rw [e11]
  have h2 : iblk3 V c 2 t (ix2 (0 : Fin 1) q) = V c main_v42 (ix2 (0 : Fin 1) ⟨((((cfg3.win 3).blk t).view.emb (ix2 p q)) 1).val, ((((cfg3.win 3).blk t).view.emb (ix2 p q)) 1).isLt⟩) := by
    unfold iblk3
    rw [View.read_apply]
    show V c main_v42 _ = V c main_v42 _
    congr 1
    funext a; apply Fin.ext
    match a with
    | ⟨0, _⟩ => show win3_2.index t 0 * 1 + 1 * 0 = 0; rw [e20]
    | ⟨1, _⟩ => show win3_2.index t 1 * 4 + 1 * q.val = win3_3.index t 1 * 4 + 1 * q.val; rw [e21, e31]
  rw [h0, h1, h2]

/-- An index of the output is in point `t`'s block iff each coordinate is in the block's range on its axis. -/
theorem mem_blk3 (t : Fin cfg3.N) (i : S100000x4.Idx) :
    i ∈ ((cfg3.win 3).blk t).view.set ↔ ∀ a : Fin 2, win3_3.index t a * S5000x4.size a ≤ (i a).val
      ∧ (i a).val < win3_3.index t a * S5000x4.size a + S5000x4.size a := by
  show i ∈ ((View.whole main_v43).slice (win3_3.rect t)).set ↔ _
  rw [View.set_slice_whole, Rect.mem_set_unit]
  exact Iff.rfl

/-- THE OUTPUT ARRAY after region 3. -/
theorem final3 (c : Dev nD) :
    (dat3 V c).arrAt 3 cfg3.N = G3 (V c main_v41) (V c main_v15) (V c main_v42) :=
  (dat3 V c).arrAt_eq_of_cover 3 _ (fun t _ => flushed3 V c t) fun i => by
    have hN : cfg3.N = 20 := N_3
    have hi0 : (i 0).val < 100000 := (i 0).isLt
    have hi1 : (i 1).val < 4 := (i 1).isLt
    refine ⟨⟨(i 0).val / 5000, by rw [hN]; omega⟩, flush3_3 _, ?_⟩
    rw [mem_blk3]
    obtain ⟨-, -, -, -, -, -, e30, e31⟩ := idx3 ⟨(i 0).val / 5000, by rw [hN]; omega⟩
    intro a
    match a with
    | ⟨0, _⟩ =>
      show win3_3.index _ 0 * 5000 ≤ (i 0).val ∧ (i 0).val < win3_3.index _ 0 * 5000 + 5000
      rw [e30]; show (i 0).val / 5000 * 5000 ≤ (i 0).val ∧ (i 0).val < (i 0).val / 5000 * 5000 + 5000; omega
    | ⟨1, _⟩ =>
      show win3_3.index _ 1 * 4 ≤ (i 1).val ∧ (i 1).val < win3_3.index _ 1 * 4 + 4
      rw [e31]; omega

end Cert.KernelIdeal.KReg

end
-- ==== Proof.KReg4.lean ====
/-
  Region 4 of the idealized kernel: the third layer's scaled product, as one function of whole arrays.

  As in region 0, the node rows are walked in ten blocks of 10000; each row of the layer's input is multiplied by its
  weight and the scaled block is multiplied by the whole 4 x 2 matrix.  A row of the product reads only its own row, so
  every block written is the same rows of one whole-array function, and the ten blocks tile the rows.
-/
import proofs.«139661_j19516331393575_2_alg».proof.Proof.KReg0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KReg

open Cert.KernelIdeal Cert.KernelIdeal.Gen

variable (V : (c : Dev nD) → (b : Ref sig .tc) → Buf (Elt Ideal) ((c : Thread nD τ).loc b))

/-! ## Region 4 -/

theorem dot4_l0 (i : S10000x2.Idx) (q : dot_S10000x4_S4x2_S10000x2_1_0_0_1_n_n.contr.Idx) :
    (dot_S10000x4_S4x2_S10000x2_1_0_0_1_n_n.lhsIdx i q 0).val = (i 0).val := by
  unfold DotDims.lhsIdx
  rw [dif_neg (show ¬(0 : Fin S10000x4.rank) ∈ dot_S10000x4_S4x2_S10000x2_1_0_0_1_n_n.lhsBatch by decide),
    dif_pos (show (0 : Fin S10000x4.rank) ∈ dot_S10000x4_S4x2_S10000x2_1_0_0_1_n_n.lhsNonContracting by decide)]
  rfl
theorem dot4_l1 (i : S10000x2.Idx) (q : dot_S10000x4_S4x2_S10000x2_1_0_0_1_n_n.contr.Idx) :
    (dot_S10000x4_S4x2_S10000x2_1_0_0_1_n_n.lhsIdx i q 1).val = (q ⟨0, by decide⟩).val :=
  dot_S10000x4_S4x2_S10000x2_1_0_0_1_n_n.lhsIdx_val_of_single rfl i q
theorem dot4_r0 (i : S10000x2.Idx) (q : dot_S10000x4_S4x2_S10000x2_1_0_0_1_n_n.contr.Idx) :
    (dot_S10000x4_S4x2_S10000x2_1_0_0_1_n_n.rhsIdx i q 0).val = (q ⟨0, by decide⟩).val :=
  dot_S10000x4_S4x2_S10000x2_1_0_0_1_n_n.rhsIdx_val_of_single rfl i q
theorem dot4_r1 (i : S10000x2.Idx) (q : dot_S10000x4_S4x2_S10000x2_1_0_0_1_n_n.contr.Idx) :
    (dot_S10000x4_S4x2_S10000x2_1_0_0_1_n_n.rhsIdx i q 1).val = (i 1).val := by
  unfold DotDims.rhsIdx
  rw [dif_neg (show ¬(1 : Fin S4x2.rank) ∈ dot_S10000x4_S4x2_S10000x2_1_0_0_1_n_n.rhsBatch by decide),
    dif_pos (show (1 : Fin S4x2.rank) ∈ dot_S10000x4_S4x2_S10000x2_1_0_0_1_n_n.rhsNonContracting by decide)]
  rfl

/-- The block product at `(p, q)`: the sum over `k` of the scaled input times the matrix entry. -/
theorem pay4_apply (x : Vec Ideal S10000x4 .f32) (dv : Vec Ideal S10000x1 .f32) (w : Vec Ideal S4x2 .bf16)
    (p : Fin 10000) (q : Fin 2) :
    k4_pay1 x dv w (ix2 p q) = ∑ k : Fin 4, (x (ix2 p k) * dv (ix2 p (0 : Fin 1))) * w (ix2 k q) := by
  unfold k4_pay1
  refine (Cert.LibRowOps.matmul_zero_apply dot_S10000x4_S4x2_S10000x2_1_0_0_1_n_n none _ _ rfl rfl
    dot4_l0 dot4_l1 dot4_r0 dot4_r1 p q).trans ?_
  refine Finset.sum_congr rfl fun k _ => ?_
  rw [shapeCast_self, shapeCast_self, shapeCast_self]
  show (x (ix2 p k) * broadcastTo S10000x4 dv broadcasts_S10000x1_S10000x4 (ix2 p k)) * w (ix2 k q) = _
  rw [bcast_col]

/-- The third layer's scaled product as a function of the whole arrays. -/
def G4 (x : S100000x4.Idx → EReal) (w : S4x2.Idx → EReal) (d : S100000x1.Idx → EReal) : S100000x2.Idx → EReal :=
  fun i => ∑ k : Fin 4, (x (ix2 ⟨(i 0).val, (i 0).isLt⟩ k) * d (ix2 ⟨(i 0).val, (i 0).isLt⟩ (0 : Fin 1)))
    * w (ix2 k ⟨(i 1).val, (i 1).isLt⟩)

/-- Where each window's block sits at a point: the row windows at block `t`, the matrix at its one block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of `G4` of the arrays as the region finds them. -/
theorem flushed4 (c : Dev nD) (t : Fin cfg4.N) :
    (dat4 V c).flushed 3 t
      = ((cfg4.win 3).blk t).view.read (Elt Ideal) (G4 (V c main_v43) (V c main_v44) (V c main_v15)) := by
  show (cfg4.win 3).cut (grid4.coords t) ((dat4 V c).after 3 t) = _
  rw [after4_3]
  unfold out4_3
  rw [View.canon_unit_zero hz]
  simp only [View.ld_unit_zero (S := S10000x4) hz, View.ld_unit_zero (S := S10000x1) hz, View.ld_unit_zero (S := S4x2) hz]
  obtain ⟨e00, e01, e10, e11, e20, e21, e30, e31⟩ := idx4 t
  funext j
  obtain ⟨p, q, rfl⟩ : ∃ (p : Fin 10000) (q : Fin 2), j = ix2 p q := ⟨j 0, j 1, eq_ix2 j⟩
  show k4_pay1 (iblk4 V c 0 t) (iblk4 V c 2 t) (iblk4 V c 1 t) (ix2 p q)
    = G4 (V c main_v43) (V c main_v44) (V c main_v15) (((cfg4.win 3).blk t).view.emb (ix2 p q))
  refine (pay4_apply (iblk4 V c 0 t) (iblk4 V c 2 t) (iblk4 V c 1 t) p q).trans ?_
  unfold G4
  refine Finset.sum_congr rfl fun k _ => ?_
  have h0 : iblk4 V c 0 t (ix2 p k) = V c main_v43 (ix2 ⟨((((cfg4.win 3).blk t).view.emb (ix2 p q)) 0).val, ((((cfg4.win 3).blk t).view.emb (ix2 p q)) 0).isLt⟩ k) := by
    unfold iblk4
    rw [View.read_apply]
    show V c main_v43 _ = V c main_v43 _
    congr 1
    funext a; apply Fin.ext
    match a with
    | ⟨0, _⟩ => show win4_0.index t 0 * 10000 + 1 * p.val = win4_3.index t 0 * 10000 + 1 * p.val; rw [e00, e30]
    | ⟨1, _⟩ => show win4_0.index t 1 * 4 + 1 * k.val = k.val; rw [e01]; omega
  have h2 : iblk4 V c 2 t (ix2 p (0 : Fin 1)) = V c main_v15 (ix2 ⟨((((cfg4.win 3).blk t).view.emb (ix2 p q)) 0).val, ((((cfg4.win 3).blk t).view.emb (ix2 p q)) 0).isLt⟩ (0 : Fin 1)) := by
    unfold iblk4
    rw [View.read_apply]
    show V c main_v15 _ = V c main_v15 _
    congr 1
    funext a; apply Fin.ext
    match a with
    | ⟨0, _⟩ => show win4_2.index t 0 * 10000 + 1 * p.val = win4_3.index t 0 * 10000 + 1 * p.val; rw [e20, e30]
    | ⟨1, _⟩ => show win4_2.index t 1 * 1 + 1 * 0 = 0; rw [e21]
  have h1 : iblk4 V c 1 t (ix2 k q) = V c main_v44 (ix2 k ⟨((((cfg4.win 3).blk t).view.emb (ix2 p q)) 1).val, ((((cfg4.win 3).blk t).view.emb (ix2 p q)) 1).isLt⟩) := by
    unfold iblk4
    rw [View.read_apply]
    show V c main_v44 _ = V c main_v44 _
    congr 1
    funext a; apply Fin.ext
    match a with
    | ⟨0, _⟩ => show win4_1.index t 0 * 4 + 1 * k.val = k.val; rw [e10]; omega
    | ⟨1, _⟩ => show win4_1.index t 1 * 2 + 1 * q.val = win4_3.index t 1 * 2 + 1 * q.val; rw [e11, e31]
  rw [h0, h2, h1]

/-- An index of the output is in point `t`'s block iff each coordinate is in the block's range on its axis. -/
theorem mem_blk4 (t : Fin cfg4.N) (i : S100000x2.Idx) :
    i ∈ ((cfg4.win 3).blk t).view.set ↔ ∀ a : Fin 2, win4_3.index t a * S10000x2.size a ≤ (i a).val
      ∧ (i a).val < win4_3.index t a * S10000x2.size a + S10000x2.size a := by
  show i ∈ ((View.whole main_v45).slice (win4_3.rect t)).set ↔ _
  rw [View.set_slice_whole, Rect.mem_set_unit]
  exact Iff.rfl

/-- THE OUTPUT ARRAY after region 4. -/
theorem final4 (c : Dev nD) :
    (dat4 V c).arrAt 3 cfg4.N = G4 (V c main_v43) (V c main_v44) (V c main_v15) :=
  (dat4 V c).arrAt_eq_of_cover 3 _ (fun t _ => flushed4 V c t) fun i => by
    have hN : cfg4.N = 10 := N_4
    have hi0 : (i 0).val < 100000 := (i 0).isLt
    have hi1 : (i 1).val < 2 := (i 1).isLt
    refine ⟨⟨(i 0).val / 10000, by rw [hN]; omega⟩, flush4_3 _, ?_⟩
    rw [mem_blk4]
    obtain ⟨-, -, -, -, -, -, e30, e31⟩ := idx4 ⟨(i 0).val / 10000, by rw [hN]; omega⟩
    intro a
    match a with
    | ⟨0, _⟩ =>
      show win4_3.index _ 0 * 10000 ≤ (i 0).val ∧ (i 0).val < win4_3.index _ 0 * 10000 + 10000
      rw [e30]; show (i 0).val / 10000 * 10000 ≤ (i 0).val ∧ (i 0).val < (i 0).val / 10000 * 10000 + 10000; omega
    | ⟨1, _⟩ =>
      show win4_3.index _ 1 * 2 ≤ (i 1).val ∧ (i 1).val < win4_3.index _ 1 * 2 + 2
      rw [e31]; omega

end Cert.KernelIdeal.KReg

end
-- ==== Proof.KReg5.lean ====
/-
  Region 5 of the idealized kernel: the third layer's scale, bias and tanh, and the class scores, as functions of whole arrays.

  The node rows are walked in twenty blocks of 5000.  At a block the third layer's features are computed entry by entry as
  in the earlier layers (aggregate times the row's weight, plus the column's bias, through tanh) and written to the first
  output; the same block of features, multiplied by the whole 2 x 4 classifier matrix and with the classifier bias added,
  is written to the second output.  A row of either result reads only its own row, so every block written is the same rows
  of one whole-array function, and the twenty blocks tile the rows of both outputs.
-/
import proofs.«139661_j19516331393575_2_alg».proof.Proof.KReg0
import proofs.«139661_j19516331393575_2_alg».proof.Proof.LibRowOps
import Idealize.ShloMosaic.PureOps.Ideal
set_option maxRecDepth 16384

noncomputable section

open Idealize.ShloMosaic Idealize.ShloMosaic.TcCoe Idealize.SL.Sem Idealize.ShloMosaic.ValueIdx
open Idealize.ShloMosaic.Pipeline (Dat)

namespace Cert.KernelIdeal.KReg

open Cert.KernelIdeal Cert.KernelIdeal.Gen

variable (V : (c : Dev nD) → (b : Ref sig .tc) → Buf (Elt Ideal) ((c : Thread nD τ).loc b))

/-! ## Region 5 -/

theorem dot5_l0 (i : S5000x4.Idx) (q : dot_S5000x2_S2x4_S5000x4_1_0_0_1_n_n.contr.Idx) :
    (dot_S5000x2_S2x4_S5000x4_1_0_0_1_n_n.lhsIdx i q 0).val = (i 0).val := by
  unfold DotDims.lhsIdx
  rw [dif_neg (show ¬(0 : Fin S5000x2.rank) ∈ dot_S5000x2_S2x4_S5000x4_1_0_0_1_n_n.lhsBatch by decide),
    dif_pos (show (0 : Fin S5000x2.rank) ∈ dot_S5000x2_S2x4_S5000x4_1_0_0_1_n_n.lhsNonContracting by decide)]
  rfl
theorem dot5_l1 (i : S5000x4.Idx) (q : dot_S5000x2_S2x4_S5000x4_1_0_0_1_n_n.contr.Idx) :
    (dot_S5000x2_S2x4_S5000x4_1_0_0_1_n_n.lhsIdx i q 1).val = (q ⟨0, by decide⟩).val :=
  dot_S5000x2_S2x4_S5000x4_1_0_0_1_n_n.lhsIdx_val_of_single rfl i q
theorem dot5_r0 (i : S5000x4.Idx) (q : dot_S5000x2_S2x4_S5000x4_1_0_0_1_n_n.contr.Idx) :
    (dot_S5000x2_S2x4_S5000x4_1_0_0_1_n_n.rhsIdx i q 0).val = (q ⟨0, by decide⟩).val :=
  dot_S5000x2_S2x4_S5000x4_1_0_0_1_n_n.rhsIdx_val_of_single rfl i q
theorem dot5_r1 (i : S5000x4.Idx) (q : dot_S5000x2_S2x4_S5000x4_1_0_0_1_n_n.contr.Idx) :
    (dot_S5000x2_S2x4_S5000x4_1_0_0_1_n_n.rhsIdx i q 1).val = (i 1).val := by
  unfold DotDims.rhsIdx
  rw [dif_neg (show ¬(1 : Fin S2x4.rank) ∈ dot_S5000x2_S2x4_S5000x4_1_0_0_1_n_n.rhsBatch by decide),
    dif_pos (show (1 : Fin S2x4.rank) ∈ dot_S5000x2_S2x4_S5000x4_1_0_0_1_n_n.rhsNonContracting by decide)]
  rfl

/-- The features' body at `(p, q)`: the aggregate times the row's weight, plus the column's bias, through tanh. -/
theorem pay5a_apply (a : Vec Ideal S5000x2 .f32) (dv : Vec Ideal S5000x1 .f32) (b : Vec Ideal S1x2 .f32)
    (p : Fin 5000) (q : Fin 2) :
    k5_pay1 a dv b (ix2 p q) = Ideal.tanh (a (ix2 p q) * dv (ix2 p (0 : Fin 1)) + b (ix2 (0 : Fin 1) q)) := by
  unfold k5_pay1
  rw [shapeCast_self, shapeCast_self, shapeCast_self]
  show Ideal.tanh (a (ix2 p q) * broadcastTo S5000x2 dv broadcasts_S5000x1_S5000x2 (ix2 p q)
    + broadcastTo S5000x2 b broadcasts_S1x2_S5000x2 (ix2 p q)) = _
  rw [bcast_col, broadcastTo_1b_ab_apply]

/-- The scores' body at `(p, q)`: row `p` of the features times column `q` of the classifier matrix, plus its bias. -/
theorem pay5b_apply (a : Vec Ideal S5000x2 .f32) (dv : Vec Ideal S5000x1 .f32) (b : Vec Ideal S1x2 .f32)
    (wc : Vec Ideal S2x4 .bf16) (bc : Vec Ideal S1x4 .f32) (p : Fin 5000) (q : Fin 4) :
    k5_pay2 a dv b wc bc (ix2 p q)
      = (∑ k : Fin 2, k5_pay1 a dv b (ix2 p k) * wc (ix2 k q)) + bc (ix2 (0 : Fin 1) q) := by
  unfold k5_pay2
  rw [shapeCast_self, shapeCast_self]
  show FloatOps.matmul dot_S5000x2_S2x4_S5000x4_1_0_0_1_n_n none (truncf .bf16 (k5_pay1 a dv b) bitsLt_bf16_f32) wc
      (constant S5000x4 .f32 0x00000000#32) (ix2 p q)
    + broadcastTo S5000x4 bc broadcasts_S1x4_S5000x4 (ix2 p q) = _
  rw [broadcastTo_1b_ab_apply,
    Cert.LibRowOps.matmul_zero_apply dot_S5000x2_S2x4_S5000x4_1_0_0_1_n_n none _ _ rfl rfl dot5_l0 dot5_l1 dot5_r0 dot5_r1 p q]
  rfl

/-- The third layer's features as a function of the whole arrays. -/
def G5h (a : S100000x2.Idx → EReal) (d : S100000x1.Idx → EReal) (b : S1x2.Idx → EReal) : S100000x2.Idx → EReal :=
  fun i => Ideal.tanh (a i * d (ix2 ⟨(i 0).val, (i 0).isLt⟩ (0 : Fin 1)) + b (ix2 (0 : Fin 1) ⟨(i 1).val, (i 1).isLt⟩))

/-- The class scores as a function of the whole arrays. -/
def G5o (a : S100000x2.Idx → EReal) (d : S100000x1.Idx → EReal) (b : S1x2.Idx → EReal) (wc : S2x4.Idx → EReal)
    (bc : S1x4.Idx → EReal) : S100000x4.Idx → EReal :=
  fun i => (∑ k : Fin 2, G5h a d b (ix2 ⟨(i 0).val, (i 0).isLt⟩ k) * wc (ix2 k ⟨(i 1).val, (i 1).isLt⟩))
    + bc (ix2 (0 : Fin 1) ⟨(i 1).val, (i 1).isLt⟩)

/-- Where each window's block sits at a point: the row windows at block `t`, the small operands at their one block. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-! ### The input blocks as rows of their arrays -/

theorem rd5_0 (c : Dev nD) (t : Fin cfg5.N) (p : Fin 5000) (k : Fin 2) (r : Fin 100000) (hr : r.val = t.val * 5000 + p.val) :
    iblk5 V c 0 t (ix2 p k) = V c main_v55 (ix2 r k) := by
  obtain ⟨e00, e01, -⟩ := idx5 t
  unfold iblk5
  rw [View.read_apply]
  show V c main_v55 _ = V c main_v55 _
  congr 1
  funext a; apply Fin.ext
  match a with
  | ⟨0, _⟩ => show win5_0.index t 0 * 5000 + 1 * p.val = r.val; rw [e00, hr]; omega
  | ⟨1, _⟩ => show win5_0.index t 1 * 2 + 1 * k.val = k.val; rw [e01]; omega
theorem rd5_1 (c : Dev nD) (t : Fin cfg5.N) (p : Fin 5000) (r : Fin 100000) (hr : r.val = t.val * 5000 + p.val) :
    iblk5 V c 1 t (ix2 p (0 : Fin 1)) = V c main_v15 (ix2 r (0 : Fin 1)) := by
  obtain ⟨-, -, e10, e11, -⟩ := idx5 t
  unfold iblk5
  rw [View.read_apply]
  show V c main_v15 _ = V c main_v15 _
  congr 1
  funext a; apply Fin.ext
  match a with
  | ⟨0, _⟩ => show win5_1.index t 0 * 5000 + 1 * p.val = r.val; rw [e10, hr]; omega
  | ⟨1, _⟩ => show win5_1.index t 1 * 1 + 1 * 0 = 0; rw [e11]
theorem rd5_2 (c : Dev nD) (t : Fin cfg5.N) (k : Fin 2) :
    iblk5 V c 2 t (ix2 (0 : Fin 1) k) = V c main_v56 (ix2 (0 : Fin 1) k) := by
  obtain ⟨-, -, -, -, e20, e21, -⟩ := idx5 t
  unfold iblk5
  rw [View.read_apply]
  show V c main_v56 _ = V c main_v56 _
  congr 1
  funext a; apply Fin.ext
  match a with
  | ⟨0, _⟩ => show win5_2.index t 0 * 1 + 1 * 0 = 0; rw [e20]
  | ⟨1, _⟩ => show win5_2.index t 1 * 2 + 1 * k.val = k.val; rw [e21]; omega
theorem rd5_3 (c : Dev nD) (t : Fin cfg5.N) (k : Fin 2) (q : Fin 4) :
    iblk5 V c 3 t (ix2 k q) = V c main_v58 (ix2 k q) := by
  obtain ⟨-, -, -, -, -, -, e30, e31, -⟩ := idx5 t
  unfold iblk5
  rw [View.read_apply]
  show V c main_v58 _ = V c main_v58 _
  congr 1
  funext a; apply Fin.ext
  match a with
  | ⟨0, _⟩ => show win5_3.index t 0 * 2 + 1 * k.val = k.val; rw [e30]; omega
  | ⟨1, _⟩ => show win5_3.index t 1 * 4 + 1 * q.val = q.val; rw [e31]; omega
theorem rd5_4 (c : Dev nD) (t : Fin cfg5.N) (q : Fin 4) :
    iblk5 V c 4 t (ix2 (0 : Fin 1) q) = V c main_v57 (ix2 (0 : Fin 1) q) := by
  obtain ⟨-, -, -, -, -, -, -, -, e40, e41, -⟩ := idx5 t
  unfold iblk5
  rw [View.read_apply]
  show V c main_v57 _ = V c main_v57 _
  congr 1
  funext a; apply Fin.ext
  match a with
  | ⟨0, _⟩ => show win5_4.index t 0 * 1 + 1 * 0 = 0; rw [e40]
  | ⟨1, _⟩ => show win5_4.index t 1 * 4 + 1 * q.val = q.val; rw [e41]; omega

/-- The features' body over the point's blocks, at row `p`: the whole-array features at the row's place. -/
theorem feat_blk (c : Dev nD) (t : Fin cfg5.N) (p : Fin 5000) (k : Fin 2) (r : Fin 100000)
    (hr : r.val = t.val * 5000 + p.val) :
    k5_pay1 (iblk5 V c 0 t) (iblk5 V c 1 t) (iblk5 V c 2 t) (ix2 p k)
      = G5h (V c main_v55) (V c main_v15) (V c main_v56) (ix2 r k) := by
  refine (pay5a_apply (iblk5 V c 0 t) (iblk5 V c 1 t) (iblk5 V c 2 t) p k).trans ?_
  rw [rd5_0 V c t p k r hr, rd5_1 V c t p r hr, rd5_2 V c t k]
  rfl

/-- WHAT POINT `t` WRITES BACK to the features is block `t` of `G5h`. -/
theorem flushed5_5 (c : Dev nD) (t : Fin cfg5.N) :
    (dat5 V c).flushed 5 t
      = ((cfg5.win 5).blk t).view.read (Elt Ideal) (G5h (V c main_v55) (V c main_v15) (V c main_v56)) := by
  show (cfg5.win 5).cut (grid5.coords t) ((dat5 V c).after 5 t) = _
  rw [after5_5]
  unfold out5_5
  rw [View.canon_unit_zero hz]
  simp only [View.ld_unit_zero (S := S5000x2) hz, View.ld_unit_zero (S := S5000x1) hz, View.ld_unit_zero (S := S1x2) hz]
  obtain ⟨-, -, -, -, -, -, -, -, -, -, e50, e51, -⟩ := idx5 t
  funext j
  obtain ⟨p, q, rfl⟩ : ∃ (p : Fin 5000) (q : Fin 2), j = ix2 p q := ⟨j 0, j 1, eq_ix2 j⟩
  show k5_pay1 (iblk5 V c 0 t) (iblk5 V c 1 t) (iblk5 V c 2 t) (ix2 p q)
    = G5h (V c main_v55) (V c main_v15) (V c main_v56) (((cfg5.win 5).blk t).view.emb (ix2 p q))
  have hr : ((((cfg5.win 5).blk t).view.emb (ix2 p q)) 0).val = t.val * 5000 + p.val := by
    show win5_5.index t 0 * 5000 + 1 * p.val = _; rw [e50]; omega
  refine (feat_blk V c t p q ⟨_, ((((cfg5.win 5).blk t).view.emb (ix2 p q)) 0).isLt⟩ hr).trans ?_
  refine congrArg _ (funext fun a => Fin.ext ?_)
  match a with
  | ⟨0, _⟩ => rfl
  | ⟨1, _⟩ => show q.val = win5_5.index t 1 * 2 + 1 * q.val; rw [e51]; omega

/-- WHAT POINT `t` WRITES BACK to the scores is block `t` of `G5o`. -/
theorem flushed5_6 (c : Dev nD) (t : Fin cfg5.N) :
    (dat5 V c).flushed 6 t
      = ((cfg5.win 6).blk t).view.read (Elt Ideal)
          (G5o (V c main_v55) (V c main_v15) (V c main_v56) (V c main_v58) (V c main_v57)) := by
  show (cfg5.win 6).cut (grid5.coords t) ((dat5 V c).after 6 t) = _
  rw [after5_6]
  unfold out5_6
  rw [View.canon_unit_zero hz]
  simp only [View.ld_unit_zero (S := S5000x2) hz, View.ld_unit_zero (S := S5000x1) hz, View.ld_unit_zero (S := S1x2) hz,
    View.ld_unit_zero (S := S2x4) hz, View.ld_unit_zero (S := S1x4) hz]
  obtain ⟨-, -, -, -, -, -, -, -, -, -, -, -, e60, e61⟩ := idx5 t
  funext j
  obtain ⟨p, q, rfl⟩ : ∃ (p : Fin 5000) (q : Fin 4), j = ix2 p q := ⟨j 0, j 1, eq_ix2 j⟩
  show k5_pay2 (iblk5 V c 0 t) (iblk5 V c 1 t) (iblk5 V c 2 t) (iblk5 V c 3 t) (iblk5 V c 4 t) (ix2 p q)
    = G5o (V c main_v55) (V c main_v15) (V c main_v56) (V c main_v58) (V c main_v57) (((cfg5.win 6).blk t).view.emb (ix2 p q))
  have hr : ((((cfg5.win 6).blk t).view.emb (ix2 p q)) 0).val = t.val * 5000 + p.val := by
    show win5_6.index t 0 * 5000 + 1 * p.val = _; rw [e60]; omega
  have hq : ((((cfg5.win 6).blk t).view.emb (ix2 p q)) 1).val = q.val := by
    show win5_6.index t 1 * 4 + 1 * q.val = _; rw [e61]; omega
  refine (pay5b_apply (iblk5 V c 0 t) (iblk5 V c 1 t) (iblk5 V c 2 t) (iblk5 V c 3 t) (iblk5 V c 4 t) p q).trans ?_
  unfold G5o
  have hq' : (⟨((((cfg5.win 6).blk t).view.emb (ix2 p q)) 1).val, ((((cfg5.win 6).blk t).view.emb (ix2 p q)) 1).isLt⟩ : Fin 4) = q :=
    Fin.ext hq
  rw [hq', rd5_4 V c t q]
  refine congrArg (fun z => z + V c main_v57 (ix2 (0 : Fin 1) q)) (Finset.sum_congr rfl fun k _ => ?_)
  rw [feat_blk V c t p k ⟨_, ((((cfg5.win 6).blk t).view.emb (ix2 p q)) 0).isLt⟩ hr, rd5_3 V c t k q]

/-- An index of the features is in point `t`'s block iff each coordinate is in the block's range on its axis. -/
theorem mem_blk5_5 (t : Fin cfg5.N) (i : S100000x2.Idx) :
    i ∈ ((cfg5.win 5).blk t).view.set ↔ ∀ a : Fin 2, win5_5.index t a * S5000x2.size a ≤ (i a).val
      ∧ (i a).val < win5_5.index t a * S5000x2.size a + S5000x2.size a := by
  show i ∈ ((View.whole main_v59_0).slice (win5_5.rect t)).set ↔ _
  rw [View.set_slice_whole, Rect.mem_set_unit]
  exact Iff.rfl
theorem mem_blk5_6 (t : Fin cfg5.N) (i : S100000x4.Idx) :
    i ∈ ((cfg5.win 6).blk t).view.set ↔ ∀ a : Fin 2, win5_6.index t a * S5000x4.size a ≤ (i a).val
      ∧ (i a).val < win5_6.index t a * S5000x4.size a + S5000x4.size a := by
  show i ∈ ((View.whole main_v59_1).slice (win5_6.rect t)).set ↔ _
  rw [View.set_slice_whole, Rect.mem_set_unit]
  exact Iff.rfl

/-- THE FEATURES after region 5. -/
theorem final5_5 (c : Dev nD) :
    (dat5 V c).arrAt 5 cfg5.N = G5h (V c main_v55) (V c main_v15) (V c main_v56) :=
  (dat5 V c).arrAt_eq_of_cover 5 _ (fun t _ => flushed5_5 V c t) fun i => by
    have hN : cfg5.N = 20 := N_5
    have hi0 : (i 0).val < 100000 := (i 0).isLt
    have hi1 : (i 1).val < 2 := (i 1).isLt
    refine ⟨⟨(i 0).val / 5000, by rw [hN]; omega⟩, flush5_5 _, ?_⟩
    rw [mem_blk5_5]
    obtain ⟨-, -, -, -, -, -, -, -, -, -, e50, e51, -⟩ := idx5 ⟨(i 0).val / 5000, by rw [hN]; omega⟩
    intro a
    match a with
    | ⟨0, _⟩ =>
      show win5_5.index _ 0 * 5000 ≤ (i 0).val ∧ (i 0).val < win5_5.index _ 0 * 5000 + 5000
      rw [e50]; show (i 0).val / 5000 * 5000 ≤ (i 0).val ∧ (i 0).val < (i 0).val / 5000 * 5000 + 5000; omega
    | ⟨1, _⟩ =>
      show win5_5.index _ 1 * 2 ≤ (i 1).val ∧ (i 1).val < win5_5.index _ 1 * 2 + 2
      rw [e51]; omega

/-- THE SCORES after region 5. -/
theorem final5_6 (c : Dev nD) :
    (dat5 V c).arrAt 6 cfg5.N = G5o (V c main_v55) (V c main_v15) (V c main_v56) (V c main_v58) (V c main_v57) :=
  (dat5 V c).arrAt_eq_of_cover 6 _ (fun t _ => flushed5_6 V c t) fun i => by
    have hN : cfg5.N = 20 := N_5
    have hi0 : (i 0).val < 100000 := (i 0).isLt
    have hi1 : (i 1).val < 4 := (i 1).isLt
    refine ⟨⟨(i 0).val / 5000, by rw [hN]; omega⟩, flush5_6 _, ?_⟩
    rw [mem_blk5_6]
    obtain ⟨-, -, -, -, -, -, -, -, -, -, -, -, e60, e61⟩ := idx5 ⟨(i 0).val / 5000, by rw [hN]; omega⟩
    intro a
    match a with
    | ⟨0, _⟩ =>
      show win5_6.index _ 0 * 5000 ≤ (i 0).val ∧ (i 0).val < win5_6.index _ 0 * 5000 + 5000
      rw [e60]; show (i 0).val / 5000 * 5000 ≤ (i 0).val ∧ (i 0).val < (i 0).val / 5000 * 5000 + 5000; omega
    | ⟨1, _⟩ =>
      show win5_6.index _ 1 * 4 ≤ (i 1).val ∧ (i 1).val < win5_6.index _ 1 * 4 + 4
      rw [e61]; omega

end Cert.KernelIdeal.KReg

end
-- ==== Proof.KChain.lean ====
/-
  The idealized kernel's run, boundary by boundary: what each newly written buffer holds in terms of the buffers of the
  boundary before.

  A host stretch leaves in the buffer an operation writes that operation's value of its operands' contents; a region leaves
  in its output array the whole-array function of its input arrays.  Layer by layer: the scaled product (a region), the
  gather of its rows at the edges' sources scatter-added at their destinations and the bias reshaped to a row (a host
  stretch), the scale, bias and tanh (a region), and the next layer's matrix in the product's format (a host stretch, the
  identity on extended reals).
-/
import proofs.«139661_j19516331393575_2_alg».proof.Proof.Gen.KernelIdeal.Frame
import proofs.«139661_j19516331393575_2_alg».proof.Proof.KReg0
import proofs.«139661_j19516331393575_2_alg».proof.Proof.KReg1
import proofs.«139661_j19516331393575_2_alg».proof.Proof.KReg2
import proofs.«139661_j19516331393575_2_alg».proof.Proof.KReg3
import proofs.«139661_j19516331393575_2_alg».proof.Proof.KReg4
import proofs.«139661_j19516331393575_2_alg».proof.Proof.KReg5
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Layer 1 -/

set_option maxHeartbeats 16000000 in
/-- The first matrix in the product's format: on the extended reals, the matrix itself. -/
theorem c3_v16 (c : Dev nD) : W3 m ρ c (Proc.devRef .tc main_v16) = (W2 m ρ c (Proc.devRef .tc main_arg2) : S128x4.Idx → EReal) := by
  show StableHlo.after hostOps0_2 (W2 m ρ c) (Proc.devRef .tc main_v16) = _
  after_results <;> rfl

/-- The first layer's scaled product. -/
theorem c4_v17 (c : Dev nD) : W4 m ρ c (Proc.devRef .tc main_v17)
    = KReg.G0 (W3 m ρ c (Proc.devRef .tc main_arg0)) (W3 m ρ c (Proc.devRef .tc main_v16)) (W3 m ρ c (Proc.devRef .tc main_v15)) :=
  (W4_arr m ρ c 3).trans (KReg.final0 (V3 m ρ) c)

set_option maxHeartbeats 16000000 in
/-- The first layer's aggregate. -/
theorem c5_v27 (c : Dev nD) : W5 m ρ c (Proc.devRef .tc main_v27) = Host.scatterAdd (F := Ideal) scatter_S100000x4_S6500000x1_S6500000x4_1_0_0_1
      (broadcastInDim S100000x4 ![] bcast_S_S100000x4 (constant (F := Ideal) S_ .f32 0x00000000#32))
      (broadcastInDim S6500000x1 ![0] bcast_S6500000_S6500000x1_0 (W4 m ρ c (Proc.devRef .tc main_v6)))
      (Host.gather gather_S100000x4_S6500000x1_S6500000x4_1_0_n_n_0_1_14 (W4 m ρ c (Proc.devRef .tc main_v17))
        (broadcastInDim S6500000x1 ![0] bcast_S6500000_S6500000x1_0
          (select (cmpi .slt (W4 m ρ c (Proc.devRef .tc main_v3)) (broadcastInDim S6500000 ![] bcast_S_S6500000 (constantI S_ 32 0#32)))
            (addi (W4 m ρ c (Proc.devRef .tc main_v3)) (broadcastInDim S6500000 ![] bcast_S_S6500000 (constantI S_ 32 100000#32)))
            (W4 m ρ c (Proc.devRef .tc main_v3))))) := by
  show StableHlo.after hostOps1 (W4 m ρ c) (Proc.devRef .tc main_v27) = _
  after_results <;> rfl

set_option maxHeartbeats 16000000 in
/-- The first bias as a row. -/
theorem c5_v28 (c : Dev nD) : W5 m ρ c (Proc.devRef .tc main_v28) = shapeCast S1x4 (W4 m ρ c (Proc.devRef .tc main_arg3)) shapeCasts_S4_S1x4 := by
  show StableHlo.after hostOps1 (W4 m ρ c) (Proc.devRef .tc main_v28) = _
  after_results <;> rfl

/-- The first layer's output. -/
theorem c6_v29 (c : Dev nD) : W6 m ρ c (Proc.devRef .tc main_v29)
    = KReg.G1 (W5 m ρ c (Proc.devRef .tc main_v27)) (W5 m ρ c (Proc.devRef .tc main_v15)) (W5 m ρ c (Proc.devRef .tc main_v28)) :=
  (W6_arr m ρ c 3).trans (KReg.final1 (V5 m ρ) c)

/-! ## Layer 2 -/

set_option maxHeartbeats 16000000 in
/-- The second matrix in the product's format: on the extended reals, the matrix itself. -/
theorem c7_v30 (c : Dev nD) : W7 m ρ c (Proc.devRef .tc main_v30) = (W6 m ρ c (Proc.devRef .tc main_arg4) : S4x4.Idx → EReal) := by
  show StableHlo.after hostOps2 (W6 m ρ c) (Proc.devRef .tc main_v30) = _
  after_results <;> rfl

/-- The second layer's scaled product. -/
theorem c8_v31 (c : Dev nD) : W8 m ρ c (Proc.devRef .tc main_v31)
    = KReg.G2 (W7 m ρ c (Proc.devRef .tc main_v29)) (W7 m ρ c (Proc.devRef .tc main_v30)) (W7 m ρ c (Proc.devRef .tc main_v15)) :=
  (W8_arr m ρ c 3).trans (KReg.final2 (V7 m ρ) c)

set_option maxHeartbeats 16000000 in
/-- The second layer's aggregate. -/
theorem c9_v41 (c : Dev nD) : W9 m ρ c (Proc.devRef .tc main_v41) = Host.scatterAdd (F := Ideal) scatter_S100000x4_S6500000x1_S6500000x4_1_0_0_1
      (broadcastInDim S100000x4 ![] bcast_S_S100000x4 (constant (F := Ideal) S_ .f32 0x00000000#32))
      (broadcastInDim S6500000x1 ![0] bcast_S6500000_S6500000x1_0 (W8 m ρ c (Proc.devRef .tc main_v6)))
      (Host.gather gather_S100000x4_S6500000x1_S6500000x4_1_0_n_n_0_1_14 (W8 m ρ c (Proc.devRef .tc main_v31))
        (broadcastInDim S6500000x1 ![0] bcast_S6500000_S6500000x1_0
          (select (cmpi .slt (W8 m ρ c (Proc.devRef .tc main_v3)) (broadcastInDim S6500000 ![] bcast_S_S6500000 (constantI S_ 32 0#32)))
            (addi (W8 m ρ c (Proc.devRef .tc main_v3)) (broadcastInDim S6500000 ![] bcast_S_S6500000 (constantI S_ 32 100000#32)))
            (W8 m ρ c (Proc.devRef .tc main_v3))))) := by
  show StableHlo.after hostOps3 (W8 m ρ c) (Proc.devRef .tc main_v41) = _
  after_results <;> rfl

set_option maxHeartbeats 16000000 in
/-- The second bias as a row. -/
theorem c9_v42 (c : Dev nD) : W9 m ρ c (Proc.devRef .tc main_v42) = shapeCast S1x4 (W8 m ρ c (Proc.devRef .tc main_arg5)) shapeCasts_S4_S1x4 := by
  show StableHlo.after hostOps3 (W8 m ρ c) (Proc.devRef .tc main_v42) = _
  after_results <;> rfl

/-- The second layer's output. -/
theorem c10_v43 (c : Dev nD) : W10 m ρ c (Proc.devRef .tc main_v43)
    = KReg.G3 (W9 m ρ c (Proc.devRef .tc main_v41)) (W9 m ρ c (Proc.devRef .tc main_v15)) (W9 m ρ c (Proc.devRef .tc main_v42)) :=
  (W10_arr m ρ c 3).trans (KReg.final3 (V9 m ρ) c)

/-! ## Layer 3 and the classifier -/

set_option maxHeartbeats 16000000 in
/-- The third matrix in the product's format: on the extended reals, the matrix itself. -/
theorem c11_v44 (c : Dev nD) : W11 m ρ c (Proc.devRef .tc main_v44) = (W10 m ρ c (Proc.devRef .tc main_arg6) : S4x2.Idx → EReal) := by
  show StableHlo.after hostOps4 (W10 m ρ c) (Proc.devRef .tc main_v44) = _
  after_results <;> rfl

/-- The third layer's scaled product. -/
theorem c12_v45 (c : Dev nD) : W12 m ρ c (Proc.devRef .tc main_v45)
    = KReg.G4 (W11 m ρ c (Proc.devRef .tc main_v43)) (W11 m ρ c (Proc.devRef .tc main_v44)) (W11 m ρ c (Proc.devRef .tc main_v15)) :=
  (W12_arr m ρ c 3).trans (KReg.final4 (V11 m ρ) c)

set_option maxHeartbeats 16000000 in
/-- The third layer's aggregate. -/
theorem c13_v55 (c : Dev nD) : W13 m ρ c (Proc.devRef .tc main_v55) = Host.scatterAdd (F := Ideal) scatter_S100000x2_S6500000x1_S6500000x2_1_0_0_1
      (broadcastInDim S100000x2 ![] bcast_S_S100000x2 (constant (F := Ideal) S_ .f32 0x00000000#32))
      (broadcastInDim S6500000x1 ![0] bcast_S6500000_S6500000x1_0 (W12 m ρ c (Proc.devRef .tc main_v6)))
      (Host.gather gather_S100000x2_S6500000x1_S6500000x2_1_0_n_n_0_1_12 (W12 m ρ c (Proc.devRef .tc main_v45))
        (broadcastInDim S6500000x1 ![0] bcast_S6500000_S6500000x1_0
          (select (cmpi .slt (W12 m ρ c (Proc.devRef .tc main_v3)) (broadcastInDim S6500000 ![] bcast_S_S6500000 (constantI S_ 32 0#32)))
            (addi (W12 m ρ c (Proc.devRef .tc main_v3)) (broadcastInDim S6500000 ![] bcast_S_S6500000 (constantI S_ 32 100000#32)))
            (W12 m ρ c (Proc.devRef .tc main_v3))))) := by
  show StableHlo.after hostOps5 (W12 m ρ c) (Proc.devRef .tc main_v55) = _
  after_results <;> rfl

set_option maxHeartbeats 16000000 in
/-- The third bias as a row. -/
theorem c13_v56 (c : Dev nD) : W13 m ρ c (Proc.devRef .tc main_v56) = shapeCast S1x2 (W12 m ρ c (Proc.devRef .tc main_arg7)) shapeCasts_S2_S1x2 := by
  show StableHlo.after hostOps5 (W12 m ρ c) (Proc.devRef .tc main_v56) = _
  after_results <;> rfl

set_option maxHeartbeats 16000000 in
/-- The classifier bias as a row. -/
theorem c13_v57 (c : Dev nD) : W13 m ρ c (Proc.devRef .tc main_v57) = shapeCast S1x4 (W12 m ρ c (Proc.devRef .tc main_arg9)) shapeCasts_S4_S1x4 := by
  show StableHlo.after hostOps5 (W12 m ρ c) (Proc.devRef .tc main_v57) = _
  after_results <;> rfl

set_option maxHeartbeats 16000000 in
/-- The classifier matrix in the product's format: on the extended reals, the matrix itself. -/
theorem c13_v58 (c : Dev nD) : W13 m ρ c (Proc.devRef .tc main_v58) = (W12 m ρ c (Proc.devRef .tc main_arg8) : S2x4.Idx → EReal) := by
  show StableHlo.after hostOps5 (W12 m ρ c) (Proc.devRef .tc main_v58) = _
  after_results <;> rfl

/-- The third layer's output. -/
theorem c14_h3 (c : Dev nD) : W14 m ρ c (Proc.devRef .tc main_v59_0)
    = KReg.G5h (W13 m ρ c (Proc.devRef .tc main_v55)) (W13 m ρ c (Proc.devRef .tc main_v15)) (W13 m ρ c (Proc.devRef .tc main_v56)) :=
  (W14_arr m ρ c 5).trans (KReg.final5_5 (V13 m ρ) c)

/-- The class scores. -/
theorem c14_out (c : Dev nD) : W14 m ρ c (Proc.devRef .tc main_v59_1)
    = KReg.G5o (W13 m ρ c (Proc.devRef .tc main_v55)) (W13 m ρ c (Proc.devRef .tc main_v15)) (W13 m ρ c (Proc.devRef .tc main_v56)) (W13 m ρ c (Proc.devRef .tc main_v58)) (W13 m ρ c (Proc.devRef .tc main_v57)) :=
  (W14_arr m ρ c 6).trans (KReg.final5_6 (V13 m ρ) c)

end Cert.KernelIdeal.KChain

end
-- ==== Proof.KKeep.lean ====
/-
  Buffers that stay as they are between two boundaries of the idealized kernel's run.

  The run is a fold through fourteen segments: host stretches and the six regions.  A host stretch changes only the
  buffers its operations write, and a region changes only its output arrays.  So the column of node weights, the two
  arrays of edge end points and each argument array hold, at the boundary where a later stretch or region reads them,
  what they held when they were produced (for an argument: its launch contents).
-/
import proofs.«139661_j19516331393575_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem keep_v15_13_3 (c : Dev nD) : W13 m ρ c (Proc.devRef .tc main_v15) = W3 m ρ c (Proc.devRef .tc main_v15) :=
  calc W13 m ρ c (Proc.devRef .tc main_v15)
    _ = W12 m ρ c (Proc.devRef .tc main_v15) := StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v15) := (W12_arr m ρ c 2).trans (((dat4 (V11 m ρ) c).arrAt_in 2 rfl _).trans (A_eq4 (V11 m ρ) c 2))
    _ = W10 m ρ c (Proc.devRef .tc main_v15) := StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v15) := (W10_arr m ρ c 1).trans (((dat3 (V9 m ρ) c).arrAt_in 1 rfl _).trans (A_eq3 (V9 m ρ) c 1))
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 2).trans (((dat2 (V7 m ρ) c).arrAt_in 2 rfl _).trans (A_eq2 (V7 m ρ) c 2))
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_v15_11_3 (c : Dev nD) : W11 m ρ c (Proc.devRef .tc main_v15) = W3 m ρ c (Proc.devRef .tc main_v15) :=
  calc W11 m ρ c (Proc.devRef .tc main_v15)
    _ = W10 m ρ c (Proc.devRef .tc main_v15) := StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v15) := (W10_arr m ρ c 1).trans (((dat3 (V9 m ρ) c).arrAt_in 1 rfl _).trans (A_eq3 (V9 m ρ) c 1))
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 2).trans (((dat2 (V7 m ρ) c).arrAt_in 2 rfl _).trans (A_eq2 (V7 m ρ) c 2))
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_v15_9_3 (c : Dev nD) : W9 m ρ c (Proc.devRef .tc main_v15) = W3 m ρ c (Proc.devRef .tc main_v15) :=
  calc W9 m ρ c (Proc.devRef .tc main_v15)
    _ = W8 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 2).trans (((dat2 (V7 m ρ) c).arrAt_in 2 rfl _).trans (A_eq2 (V7 m ρ) c 2))
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_v15_7_3 (c : Dev nD) : W7 m ρ c (Proc.devRef .tc main_v15) = W3 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_v15_5_3 (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_v3_12_3 (c : Dev nD) : W12 m ρ c (Proc.devRef .tc main_v3) = W3 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem keep_v3_8_3 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem keep_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v6_12_3 (c : Dev nD) : W12 m ρ c (Proc.devRef .tc main_v6) = W3 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem keep_v6_8_3 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem keep_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg2_2_0 (c : Dev nD) : W2 m ρ c (Proc.devRef .tc main_arg2) = W0 m ρ c (Proc.devRef .tc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg6_10_0 (c : Dev nD) : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_12_0 (c : Dev nD) : W12 m ρ c (Proc.devRef .tc main_arg7) = W0 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg8_12_0 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg9_12_0 (c : Dev nD) : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v29_7_6 (c : Dev nD) : W7 m ρ c (Proc.devRef .tc main_v29) = W6 m ρ c (Proc.devRef .tc main_v29) :=
  calc W7 m ρ c (Proc.devRef .tc main_v29)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v43_11_10 (c : Dev nD) : W11 m ρ c (Proc.devRef .tc main_v43) = W10 m ρ c (Proc.devRef .tc main_v43) :=
  calc W11 m ρ c (Proc.devRef .tc main_v43)
    _ = W10 m ρ c (Proc.devRef .tc main_v43) := StableHlo.after_of_forall_not_mem (b := Proc.devRef .tc main_v43) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_3_1 (c : Dev nD) : W3 m ρ c (Proc.devRef .tc main_v6) = W1 m ρ c (Proc.devRef .tc main_v6) :=
  calc W3 m ρ c (Proc.devRef .tc main_v6)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KKeep

end
-- ==== Proof.KGraphC.lean ====
/-
  The kernel's weight vector (the inverse square root of the degree where it is positive, zero elsewhere: a selection
  computed in a called function) and the weight column (the vector with a unit axis added).
-/
import proofs.«139661_j19516331393575_2_alg».proof.Proof.Gen.KernelIdeal.Frame
import Idealize.ShloMosaic.Lib.StableHlo.Run
import Idealize.ShloMosaic.Lib.Pipeline.Value
import Idealize.ShloMosaic.PureOps.Ideal
import Idealize.ShloMosaic.Lib.ValueIdx

set_option maxRecDepth 16384

noncomputable section

namespace Cert.KernelIdeal.KGraph

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The called selection over ANY contents of the buffers it reads: the first operand where the mask is set, the second
    operand (a scalar broadcast) elsewhere. -/
theorem where_val (W : Valuation τ sig (Elt Ideal)) :
    StableHlo.after hostOps0_1 W (Proc.devRef .tc main_v14)
      = select (W (Proc.devRef .tc main_v12)) (W (Proc.devRef .tc main_v13))
          (broadcastInDim S100000 ![] bcast_S_S100000 (id (W (Proc.devRef .tc main_cst_2)))) := by
  after_results <;> rfl

/-- The weight vector: the inverse square root where the degree is positive, zero elsewhere. -/
theorem w2_v14 (c : Dev nD) : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) :=
  where_val (W1 m ρ c)

set_option maxHeartbeats 32000000 in
/-- The weight column: the weight vector with a unit axis added. -/
theorem w3_v15 (c : Dev nD) : W3 m ρ c (Proc.devRef .tc main_v15)
    = shapeCast S100000x1 (W2 m ρ c (Proc.devRef .tc main_v14)) shapeCasts_S100000_S100000x1 := by
  show StableHlo.after hostOps0_2 (W2 m ρ c) (Proc.devRef .tc main_v15) = _
  after_results <;> rfl

end Cert.KernelIdeal.KGraph

end
-- ==== Proof.LibSegRows.lean ====
/-
  A row scatter-add, a flat scatter-add and a row gather, read at an index.

  All three take a column of `E` start indices (an `[E, 1]` array of machine integers, read signed).
  * The row scatter-add of an `[E, C]` array of updates into an `[N, C]` array adds row `e` of the updates to row
    `idx e` of the operand; a row whose index is the number of no row of the operand is dropped.  Read at `(r, c)`, the
    result is the operand's entry plus the sum of the updates' entries `(e, c)` over the `e` with `idx e = r`.
  * The flat scatter-add is the same with no column axis: `[E]` updates into an `[N]` array.
  * The row gather of an `[N, C]` array makes the `[E, C]` array whose row `e` is row `idx e` of the operand, the index
    clamped into `[0, N - 1]`.
-/
import Idealize.ShloMosaic.Lib.ValueIdx
import Idealize.ShloMosaic.PureOps.Ideal

noncomputable section

namespace Cert.LibSegRows

open Idealize.ShloMosaic Idealize.ShloMosaic.ValueIdx

/-- The dimension numbers of a row scatter: the updates' axis 1 is the window, the operand's axis 0 is indexed. -/
abbrev rowScatter (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: no window, the operand's one axis is indexed. -/
abbrev flatScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row gather: whole rows (slices `[1, C]`) at the start indices. -/
abbrev rowGather (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Where an update of a row scatter lands: the update `(e, b)` goes to `(r, c)` exactly when the start index of row `e`, read
    signed, is `r` and the column is the same.  On axis 0 the landing coordinate is the start index (the window
    coordinate there is 0), on axis 1 it is the update's column (the start there is 0); a start index outside
    `[0, N)` lands nowhere. -/
theorem rowScatter_resultIdx?_eq {N C E w : ℕ} (wf : ScatterDims.WF ⟨2, ![N, C]⟩ ⟨2, ![E, 1]⟩ ⟨2, ![E, C]⟩ [1] [0] [0] 1)
    (idx : IVec ⟨2, ![E, 1]⟩ w) (e : Fin E) (b : Fin C) (r : Fin N) (c : Fin C) :
    (rowScatter N C E wf).resultIdx? (ix2 e b) idx = some (ix2 r c)
      ↔ (idx (ix2 e (0 : Fin 1))).toInt = (r.val : ℤ) ∧ b = c := by
  have hs0 : (rowScatter N C E wf).start (ix2 e b) idx 0 = (idx (ix2 e (0 : Fin 1))).toInt := by
    unfold ScatterDims.start
    rw [dif_pos (show (0 : Fin 2) ∈ (rowScatter N C E wf).scatterDimsToOperandDims from List.mem_singleton.mpr rfl)]
    have hsi : (rowScatter N C E wf).siIdx (ix2 e b) ⟨List.idxOf (0 : Fin 2) (rowScatter N C E wf).scatterDimsToOperandDims,
        List.idxOf_lt_length_iff.2 (List.mem_singleton.mpr rfl)⟩ = ix2 e (0 : Fin 1) := by
      funext a; refine Fin.ext ?_
      match a with
      | ⟨0, _⟩ => rfl
      | ⟨1, _⟩ => rfl
    rw [hsi]
  have hw0 : (rowScatter N C E wf).window (ix2 e b) 0 = 0 := by
    unfold ScatterDims.window
    rw [dif_neg (show (0 : Fin 2) ∉ (rowScatter N C E wf).sKept from
      (by decide : (0 : Fin 2) ∉ (List.finRange 2).filter (· ∉ ([0] : List (Fin 2)))))]
  have hs1 : (rowScatter N C E wf).start (ix2 e b) idx 1 = 0 := by
    unfold ScatterDims.start
    rw [dif_neg (show (1 : Fin 2) ∉ (rowScatter N C E wf).scatterDimsToOperandDims from
      (by decide : (1 : Fin 2) ∉ ([0] : List (Fin 2))))]
  have hw1 : (rowScatter N C E wf).window (ix2 e b) 1 = b.val := by
    unfold ScatterDims.window
    rw [dif_pos (show (1 : Fin 2) ∈ (rowScatter N C E wf).sKept from
      (by decide : (1 : Fin 2) ∈ (List.finRange 2).filter (· ∉ ([0] : List (Fin 2)))))]
    rfl
  unfold ScatterDims.resultIdx?
  split
  · rename_i h
    have h0 := h 0
    have h1 := h 1
    rw [hs0, hw0] at h0
    rw [hs1, hw1] at h1
    rw [Option.some.injEq]
    constructor
    · intro hf
      have e0 := congrArg Fin.val (congrFun hf 0)
      have e1 := congrArg Fin.val (congrFun hf 1)
      change ((rowScatter N C E wf).start (ix2 e b) idx 0 + (rowScatter N C E wf).window (ix2 e b) 0).toNat = r.val at e0
      change ((rowScatter N C E wf).start (ix2 e b) idx 1 + (rowScatter N C E wf).window (ix2 e b) 1).toNat = c.val at e1
      rw [hs0, hw0] at e0
      rw [hs1, hw1] at e1
      exact ⟨by omega, Fin.ext (by omega)⟩
    · rintro ⟨hr, rfl⟩
      funext a
      refine Fin.ext ?_
      match a with
      | ⟨0, _⟩ =>
        show ((rowScatter N C E wf).start (ix2 e b) idx 0 + (rowScatter N C E wf).window (ix2 e b) 0).toNat = r.val
        rw [hs0, hw0]; omega
      | ⟨1, _⟩ =>
        show ((rowScatter N C E wf).start (ix2 e b) idx 1 + (rowScatter N C E wf).window (ix2 e b) 1).toNat = b.val
        rw [hs1, hw1]; omega
  · rename_i h
    constructor
    · intro hf; exact absurd hf (by simp)
    · rintro ⟨hr, rfl⟩
      refine absurd (fun a => ?_) h
      match a with
      | ⟨0, _⟩ =>
        show 0 ≤ (rowScatter N C E wf).start (ix2 e b) idx 0 + (rowScatter N C E wf).window (ix2 e b) 0
          ∧ (rowScatter N C E wf).start (ix2 e b) idx 0 + (rowScatter N C E wf).window (ix2 e b) 0 < (N : ℤ)
        rw [hs0, hw0]; have := r.isLt; omega
      | ⟨1, _⟩ =>
        show 0 ≤ (rowScatter N C E wf).start (ix2 e b) idx 1 + (rowScatter N C E wf).window (ix2 e b) 1
          ∧ (rowScatter N C E wf).start (ix2 e b) idx 1 + (rowScatter N C E wf).window (ix2 e b) 1 < (C : ℤ)
        rw [hs1, hw1]; have := b.isLt; omega

/-- THE ROW SCATTER-ADD READ AT `(r, c)`: the operand there plus the updates `(e, c)` of the rows `e` sent to `r`. -/
theorem rowScatterAdd_apply {N C E w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (c : Fin C) :
    Ideal.hostScatterAdd (rowScatter N C E wf) x idx upd (ix2 r c)
      = x (ix2 r c) + ∑ e : Fin E, if (idx (ix2 e (0 : Fin 1))).toInt = (r.val : ℤ) then upd (ix2 e c) else 0 := by
  unfold Ideal.hostScatterAdd
  congr 1
  rw [Finset.sum_filter, sum_idx2]
  refine Finset.sum_congr rfl fun e _ => ?_
  simp only [rowScatter_resultIdx?_eq]
  by_cases hP : (idx (ix2 e (0 : Fin 1))).toInt = (r.val : ℤ)
  · simp [hP]
  · simp [hP]

/-- A rank-1 index set is in bijection with its one coordinate range: an index goes to its coordinate. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Where an update of a flat scatter lands: the update `e` goes to `r` exactly when its start index, read signed, is
    `r` (the landing coordinate is the start index, the window coordinate being 0); a start index outside `[0, N)`
    lands nowhere. -/
theorem flatScatter_resultIdx?_eq {N E w : ℕ} (wf : ScatterDims.WF ⟨1, ![N]⟩ ⟨2, ![E, 1]⟩ ⟨1, ![E]⟩ [] [0] [0] 1)
    (idx : IVec ⟨2, ![E, 1]⟩ w) (e : Fin E) (r : Fin N) :
    (flatScatter N E wf).resultIdx? (ix1 e) idx = some (ix1 r) ↔ (idx (ix2 e (0 : Fin 1))).toInt = (r.val : ℤ) := by
  have hs0 : (flatScatter N E wf).start (ix1 e) idx 0 = (idx (ix2 e (0 : Fin 1))).toInt := by
    unfold ScatterDims.start
    rw [dif_pos (show (0 : Fin 1) ∈ (flatScatter N E wf).scatterDimsToOperandDims from List.mem_singleton.mpr rfl)]
    have hsi : (flatScatter N E wf).siIdx (ix1 e) ⟨List.idxOf (0 : Fin 1) (flatScatter N E wf).scatterDimsToOperandDims,
        List.idxOf_lt_length_iff.2 (List.mem_singleton.mpr rfl)⟩ = ix2 e (0 : Fin 1) := by
      funext a; refine Fin.ext ?_
      match a with
      | ⟨0, _⟩ => rfl
      | ⟨1, _⟩ => rfl
    rw [hsi]
  have hw0 : (flatScatter N E wf).window (ix1 e) 0 = 0 := by
    unfold ScatterDims.window
    rw [dif_neg (show (0 : Fin 1) ∉ (flatScatter N E wf).sKept from
      (by decide : (0 : Fin 1) ∉ (List.finRange 1).filter (· ∉ ([0] : List (Fin 1)))))]
  unfold ScatterDims.resultIdx?
  split
  · rename_i h
    have h0 := h 0
    rw [hs0, hw0] at h0
    rw [Option.some.injEq]
    constructor
    · intro hf
      have e0 := congrArg Fin.val (congrFun hf 0)
      change ((flatScatter N E wf).start (ix1 e) idx 0 + (flatScatter N E wf).window (ix1 e) 0).toNat = r.val at e0
      rw [hs0, hw0] at e0
      omega
    · intro hr
      funext a
      refine Fin.ext ?_
      match a with
      | ⟨0, _⟩ =>
        show ((flatScatter N E wf).start (ix1 e) idx 0 + (flatScatter N E wf).window (ix1 e) 0).toNat = r.val
        rw [hs0, hw0]; omega
  · rename_i h
    constructor
    · intro hf; exact absurd hf (by simp)
    · intro hr
      refine absurd (fun a => ?_) h
      match a with
      | ⟨0, _⟩ =>
        show 0 ≤ (flatScatter N E wf).start (ix1 e) idx 0 + (flatScatter N E wf).window (ix1 e) 0
          ∧ (flatScatter N E wf).start (ix1 e) idx 0 + (flatScatter N E wf).window (ix1 e) 0 < (N : ℤ)
        rw [hs0, hw0]; have := r.isLt; omega

/-- THE FLAT SCATTER-ADD READ AT `r`: the operand there plus the updates `e` sent to `r`. -/
theorem flatScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (r : Fin N) :
    Ideal.hostScatterAdd (flatScatter N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [flatScatter_resultIdx?_eq]

/-- The row a start index names: read signed, clamped into `[0, N - 1]`. -/
def clampRow {N E w : ℕ} (hN : 0 < N) (idx : IVec ⟨2, ![E, 1]⟩ w) (e : Fin E) : Fin N :=
  ⟨min (idx (ix2 e (0 : Fin 1))).toInt.toNat (N - 1), by omega⟩

/-- THE ROW GATHER READ AT `(e, c)`: the operand at the clamped row, same column. -/
theorem rowGather_apply {α : Type} {N C E w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N C E wf) x idx (ix2 e c) = x (ix2 (clampRow hN idx e) c) := by
  unfold Host.gather
  congr 1
  funext a
  match a with
  | ⟨0, _⟩ =>
    refine Fin.ext ?_
    show (rowGather N C E wf).start (ix2 e c) idx 0 + (rowGather N C E wf).batchCoord (ix2 e c) 0
      + (rowGather N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e c) ⟨List.idxOf (0 : Fin 2) (rowGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C E wf).start (ix2 e c) idx 1 + (rowGather N C E wf).batchCoord (ix2 e c) 1
      + (rowGather N C E wf).offCoord (ix2 e c) 1 = c.val
    rw [GatherDims.batchCoord_eq_zero _ _ _ List.not_mem_nil]
    unfold GatherDims.start
    rw [dif_neg (show (1 : Fin 2) ∉ (rowGather N C E wf).startIndexMap from (by decide : (1 : Fin 2) ∉ ([0] : List (Fin 2))))]
    simp only [Nat.add_zero, Nat.zero_add]
    unfold GatherDims.offCoord
    rw [dif_pos (show (1 : Fin 2) ∈ (rowGather N C E wf).sKept from
      (GatherDims.mem_sKept _ _).mpr ⟨(by decide : (1 : Fin 2) ∉ ([0] : List (Fin 2))), List.not_mem_nil⟩)]
    rfl

end Cert.LibSegRows

end
-- ==== Proof.GcnIndex.lean ====
/-
  Two facts about node indices read off machine integers.

  * A flat gather of an `[N]` array at a column of `E` start indices makes the `[E]` array whose entry `e` is the operand's
    entry at the start index of `e`, read signed and clamped into `[0, N - 1]`.
  * An index array is normalised before a gather by adding `N` to its negative entries.  An entry that, read signed, is a
    node number `r` with `0 ≤ r` is left as it is, so the clamped row it names is `r` itself.
-/
import proofs.«139661_j19516331393575_2_alg».proof.Proof.LibSegRows

noncomputable section

namespace Cert.GcnIndex

open Idealize.ShloMosaic Idealize.ShloMosaic.ValueIdx Cert.LibSegRows

/-- The dimension numbers of a flat gather: single entries (slices `[1]`) at the start indices. -/
abbrev flatGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the clamped start index of `e`. -/
theorem flatGather_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow hN idx e)) := by
  unfold Host.gather
  congr 1
  funext a
  match a with
  | ⟨0, _⟩ =>
    refine Fin.ext ?_
    show (flatGather N E wf).start (ix1 e) idx 0 + (flatGather N E wf).batchCoord (ix1 e) 0
      + (flatGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGather N E wf).startIndexMap from List.mem_singleton.mpr rfl)]
    have hsi : (flatGather N E wf).siIdx (ix1 e) ⟨List.idxOf (0 : Fin 1) (flatGather N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Adding `n` to the negative entries leaves an entry that reads as a nonnegative integer alone. -/
theorem wrap_of_nonneg (v n : BitVec 32) (hv : 0 ≤ v.toInt) :
    Scalar.select (IntOp.cmpi .slt v 0#32) (IntOp.addi v n) v = v := by
  unfold Scalar.select IntOp.cmpi
  have h : v.slt 0#32 = false := by
    rw [BitVec.slt_eq_decide]
    simpa using hv
  simp [h]

/-- A start index that reads as the node number `r` names, clamped, the node `r`. -/
theorem clampRow_of_toInt {N E w : ℕ} (hN : 0 < N) (idx : IVec ⟨2, ![E, 1]⟩ w) (e : Fin E) (r : Fin N)
    (h : (idx (ix2 e (0 : Fin 1))).toInt = (r.val : ℤ)) : clampRow hN idx e = r := by
  unfold clampRow
  refine Fin.ext ?_
  show min (idx (ix2 e (0 : Fin 1))).toInt.toNat (N - 1) = r.val
  rw [h]
  have := r.isLt
  omega

end Cert.GcnIndex

end
-- ==== Proof.RGraph.lean ====
/-
  The graph a run of either program works on, read off the edge list: node weights, edge end points, and which edges are
  added into which row.

  * `dR j`     the weight of node `j`: with `deg j` the number of edges whose raw destination index reads as `j`, the
                inverse square root of `deg j` where it is positive and zero elsewhere.  So `0 ≤ dR j` and `dR j ≠ ⊤`.
  * `sR e`     the source node of edge `e`: its source index with negative values wrapped by the node count, clamped.
  * `tR e`     the node at which the destination weight of edge `e` is gathered: the same from its destination index.
  * `PR e i`   edge `e` is added into row `i`: its raw destination index reads as `i`.  Then the index is nonnegative and
                in range, so wrapping and clamping leave it alone: `tR e = i`.
-/
import proofs.«139661_j19516331393575_2_alg».proof.Proof.RefReadP
import proofs.«139661_j19516331393575_2_alg».proof.Proof.LibSegRows
import proofs.«139661_j19516331393575_2_alg».proof.Proof.GcnIndex
import proofs.«139661_j19516331393575_2_alg».proof.Proof.GcnLaw

set_option maxRecDepth 16384

noncomputable section

namespace Cert.ReferenceIdeal.RGraph

open Cert.ReferenceIdeal Cert.ReferenceIdeal.ReadP Idealize.ShloMosaic Idealize.ShloMosaic.ValueIdx
open Cert.LibSegRows Cert.GcnIndex Cert.GcnLaw

/-- The edge list as the program receives it. -/
abbrev Edges := (⟨S2x6400000, .i32⟩ : BufTy).Contents (Elt Ideal)

theorem hN : 0 < 100000 := by decide

/-- The weight of node `j`. -/
def dR (x1 : Edges) (j : Fin 100000) : EReal := val_main_v15 (F := Ideal) x1 (ix1 j)
/-- The source node of edge `e`. -/
def sR (x1 : Edges) (e : Fin 6500000) : Fin 100000 := clampRow hN (val_main_v36 (F := Ideal) x1) e
/-- The node at which the destination weight of edge `e` is gathered. -/
def tR (x1 : Edges) (e : Fin 6500000) : Fin 100000 := clampRow hN (val_main_v28 (F := Ideal) x1) e
/-- Edge `e` is added into row `i`. -/
abbrev PR (x1 : Edges) (e : Fin 6500000) (i : Fin 100000) : Prop :=
  (val_main_v42 (F := Ideal) x1 (ix2 e (0 : Fin 1))).toInt = (i.val : ℤ)

/-- The weight of a node is the weight function of its degree. -/
theorem dR_eq_weight (x1 : Edges) (j : Fin 100000) : dR x1 j = weight (val_main_v11 (F := Ideal) x1 (ix1 j)) := by
  unfold dR weight
  rw [val_main_v15_apply, val_main_v13_apply, val_main_v14_apply, val_main_call0_v1_apply, val_main_call0_v0_apply,
    val_main_cst_2_apply, val_main_v12_apply, val_main_cst_1_apply]
  rw [Ideal.cmpf_def, Ideal.hostUnary_rsqrt_def, Ideal.ofBits_def, Ideal.ofBits_zero_f32]
  unfold Scalar.select Ideal.cmp
  by_cases h : 0 < val_main_v11 (F := Ideal) x1 (ix1 j)
  · simp [h]
  · simp [h]

theorem dR_nonneg (x1 : Edges) (j : Fin 100000) : 0 ≤ dR x1 j := by
  rw [dR_eq_weight]; exact weight_nonneg _

theorem dR_ne_top (x1 : Edges) (j : Fin 100000) : dR x1 j ≠ ⊤ := by
  rw [dR_eq_weight]; exact weight_ne_top _

/-- An edge added into row `i` has its destination weight gathered at `i`. -/
theorem tR_of_PR (x1 : Edges) (e : Fin 6500000) (i : Fin 100000) (h : PR x1 e i) : tR x1 e = i := by
  refine clampRow_of_toInt hN _ e i ?_
  have hi42 : idx_main_v42 (ix2 e (0 : Fin 1)) = ix1 e := funext fun a => Fin.ext (by
    match a with
    | ⟨0, _⟩ => rfl)
  have hi28 : idx_main_v28 (ix2 e (0 : Fin 1)) = ix1 e := funext fun a => Fin.ext (by
    match a with
    | ⟨0, _⟩ => rfl)
  have hv : (val_main_v6 (F := Ideal) x1 (ix1 e)).toInt = (i.val : ℤ) := by
    have h42 := h
    unfold PR at h42
    rw [val_main_v42_apply, hi42] at h42
    exact h42
  rw [val_main_v28_apply, hi28, val_main_v27_apply, val_main_v24_apply, val_main_v26_apply]
  rw [show val_main_v23 (F := Ideal) (ix1 e) = 0#32 from rfl]
  rw [wrap_of_nonneg _ _ (by rw [hv]; exact Int.natCast_nonneg _)]
  exact hv

end Cert.ReferenceIdeal.RGraph

end
-- ==== Proof.KGraphA.lean ====
/-
  The kernel's two index arrays are the reference's.

  Before its first region the kernel builds, from the edge list, the concatenated source and destination index arrays: the
  given edges followed by one self-loop per node.  They are the same operations, on the same argument, as the reference's
  first stages.
-/
import proofs.«139661_j19516331393575_2_alg».proof.Proof.Gen.KernelIdeal.Frame
import Idealize.ShloMosaic.Lib.StableHlo.Run
import Idealize.ShloMosaic.Lib.Pipeline.Value
import Idealize.ShloMosaic.PureOps.Ideal
import proofs.«139661_j19516331393575_2_alg».proof.Proof.RGraph

set_option maxRecDepth 16384

noncomputable section

namespace Cert.KernelIdeal.KGraph

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)
/-- The edge list the kernel was launched with, as the reference's stages take it. -/
abbrev edges (c : Dev nD) : Cert.ReferenceIdeal.RGraph.Edges := m ((c.tc : Thread nD τ).loc main_arg1)

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

set_option maxHeartbeats 32000000 in
/-- The kernel's source index array is the reference's. -/
theorem src_eq (c : Dev nD) :
    W3 m ρ c (Proc.devRef .tc main_v3) = Cert.ReferenceIdeal.ReadP.val_main_v3 (F := Ideal) (edges m c) := by
  show StableHlo.after hostOps0_2 (StableHlo.after hostOps0_1 (StableHlo.after hostOps0 (W0 m ρ c))) (Proc.devRef .tc main_v3) = _
  after_results <;> rfl

set_option maxHeartbeats 32000000 in
/-- The kernel's destination index array is the reference's. -/
theorem dst_eq (c : Dev nD) :
    W3 m ρ c (Proc.devRef .tc main_v6) = Cert.ReferenceIdeal.ReadP.val_main_v6 (F := Ideal) (edges m c) := by
  show StableHlo.after hostOps0_2 (StableHlo.after hostOps0_1 (StableHlo.after hostOps0 (W0 m ρ c))) (Proc.devRef .tc main_v6) = _
  after_results <;> rfl

end Cert.KernelIdeal.KGraph

end
-- ==== Proof.KGraphB.lean ====
/-
  The kernel's degree vector and what is computed from it in the first host stretch: the count of the edges into each
  node (a scatter-add of ones at the destination indices), where that count is positive, and its inverse square root.
-/
import proofs.«139661_j19516331393575_2_alg».proof.Proof.Gen.KernelIdeal.Frame
import Idealize.ShloMosaic.Lib.StableHlo.Run
import Idealize.ShloMosaic.Lib.Pipeline.Value
import Idealize.ShloMosaic.PureOps.Ideal
import Idealize.ShloMosaic.Lib.ValueIdx

set_option maxRecDepth 16384

noncomputable section

namespace Cert.KernelIdeal.KGraph

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ### The weight column, one operation at a time -/

set_option maxHeartbeats 32000000 in
/-- The degree vector: a count, by scatter-add of ones at the destination indices, of the edges into each node. -/
theorem w1_v10 (c : Dev nD) : W1 m ρ c (Proc.devRef .tc main_v10)
    = Host.scatterAdd (F := Ideal) scatter_S100000_S6500000x1_S6500000_n_0_0_1
        (broadcastInDim S100000 ![] bcast_S_S100000 (constant (F := Ideal) S_ .f32 0x00000000#32))
        (broadcastInDim S6500000x1 ![0] bcast_S6500000_S6500000x1_0 (W1 m ρ c (Proc.devRef .tc main_v6)))
        (broadcastInDim S6500000 ![] bcast_S_S6500000 (constant (F := Ideal) S_ .f32 0x3F800000#32)) := by
  show StableHlo.after hostOps0 (W0 m ρ c) (Proc.devRef .tc main_v10)
    = Host.scatterAdd (F := Ideal) scatter_S100000_S6500000x1_S6500000_n_0_0_1 _
        (broadcastInDim S6500000x1 ![0] bcast_S6500000_S6500000x1_0 (StableHlo.after hostOps0 (W0 m ρ c) (Proc.devRef .tc main_v6))) _
  after_results <;> rfl

set_option maxHeartbeats 32000000 in
/-- Where the degree is positive. -/
theorem w1_v12 (c : Dev nD) : W1 m ρ c (Proc.devRef .tc main_v12)
    = cmpf (F := Ideal) (φ := .f32) .ogt (W1 m ρ c (Proc.devRef .tc main_v10))
        (broadcastInDim S100000 ![] bcast_S_S100000 (constant (F := Ideal) S_ .f32 0x00000000#32)) := by
  show StableHlo.after hostOps0 (W0 m ρ c) (Proc.devRef .tc main_v12)
    = cmpf (F := Ideal) (φ := .f32) .ogt (StableHlo.after hostOps0 (W0 m ρ c) (Proc.devRef .tc main_v10)) _
  after_results <;> rfl

set_option maxHeartbeats 32000000 in
/-- The inverse square root of the degree. -/
theorem w1_v13 (c : Dev nD) : W1 m ρ c (Proc.devRef .tc main_v13) = Host.rsqrt (F := Ideal) (φ := .f32) (W1 m ρ c (Proc.devRef .tc main_v10)) := by
  show StableHlo.after hostOps0 (W0 m ρ c) (Proc.devRef .tc main_v13)
    = Host.rsqrt (F := Ideal) (φ := .f32) (StableHlo.after hostOps0 (W0 m ρ c) (Proc.devRef .tc main_v10))
  after_results <;> rfl

set_option maxHeartbeats 32000000 in
/-- The zero the weight falls back to. -/
theorem w1_cst2 (c : Dev nD) : W1 m ρ c (Proc.devRef .tc main_cst_2) = constant (F := Ideal) S_ .f32 0x00000000#32 := by
  show StableHlo.after hostOps0 (W0 m ρ c) (Proc.devRef .tc main_cst_2) = _
  after_results <;> rfl

end Cert.KernelIdeal.KGraph

end
-- ==== Proof.GcnArr.lean ====
/-
  Gathers, scatter-adds and whole layers over arrays, read at an entry, with the dimension numbers as a variable.

  Every statement here takes the operation's dimension numbers `d` together with a proof that they are the row (or flat)
  form, so that it applies to a program's own record as it stands.

  * A row gather reads, at `(e, c)`, the operand at (the clamped start index of `e`, `c`); a flat gather, at `e`, the operand
    at the clamped start index of `e`.
  * A row scatter-add reads, at `(r, c)`, the operand there plus the sum over the edges `e` whose start index reads as `r` of
    the update at `(e, c)`; a flat one the same without the column.
  * ONE LAYER, first arrangement: messages that are a row product times the two end nodes' weights, scatter-added into
    zeros, plus a bias, through tanh.
  * ONE LAYER, second arrangement: rows of a scaled product gathered at the edges' sources and scatter-added into zeros,
    times the row's weight, plus a bias, through tanh.
-/
import proofs.«139661_j19516331393575_2_alg».proof.Proof.LibSegRows
import proofs.«139661_j19516331393575_2_alg».proof.Proof.GcnIndex
import proofs.«139661_j19516331393575_2_alg».proof.Proof.GcnLaw

noncomputable section

namespace Cert.GcnArr

open scoped BigOperators
open Idealize.ShloMosaic Idealize.ShloMosaic.ValueIdx Cert.LibSegRows Cert.GcnIndex Cert.GcnLaw

variable {N E K C : ℕ}

theorem gatherRow_at {α : Type} (hN : 0 < N) (g : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hg : g = rowGather N C E wf)
    (x : (⟨2, ![N, C]⟩ : Shape).Idx → α) (idx : IVec ⟨2, ![E, 1]⟩ 32) (e : Fin E) (c : Fin C) :
    Host.gather g x idx (ix2 e c) = x (ix2 (clampRow hN idx e) c) := by
  subst hg; exact rowGather_apply hN wf x idx e c

theorem gatherFlat_at {α : Type} (hN : 0 < N) (g : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hg : g = flatGather N E wf)
    (x : (⟨1, ![N]⟩ : Shape).Idx → α) (idx : IVec ⟨2, ![E, 1]⟩ 32) (e : Fin E) :
    Host.gather g x idx (ix1 e) = x (ix1 (clampRow hN idx e)) := by
  subst hg; exact flatGather_apply hN wf x idx e

theorem scatterRow_at (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatter N C E wf)
    (x : (⟨2, ![N, C]⟩ : Shape).Idx → EReal) (idx : IVec ⟨2, ![E, 1]⟩ 32) (upd : (⟨2, ![E, C]⟩ : Shape).Idx → EReal)
    (r : Fin N) (c : Fin C) :
    Host.scatterAdd (F := Ideal) (φ := .f32) d x idx upd (ix2 r c)
      = x (ix2 r c) + ∑ e : Fin E, if (idx (ix2 e (0 : Fin 1))).toInt = (r.val : ℤ) then upd (ix2 e c) else 0 := by
  subst hd; exact rowScatterAdd_apply wf x idx upd r c

theorem scatterFlat_at (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = flatScatter N E wf)
    (x : (⟨1, ![N]⟩ : Shape).Idx → EReal) (idx : IVec ⟨2, ![E, 1]⟩ 32) (upd : (⟨1, ![E]⟩ : Shape).Idx → EReal)
    (r : Fin N) :
    Host.scatterAdd (F := Ideal) (φ := .f32) d x idx upd (ix1 r)
      = x (ix1 r) + ∑ e : Fin E, if (idx (ix2 e (0 : Fin 1))).toInt = (r.val : ℤ) then upd (ix1 e) else 0 := by
  subst hd; exact flatScatterAdd_apply wf x idx upd r

/-- Two flat scatter-adds of entrywise equal operands at one column of indices agree at every entry. -/
theorem scatterFlat_congr (d d' : ScatterDims ⟨1, ![N]⟩ ⟨2, ![E, 1]⟩ ⟨1, ![E]⟩)
    (wf wf' : ScatterDims.WF ⟨1, ![N]⟩ ⟨2, ![E, 1]⟩ ⟨1, ![E]⟩ [] [0] [0] 1)
    (hd : d = flatScatter N E wf) (hd' : d' = flatScatter N E wf')
    (x x' : (⟨1, ![N]⟩ : Shape).Idx → EReal) (idx : IVec ⟨2, ![E, 1]⟩ 32) (upd upd' : (⟨1, ![E]⟩ : Shape).Idx → EReal)
    (hx : ∀ i, x i = x' i) (hu : ∀ i, upd i = upd' i) (r : Fin N) :
    Host.scatterAdd (F := Ideal) (φ := .f32) d x idx upd (ix1 r) = Host.scatterAdd (F := Ideal) (φ := .f32) d' x' idx upd' (ix1 r) := by
  rw [scatterFlat_at d wf hd, scatterFlat_at d' wf' hd', hx]
  refine congrArg (fun s => x' (ix1 r) + s) (Finset.sum_congr rfl fun e _ => ?_)
  rw [hu]

/-- ONE LAYER, FIRST ARRANGEMENT, over whole arrays. -/
theorem refLayer_arr (dS : ScatterDims ⟨2, ![N, C]⟩ ⟨2, ![E, 1]⟩ ⟨2, ![E, C]⟩)
    (wfS : ScatterDims.WF ⟨2, ![N, C]⟩ ⟨2, ![E, 1]⟩ ⟨2, ![E, C]⟩ [1] [0] [0] 1) (hdS : dS = rowScatter N C E wfS)
    (d : Fin N → EReal) (s t : Fin E → Fin N)
    (Hin : Fin N → Fin K → EReal) (Wm : Fin K → Fin C → EReal) (b : Fin C → EReal)
    (z agg out : (⟨2, ![N, C]⟩ : Shape).Idx → EReal) (upd : (⟨2, ![E, C]⟩ : Shape).Idx → EReal)
    (hz : ∀ i, z i = 0) (Dc : IVec ⟨2, ![E, 1]⟩ 32)
    (hupd : ∀ (e : Fin E) (c : Fin C), upd (ix2 e c) = rowDot Hin Wm (s e) c * (d (s e) * d (t e)))
    (hagg : agg = Host.scatterAdd (F := Ideal) (φ := .f32) dS z Dc upd)
    (hout : ∀ (i : Fin N) (c : Fin C), out (ix2 i c) = Ideal.tanh (agg (ix2 i c) + b c))
    (i : Fin N) (c : Fin C) :
    out (ix2 i c)
      = refLayer d s t (fun e i => (Dc (ix2 e (0 : Fin 1))).toInt = (i.val : ℤ)) Hin Wm b i c := by
  rw [hout, hagg, scatterRow_at dS wfS hdS, hz]
  unfold refLayer
  refine congrArg Ideal.tanh (congrArg (fun s => s + b c) (congrArg (fun s => (0 : EReal) + s)
    (Finset.sum_congr rfl fun e _ => ?_)))
  rw [hupd]

/-- ONE LAYER, SECOND ARRANGEMENT, over whole arrays. -/
theorem kerLayer_arr (hN : 0 < N) (dS : ScatterDims ⟨2, ![N, C]⟩ ⟨2, ![E, 1]⟩ ⟨2, ![E, C]⟩)
    (wfS : ScatterDims.WF ⟨2, ![N, C]⟩ ⟨2, ![E, 1]⟩ ⟨2, ![E, C]⟩ [1] [0] [0] 1) (hdS : dS = rowScatter N C E wfS)
    (dG : GatherDims ⟨2, ![N, C]⟩ ⟨2, ![E, 1]⟩ ⟨2, ![E, C]⟩)
    (wfG : GatherDims.WF ⟨2, ![N, C]⟩ ⟨2, ![E, 1]⟩ ⟨2, ![E, C]⟩ [1] [0] [] [0] [] 1 ![1, C]) (hdG : dG = rowGather N C E wfG)
    (Hin : (⟨2, ![N, K]⟩ : Shape).Idx → EReal) (Wm : (⟨2, ![K, C]⟩ : Shape).Idx → EReal)
    (Dcol : (⟨2, ![N, 1]⟩ : Shape).Idx → EReal) (brow : (⟨2, ![1, C]⟩ : Shape).Idx → EReal)
    (z hp agg out : (⟨2, ![N, C]⟩ : Shape).Idx → EReal) (hz : ∀ i, z i = 0) (Dc Sc : IVec ⟨2, ![E, 1]⟩ 32)
    (hhp : ∀ (j : Fin N) (c : Fin C),
      hp (ix2 j c) = ∑ k : Fin K, (Hin (ix2 j k) * Dcol (ix2 j (0 : Fin 1))) * Wm (ix2 k c))
    (hagg : agg = Host.scatterAdd (F := Ideal) (φ := .f32) dS z Dc (Host.gather dG hp Sc))
    (hout : ∀ (i : Fin N) (c : Fin C),
      out (ix2 i c) = Ideal.tanh (agg (ix2 i c) * Dcol (ix2 i (0 : Fin 1)) + brow (ix2 (0 : Fin 1) c)))
    (i : Fin N) (c : Fin C) :
    out (ix2 i c)
      = kerLayer (fun j => Dcol (ix2 j (0 : Fin 1))) (clampRow hN Sc)
          (fun e i => (Dc (ix2 e (0 : Fin 1))).toInt = (i.val : ℤ))
          (fun j k => Hin (ix2 j k)) (fun k c => Wm (ix2 k c)) (fun c => brow (ix2 (0 : Fin 1) c)) i c := by
  rw [hout, hagg, scatterRow_at dS wfS hdS, hz]
  unfold kerLayer
  refine congrArg Ideal.tanh (congrArg (fun s => s + brow (ix2 (0 : Fin 1) c)) (congrArg (fun s => s * Dcol (ix2 i (0 : Fin 1)))
    (congrArg (fun s => (0 : EReal) + s) (Finset.sum_congr rfl fun e _ => ?_))))
  rw [gatherRow_at hN dG wfG hdG, hhp]

end Cert.GcnArr

end
-- ==== Proof.KGraphD.lean ====
/-
  The kernel's degree vector is the reference's: both are a scatter-add of ones, into zeros, at one and the same column of
  destination indices, so they agree entry by entry.
-/
import proofs.«139661_j19516331393575_2_alg».proof.Proof.Gen.KernelIdeal.Frame
import Idealize.ShloMosaic.Lib.StableHlo.Run
import Idealize.ShloMosaic.Lib.Pipeline.Value
import Idealize.ShloMosaic.PureOps.Ideal
import Idealize.ShloMosaic.Lib.ValueIdx
import proofs.«139661_j19516331393575_2_alg».proof.Proof.KGraphA
import proofs.«139661_j19516331393575_2_alg».proof.Proof.KGraphB
import proofs.«139661_j19516331393575_2_alg».proof.Proof.KKeep
import proofs.«139661_j19516331393575_2_alg».proof.Proof.GcnArr

set_option maxRecDepth 16384

noncomputable section

namespace Cert.KernelIdeal.KGraph

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

theorem wfFlatK : ScatterDims.WF ⟨1, ![100000]⟩ ⟨2, ![6500000, 1]⟩ ⟨1, ![6500000]⟩ [] [0] [0] 1 :=
  scatter_S100000_S6500000x1_S6500000_n_0_0_1.wf
theorem flatScatK : scatter_S100000_S6500000x1_S6500000_n_0_0_1
    = Cert.LibSegRows.flatScatter 100000 6500000 wfFlatK := rfl
theorem wfFlatR : ScatterDims.WF ⟨1, ![100000]⟩ ⟨2, ![6500000, 1]⟩ ⟨1, ![6500000]⟩ [] [0] [0] 1 :=
  Cert.ReferenceIdeal.scatter_S100000_S6500000x1_S6500000_n_0_0_1.wf
theorem flatScatR : Cert.ReferenceIdeal.scatter_S100000_S6500000x1_S6500000_n_0_0_1
    = Cert.LibSegRows.flatScatter 100000 6500000 wfFlatR := rfl

/-- The kernel's column of destination indices is the reference's. -/
theorem dcol_eq (c : Dev nD) :
    broadcastInDim S6500000x1 ![0] bcast_S6500000_S6500000x1_0 (Cert.ReferenceIdeal.ReadP.val_main_v6 (F := Ideal) (edges m c))
      = Cert.ReferenceIdeal.ReadP.val_main_v10 (F := Ideal) (edges m c) := rfl

/-- The kernel's degree of node `j` is the reference's: the same count of the same edges. -/
theorem deg_at (c : Dev nD) (j : Fin 100000) :
    W1 m ρ c (Proc.devRef .tc main_v10) (ix1 j) = Cert.ReferenceIdeal.ReadP.val_main_v11 (F := Ideal) (edges m c) (ix1 j) := by
  rw [w1_v10, (KKeep.keep_v6_3_1 m ρ c).symm.trans (dst_eq m ρ c), dcol_eq]
  unfold Cert.ReferenceIdeal.ReadP.val_main_v11
  exact Cert.GcnArr.scatterFlat_congr scatter_S100000_S6500000x1_S6500000_n_0_0_1
    Cert.ReferenceIdeal.scatter_S100000_S6500000x1_S6500000_n_0_0_1 wfFlatK wfFlatR flatScatK flatScatR
    (broadcastInDim S100000 ![] bcast_S_S100000 (constant (F := Ideal) S_ .f32 0x00000000#32))
    (Cert.ReferenceIdeal.ReadP.val_main_v9 (F := Ideal)) (Cert.ReferenceIdeal.ReadP.val_main_v10 (F := Ideal) (edges m c))
    (broadcastInDim S6500000 ![] bcast_S_S6500000 (constant (F := Ideal) S_ .f32 0x3F800000#32))
    (Cert.ReferenceIdeal.ReadP.val_main_v8 (F := Ideal)) (fun _ => rfl) (fun _ => rfl) j

end Cert.KernelIdeal.KGraph

end
-- ==== Proof.KGraphE.lean ====
/-
  The kernel's weight column, read at a node, is the node's weight as the reference's stages define it: the weight function
  of the degree, the degree being the same on both sides.
-/
import proofs.«139661_j19516331393575_2_alg».proof.Proof.Gen.KernelIdeal.Frame
import Idealize.ShloMosaic.Lib.StableHlo.Run
import Idealize.ShloMosaic.Lib.Pipeline.Value
import Idealize.ShloMosaic.PureOps.Ideal
import Idealize.ShloMosaic.Lib.ValueIdx
import proofs.«139661_j19516331393575_2_alg».proof.Proof.KGraphC
import proofs.«139661_j19516331393575_2_alg».proof.Proof.KGraphD

set_option maxRecDepth 16384

noncomputable section

namespace Cert.KernelIdeal.KGraph

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The weight of a node from its degree, as the operations compute it entry by entry. -/
theorem weight_select (g : Ideal .f32) :
    Scalar.select (FloatOps.cmpf (F := Ideal) .ogt g (FloatOps.ofBits (F := Ideal) .f32 0x00000000#32))
        (FloatOps.hostUnary (F := Ideal) .rsqrt g) (FloatOps.ofBits (F := Ideal) .f32 0x00000000#32)
      = Cert.GcnLaw.weight g := by
  rw [Ideal.cmpf_def, Ideal.hostUnary_rsqrt_def, Ideal.ofBits_def, Ideal.ofBits_zero_f32]
  unfold Cert.GcnLaw.weight Scalar.select Ideal.cmp
  by_cases h : (0 : EReal) < g
  · simp [h]
  · simp [h]

/-- A selection between the inverse square root of a degree vector `D` and zero, by where `D` is positive, read at node `j`:
    the weight of the degree at `j`.  (`D` is any vector.) -/
theorem select_weight (A : IVec S100000 1) (B Zv : S100000.Idx → EReal) (Zc : S_.Idx → EReal) (D : S100000.Idx → EReal)
    (hA : A = cmpf (F := Ideal) (φ := .f32) .ogt D
      (broadcastInDim S100000 ![] bcast_S_S100000 (constant (F := Ideal) S_ .f32 0x00000000#32)))
    (hB : B = Host.rsqrt (F := Ideal) (φ := .f32) D) (hZc : Zc = constant (F := Ideal) S_ .f32 0x00000000#32)
    (hZv : Zv = broadcastInDim S100000 ![] bcast_S_S100000 (id Zc)) (j : Fin 100000) :
    select A B Zv (ix1 j) = Cert.GcnLaw.weight (D (ix1 j)) := by
  subst hA hB hZv hZc
  exact weight_select (D (ix1 j))

/-- The weight vector at node `j`, from the degree at `j`. -/
theorem w2_v14_at (c : Dev nD) (j : Fin 100000) :
    W2 m ρ c (Proc.devRef .tc main_v14) (ix1 j) = Cert.GcnLaw.weight (W1 m ρ c (Proc.devRef .tc main_v10) (ix1 j)) :=
  (congrFun (w2_v14 m ρ c) (ix1 j)).trans
    (select_weight (W1 m ρ c (Proc.devRef .tc main_v12)) (W1 m ρ c (Proc.devRef .tc main_v13)) _ (W1 m ρ c (Proc.devRef .tc main_cst_2)) (W1 m ρ c (Proc.devRef .tc main_v10))
      (w1_v12 m ρ c) (w1_v13 m ρ c) (w1_cst2 m ρ c) rfl j)

/-- The weight column read at node `j` is the node's weight. -/
theorem wcol_at (c : Dev nD) (j : Fin 100000) :
    W3 m ρ c (Proc.devRef .tc main_v15) (ix2 j (0 : Fin 1)) = Cert.ReferenceIdeal.RGraph.dR (edges m c) j :=
  (congrFun (w3_v15 m ρ c) (ix2 j (0 : Fin 1))).trans
    ((shapeCast_a_a1_apply (W2 m ρ c (Proc.devRef .tc main_v14)) shapeCasts_S100000_S100000x1 j 0).trans
      ((w2_v14_at m ρ c j).trans
        ((congrArg Cert.GcnLaw.weight (deg_at m ρ c j)).trans
          (Cert.ReferenceIdeal.RGraph.dR_eq_weight (edges m c) j).symm)))

end Cert.KernelIdeal.KGraph

end
-- ==== Proof.KLayerBase.lean ====
/-
  Common ground for reading the idealized kernel's layers at an entry: the kernel's gather and scatter records in their
  row forms, its two index columns identified with the reference's, each region's whole-array function read at an entry,
  and the fact that the second arrangement of the layer law depends on its data only through their values.
-/
import proofs.«139661_j19516331393575_2_alg».proof.Proof.KChain
import proofs.«139661_j19516331393575_2_alg».proof.Proof.KKeep
import proofs.«139661_j19516331393575_2_alg».proof.Proof.KGraphE
import proofs.«139661_j19516331393575_2_alg».proof.Proof.GcnArr
import Idealize.ShloMosaic.Lib.ValueLayout

set_option maxRecDepth 16384

noncomputable section

namespace Cert.KernelIdeal.KLayer

open Cert.KernelIdeal Cert.KernelIdeal.Gen Cert.KernelIdeal.KGraph
open Idealize.ShloMosaic Idealize.ShloMosaic.TcCoe Idealize.SL.Sem Idealize.ShloMosaic.ValueIdx
open Cert.GcnLaw

theorem wfS4 : ScatterDims.WF ⟨2, ![100000, 4]⟩ ⟨2, ![6500000, 1]⟩ ⟨2, ![6500000, 4]⟩ [1] [0] [0] 1 := scatter_S100000x4_S6500000x1_S6500000x4_1_0_0_1.wf
theorem scat4 : scatter_S100000x4_S6500000x1_S6500000x4_1_0_0_1 = Cert.LibSegRows.rowScatter 100000 4 6500000 wfS4 := rfl
theorem wfG4 : GatherDims.WF ⟨2, ![100000, 4]⟩ ⟨2, ![6500000, 1]⟩ ⟨2, ![6500000, 4]⟩ [1] [0] [] [0] [] 1 ![1, 4] := gather_S100000x4_S6500000x1_S6500000x4_1_0_n_n_0_1_14.wf
theorem gath4 : gather_S100000x4_S6500000x1_S6500000x4_1_0_n_n_0_1_14 = Cert.LibSegRows.rowGather 100000 4 6500000 wfG4 := rfl
theorem wfS2 : ScatterDims.WF ⟨2, ![100000, 2]⟩ ⟨2, ![6500000, 1]⟩ ⟨2, ![6500000, 2]⟩ [1] [0] [0] 1 := scatter_S100000x2_S6500000x1_S6500000x2_1_0_0_1.wf
theorem scat2 : scatter_S100000x2_S6500000x1_S6500000x2_1_0_0_1 = Cert.LibSegRows.rowScatter 100000 2 6500000 wfS2 := rfl
theorem wfG2 : GatherDims.WF ⟨2, ![100000, 2]⟩ ⟨2, ![6500000, 1]⟩ ⟨2, ![6500000, 2]⟩ [1] [0] [] [0] [] 1 ![1, 2] := gather_S100000x2_S6500000x1_S6500000x2_1_0_n_n_0_1_12.wf
theorem gath2 : gather_S100000x2_S6500000x1_S6500000x2_1_0_n_n_0_1_12 = Cert.LibSegRows.rowGather 100000 2 6500000 wfG2 := rfl

/-- The kernel's column of wrapped source indices is the reference's. -/
theorem scol_eq (x1 : Cert.ReferenceIdeal.RGraph.Edges) :
    broadcastInDim S6500000x1 ![0] bcast_S6500000_S6500000x1_0
        (select (cmpi .slt (Cert.ReferenceIdeal.ReadP.val_main_v3 (F := Ideal) x1) (broadcastInDim S6500000 ![] bcast_S_S6500000 (constantI S_ 32 0#32)))
          (addi (Cert.ReferenceIdeal.ReadP.val_main_v3 (F := Ideal) x1) (broadcastInDim S6500000 ![] bcast_S_S6500000 (constantI S_ 32 100000#32)))
          (Cert.ReferenceIdeal.ReadP.val_main_v3 (F := Ideal) x1))
      = Cert.ReferenceIdeal.ReadP.val_main_v36 (F := Ideal) x1 := rfl

/-- The kernel's column of destination indices is the reference's. -/
theorem dcol_eq' (x1 : Cert.ReferenceIdeal.RGraph.Edges) :
    broadcastInDim S6500000x1 ![0] bcast_S6500000_S6500000x1_0 (Cert.ReferenceIdeal.ReadP.val_main_v6 (F := Ideal) x1)
      = Cert.ReferenceIdeal.ReadP.val_main_v42 (F := Ideal) x1 := rfl

/-- The wrapped source column of ANY index array that equals the reference's source array is the reference's column. -/
theorem scol_of (v : IVec S6500000 32) (x1 : Cert.ReferenceIdeal.RGraph.Edges) (h : v = Cert.ReferenceIdeal.ReadP.val_main_v3 (F := Ideal) x1) :
    broadcastInDim S6500000x1 ![0] bcast_S6500000_S6500000x1_0
        (select (cmpi .slt v (broadcastInDim S6500000 ![] bcast_S_S6500000 (constantI S_ 32 0#32)))
          (addi v (broadcastInDim S6500000 ![] bcast_S_S6500000 (constantI S_ 32 100000#32))) v)
      = Cert.ReferenceIdeal.ReadP.val_main_v36 (F := Ideal) x1 := by
  subst h; exact scol_eq x1

/-- The destination column of ANY index array that equals the reference's destination array is the reference's column. -/
theorem dcol_of (v : IVec S6500000 32) (x1 : Cert.ReferenceIdeal.RGraph.Edges) (h : v = Cert.ReferenceIdeal.ReadP.val_main_v6 (F := Ideal) x1) :
    broadcastInDim S6500000x1 ![0] bcast_S6500000_S6500000x1_0 v = Cert.ReferenceIdeal.ReadP.val_main_v42 (F := Ideal) x1 := by
  subst h; exact dcol_eq' x1

/-! ## The regions' whole-array functions read at an entry, and a congruence for the second arrangement -/

section Generic
variable {K C : ℕ}

/-- A scaled product read at `(j, q)` (the three product regions share this form). -/
theorem mm0_at (x : S100000x128.Idx → EReal) (w : S128x4.Idx → EReal) (d : S100000x1.Idx → EReal) (j : Fin 100000) (q : Fin 4) :
    KReg.G0 x w d (ix2 j q) = ∑ k : Fin 128, (x (ix2 j k) * d (ix2 j (0 : Fin 1))) * w (ix2 k q) := rfl
theorem mm2_at (x : S100000x4.Idx → EReal) (w : S4x4.Idx → EReal) (d : S100000x1.Idx → EReal) (j : Fin 100000) (q : Fin 4) :
    KReg.G2 x w d (ix2 j q) = ∑ k : Fin 4, (x (ix2 j k) * d (ix2 j (0 : Fin 1))) * w (ix2 k q) := rfl
theorem mm4_at (x : S100000x4.Idx → EReal) (w : S4x2.Idx → EReal) (d : S100000x1.Idx → EReal) (j : Fin 100000) (q : Fin 2) :
    KReg.G4 x w d (ix2 j q) = ∑ k : Fin 4, (x (ix2 j k) * d (ix2 j (0 : Fin 1))) * w (ix2 k q) := rfl
/-- A scale, bias and tanh read at `(i, q)`. -/
theorem bt1_at (a : S100000x4.Idx → EReal) (d : S100000x1.Idx → EReal) (b : S1x4.Idx → EReal) (i : Fin 100000) (q : Fin 4) :
    KReg.G1 a d b (ix2 i q) = Ideal.tanh (a (ix2 i q) * d (ix2 i (0 : Fin 1)) + b (ix2 (0 : Fin 1) q)) := rfl
theorem bt3_at (a : S100000x4.Idx → EReal) (d : S100000x1.Idx → EReal) (b : S1x4.Idx → EReal) (i : Fin 100000) (q : Fin 4) :
    KReg.G3 a d b (ix2 i q) = Ideal.tanh (a (ix2 i q) * d (ix2 i (0 : Fin 1)) + b (ix2 (0 : Fin 1) q)) := rfl
theorem bt5_at (a : S100000x2.Idx → EReal) (d : S100000x1.Idx → EReal) (b : S1x2.Idx → EReal) (i : Fin 100000) (q : Fin 2) :
    KReg.G5h a d b (ix2 i q) = Ideal.tanh (a (ix2 i q) * d (ix2 i (0 : Fin 1)) + b (ix2 (0 : Fin 1) q)) := rfl
/-- The scores read at `(i, q)`. -/
theorem sc_at (a : S100000x2.Idx → EReal) (d : S100000x1.Idx → EReal) (b : S1x2.Idx → EReal) (wc : S2x4.Idx → EReal)
    (bc : S1x4.Idx → EReal) (i : Fin 100000) (q : Fin 4) :
    KReg.G5o a d b wc bc (ix2 i q)
      = (∑ k : Fin 2, KReg.G5h a d b (ix2 i k) * wc (ix2 k q)) + bc (ix2 (0 : Fin 1) q) := rfl

/-- The second arrangement depends on its data only through their values. -/
theorem kerLayer_congr {N E : ℕ} {d d' : Fin N → EReal} {s s' : Fin E → Fin N} {P : Fin E → Fin N → Prop}
    [∀ e i, Decidable (P e i)] {Hin Hin' : Fin N → Fin K → EReal} {W W' : Fin K → Fin C → EReal} {b b' : Fin C → EReal}
    (hd : ∀ j, d j = d' j) (hs : ∀ e, s e = s' e) (hH : ∀ j k, Hin j k = Hin' j k) (hW : ∀ k c, W k c = W' k c)
    (hb : ∀ c, b c = b' c) (i : Fin N) (c : Fin C) :
    kerLayer d s P Hin W b i c = kerLayer d' s' P Hin' W' b' i c := by
  obtain rfl : d = d' := funext hd
  obtain rfl : s = s' := funext hs
  obtain rfl : Hin = Hin' := funext fun j => funext (hH j)
  obtain rfl : W = W' := funext fun k => funext (hW k)
  obtain rfl : b = b' := funext hb
  rfl

end Generic

end Cert.KernelIdeal.KLayer

end
-- ==== Proof.KLayer1.lean ====
/-
  Layer 1 of the idealized kernel read at an entry: the region that scales every input row by its node's weight and
  multiplies by the layer's matrix, the host stretch that gathers the product's rows at the edges' sources and scatter-adds
  them at their destinations, and the region that multiplies the aggregate by the row's weight, adds the bias and takes
  tanh, are together the second arrangement of the layer law over the shared graph data.
-/
import proofs.«139661_j19516331393575_2_alg».proof.Proof.KLayerBase

set_option maxRecDepth 16384

noncomputable section

namespace Cert.KernelIdeal.KLayer

open Cert.KernelIdeal Cert.KernelIdeal.Gen Cert.KernelIdeal.KGraph
open Idealize.ShloMosaic Idealize.ShloMosaic.TcCoe Idealize.SL.Sem Idealize.ShloMosaic.ValueIdx
open Cert.GcnLaw

variable (m : (ℓ : Loc nD τ sig) → Buf (Elt Ideal) ℓ) (ρ : Dev nD → PrngReg)
/-! ## Layer 1 -/

set_option maxHeartbeats 16000000 in
/-- LAYER 1 of the kernel at `(i, q)`: the second arrangement over the features, the first matrix and the first bias. -/
theorem layer1_at (c : Dev nD) (i : Fin 100000) (q : Fin 4) :
    W6 m ρ c (Proc.devRef .tc main_v29) (ix2 i q)
      = kerLayer (Cert.ReferenceIdeal.RGraph.dR (edges m c)) (Cert.ReferenceIdeal.RGraph.sR (edges m c)) (Cert.ReferenceIdeal.RGraph.PR (edges m c))
          (fun j k => m ((c.tc : Thread nD τ).loc main_arg0) (ix2 j k)) (fun k q => m ((c.tc : Thread nD τ).loc main_arg2) (ix2 k q))
          (fun q => m ((c.tc : Thread nD τ).loc main_arg3) (ix1 q)) i q :=
  have e3 : W4 m ρ c (Proc.devRef .tc main_v3) = Cert.ReferenceIdeal.ReadP.val_main_v3 (F := Ideal) (edges m c) :=
    (KKeep.keep_v3_4_3 m ρ c).trans (KGraph.src_eq m ρ c)
  have e6 : W4 m ρ c (Proc.devRef .tc main_v6) = Cert.ReferenceIdeal.ReadP.val_main_v6 (F := Ideal) (edges m c) :=
    (KKeep.keep_v6_4_3 m ρ c).trans (KGraph.dst_eq m ρ c)
  have hDc : broadcastInDim S6500000x1 ![0] bcast_S6500000_S6500000x1_0 (W4 m ρ c (Proc.devRef .tc main_v6))
      = Cert.ReferenceIdeal.ReadP.val_main_v42 (F := Ideal) (edges m c) :=
    dcol_of (W4 m ρ c (Proc.devRef .tc main_v6)) (edges m c) e6
  have hSc : broadcastInDim S6500000x1 ![0] bcast_S6500000_S6500000x1_0
        (select (cmpi .slt (W4 m ρ c (Proc.devRef .tc main_v3)) (broadcastInDim S6500000 ![] bcast_S_S6500000 (constantI S_ 32 0#32)))
          (addi (W4 m ρ c (Proc.devRef .tc main_v3)) (broadcastInDim S6500000 ![] bcast_S_S6500000 (constantI S_ 32 100000#32)))
          (W4 m ρ c (Proc.devRef .tc main_v3)))
      = Cert.ReferenceIdeal.ReadP.val_main_v36 (F := Ideal) (edges m c) :=
    scol_of (W4 m ρ c (Proc.devRef .tc main_v3)) (edges m c) e3
  have ewm : W3 m ρ c (Proc.devRef .tc main_v16) = (m ((c.tc : Thread nD τ).loc main_arg2) : S128x4.Idx → EReal) :=
    (KChain.c3_v16 m ρ c).trans (KKeep.keep_arg2_2_0 m ρ c)
  have ebr : W5 m ρ c (Proc.devRef .tc main_v28) = shapeCast S1x4 (m ((c.tc : Thread nD τ).loc main_arg3)) shapeCasts_S4_S1x4 :=
    (KChain.c5_v28 m ρ c).trans (congrArg (fun v => shapeCast S1x4 v shapeCasts_S4_S1x4) (KKeep.keep_arg3_4_0 m ρ c))
  (Cert.GcnArr.kerLayer_arr (K := 128) Cert.ReferenceIdeal.RGraph.hN scatter_S100000x4_S6500000x1_S6500000x4_1_0_0_1 wfS4 scat4 gather_S100000x4_S6500000x1_S6500000x4_1_0_n_n_0_1_14 wfG4 gath4
    (W3 m ρ c (Proc.devRef .tc main_arg0)) (W3 m ρ c (Proc.devRef .tc main_v16)) (W3 m ρ c (Proc.devRef .tc main_v15)) (W5 m ρ c (Proc.devRef .tc main_v28))
    (broadcastInDim S100000x4 ![] bcast_S_S100000x4 (constant (F := Ideal) S_ .f32 0x00000000#32))
    (W4 m ρ c (Proc.devRef .tc main_v17)) (W5 m ρ c (Proc.devRef .tc main_v27)) (W6 m ρ c (Proc.devRef .tc main_v29))
    (fun _ => Ideal.ofBits_zero_f32)
    (Cert.ReferenceIdeal.ReadP.val_main_v42 (F := Ideal) (edges m c)) (Cert.ReferenceIdeal.ReadP.val_main_v36 (F := Ideal) (edges m c))
    (fun j q => (congrFun (KChain.c4_v17 m ρ c) (ix2 j q)).trans (mm0_at _ _ _ j q))
    ((KChain.c5_v27 m ρ c).trans
      (congrArg₂ (fun Dc Sc => Host.scatterAdd (F := Ideal) (φ := .f32) scatter_S100000x4_S6500000x1_S6500000x4_1_0_0_1
          (broadcastInDim S100000x4 ![] bcast_S_S100000x4 (constant (F := Ideal) S_ .f32 0x00000000#32)) Dc
          (Host.gather gather_S100000x4_S6500000x1_S6500000x4_1_0_n_n_0_1_14 (W4 m ρ c (Proc.devRef .tc main_v17)) Sc)) hDc hSc))
    (fun i q => (congrFun ((KChain.c6_v29 m ρ c).trans (congrArg (fun d => KReg.G1 (W5 m ρ c (Proc.devRef .tc main_v27)) d (W5 m ρ c (Proc.devRef .tc main_v28))) (KKeep.keep_v15_5_3 m ρ c))) (ix2 i q)).trans (bt1_at _ _ _ i q)) i q).trans
  (kerLayer_congr (fun j => KGraph.wcol_at m ρ c j) (fun _ => rfl) (fun j k => congrFun (KKeep.keep_arg0_3_0 m ρ c) (ix2 j k))
    (fun k q => congrFun ewm (ix2 k q))
    (fun q => (congrFun ebr (ix2 (0 : Fin 1) q)).trans (shapeCast_a_1a_apply _ _ 0 q)) i q)

end Cert.KernelIdeal.KLayer

end
-- ==== Proof.KLayer2.lean ====
/-
  Layer 2 of the idealized kernel read at an entry: the region that scales every input row by its node's weight and
  multiplies by the layer's matrix, the host stretch that gathers the product's rows at the edges' sources and scatter-adds
  them at their destinations, and the region that multiplies the aggregate by the row's weight, adds the bias and takes
  tanh, are together the second arrangement of the layer law over the shared graph data.
-/
import proofs.«139661_j19516331393575_2_alg».proof.Proof.KLayerBase

set_option maxRecDepth 16384

noncomputable section

namespace Cert.KernelIdeal.KLayer

open Cert.KernelIdeal Cert.KernelIdeal.Gen Cert.KernelIdeal.KGraph
open Idealize.ShloMosaic Idealize.ShloMosaic.TcCoe Idealize.SL.Sem Idealize.ShloMosaic.ValueIdx
open Cert.GcnLaw

variable (m : (ℓ : Loc nD τ sig) → Buf (Elt Ideal) ℓ) (ρ : Dev nD → PrngReg)
/-! ## Layer 2 -/

set_option maxHeartbeats 16000000 in
/-- LAYER 2 of the kernel at `(i, q)`: the second arrangement over the first layer's output, the second matrix and the second bias. -/
theorem layer2_at (c : Dev nD) (i : Fin 100000) (q : Fin 4) :
    W10 m ρ c (Proc.devRef .tc main_v43) (ix2 i q)
      = kerLayer (Cert.ReferenceIdeal.RGraph.dR (edges m c)) (Cert.ReferenceIdeal.RGraph.sR (edges m c)) (Cert.ReferenceIdeal.RGraph.PR (edges m c))
          (fun j k => W6 m ρ c (Proc.devRef .tc main_v29) (ix2 j k)) (fun k q => m ((c.tc : Thread nD τ).loc main_arg4) (ix2 k q))
          (fun q => m ((c.tc : Thread nD τ).loc main_arg5) (ix1 q)) i q :=
  have e3 : W8 m ρ c (Proc.devRef .tc main_v3) = Cert.ReferenceIdeal.ReadP.val_main_v3 (F := Ideal) (edges m c) :=
    (KKeep.keep_v3_8_3 m ρ c).trans (KGraph.src_eq m ρ c)
  have e6 : W8 m ρ c (Proc.devRef .tc main_v6) = Cert.ReferenceIdeal.ReadP.val_main_v6 (F := Ideal) (edges m c) :=
    (KKeep.keep_v6_8_3 m ρ c).trans (KGraph.dst_eq m ρ c)
  have hDc : broadcastInDim S6500000x1 ![0] bcast_S6500000_S6500000x1_0 (W8 m ρ c (Proc.devRef .tc main_v6))
      = Cert.ReferenceIdeal.ReadP.val_main_v42 (F := Ideal) (edges m c) :=
    dcol_of (W8 m ρ c (Proc.devRef .tc main_v6)) (edges m c) e6
  have hSc : broadcastInDim S6500000x1 ![0] bcast_S6500000_S6500000x1_0
        (select (cmpi .slt (W8 m ρ c (Proc.devRef .tc main_v3)) (broadcastInDim S6500000 ![] bcast_S_S6500000 (constantI S_ 32 0#32)))
          (addi (W8 m ρ c (Proc.devRef .tc main_v3)) (broadcastInDim S6500000 ![] bcast_S_S6500000 (constantI S_ 32 100000#32)))
          (W8 m ρ c (Proc.devRef .tc main_v3)))
      = Cert.ReferenceIdeal.ReadP.val_main_v36 (F := Ideal) (edges m c) :=
    scol_of (W8 m ρ c (Proc.devRef .tc main_v3)) (edges m c) e3
  have ewm : W7 m ρ c (Proc.devRef .tc main_v30) = (m ((c.tc : Thread nD τ).loc main_arg4) : S4x4.Idx → EReal) :=
    (KChain.c7_v30 m ρ c).trans (KKeep.keep_arg4_6_0 m ρ c)
  have ebr : W9 m ρ c (Proc.devRef .tc main_v42) = shapeCast S1x4 (m ((c.tc : Thread nD τ).loc main_arg5)) shapeCasts_S4_S1x4 :=
    (KChain.c9_v42 m ρ c).trans (congrArg (fun v => shapeCast S1x4 v shapeCasts_S4_S1x4) (KKeep.keep_arg5_8_0 m ρ c))
  (Cert.GcnArr.kerLayer_arr (K := 4) Cert.ReferenceIdeal.RGraph.hN scatter_S100000x4_S6500000x1_S6500000x4_1_0_0_1 wfS4 scat4 gather_S100000x4_S6500000x1_S6500000x4_1_0_n_n_0_1_14 wfG4 gath4
    (W7 m ρ c (Proc.devRef .tc main_v29)) (W7 m ρ c (Proc.devRef .tc main_v30)) (W3 m ρ c (Proc.devRef .tc main_v15)) (W9 m ρ c (Proc.devRef .tc main_v42))
    (broadcastInDim S100000x4 ![] bcast_S_S100000x4 (constant (F := Ideal) S_ .f32 0x00000000#32))
    (W8 m ρ c (Proc.devRef .tc main_v31)) (W9 m ρ c (Proc.devRef .tc main_v41)) (W10 m ρ c (Proc.devRef .tc main_v43))
    (fun _ => Ideal.ofBits_zero_f32)
    (Cert.ReferenceIdeal.ReadP.val_main_v42 (F := Ideal) (edges m c)) (Cert.ReferenceIdeal.ReadP.val_main_v36 (F := Ideal) (edges m c))
    (fun j q => (congrFun ((KChain.c8_v31 m ρ c).trans (congrArg (fun d => KReg.G2 (W7 m ρ c (Proc.devRef .tc main_v29)) (W7 m ρ c (Proc.devRef .tc main_v30)) d) (KKeep.keep_v15_7_3 m ρ c))) (ix2 j q)).trans (mm2_at _ _ _ j q))
    ((KChain.c9_v41 m ρ c).trans
      (congrArg₂ (fun Dc Sc => Host.scatterAdd (F := Ideal) (φ := .f32) scatter_S100000x4_S6500000x1_S6500000x4_1_0_0_1
          (broadcastInDim S100000x4 ![] bcast_S_S100000x4 (constant (F := Ideal) S_ .f32 0x00000000#32)) Dc
          (Host.gather gather_S100000x4_S6500000x1_S6500000x4_1_0_n_n_0_1_14 (W8 m ρ c (Proc.devRef .tc main_v31)) Sc)) hDc hSc))
    (fun i q => (congrFun ((KChain.c10_v43 m ρ c).trans (congrArg (fun d => KReg.G3 (W9 m ρ c (Proc.devRef .tc main_v41)) d (W9 m ρ c (Proc.devRef .tc main_v42))) (KKeep.keep_v15_9_3 m ρ c))) (ix2 i q)).trans (bt3_at _ _ _ i q)) i q).trans
  (kerLayer_congr (fun j => KGraph.wcol_at m ρ c j) (fun _ => rfl) (fun j k => congrFun (KKeep.keep_v29_7_6 m ρ c) (ix2 j k))
    (fun k q => congrFun ewm (ix2 k q))
    (fun q => (congrFun ebr (ix2 (0 : Fin 1) q)).trans (shapeCast_a_1a_apply _ _ 0 q)) i q)

end Cert.KernelIdeal.KLayer

end
-- ==== Proof.KLayer3.lean ====
/-
  Layer 3 of the idealized kernel read at an entry: the region that scales every input row by its node's weight and
  multiplies by the layer's matrix, the host stretch that gathers the product's rows at the edges' sources and scatter-adds
  them at their destinations, and the region that multiplies the aggregate by the row's weight, adds the bias and takes
  tanh, are together the second arrangement of the layer law over the shared graph data.
-/
import proofs.«139661_j19516331393575_2_alg».proof.Proof.KLayerBase

set_option maxRecDepth 16384

noncomputable section

namespace Cert.KernelIdeal.KLayer

open Cert.KernelIdeal Cert.KernelIdeal.Gen Cert.KernelIdeal.KGraph
open Idealize.ShloMosaic Idealize.ShloMosaic.TcCoe Idealize.SL.Sem Idealize.ShloMosaic.ValueIdx
open Cert.GcnLaw

variable (m : (ℓ : Loc nD τ sig) → Buf (Elt Ideal) ℓ) (ρ : Dev nD → PrngReg)
/-! ## Layer 3 -/

set_option maxHeartbeats 16000000 in
/-- LAYER 3 of the kernel at `(i, q)`: the second arrangement over the second layer's output, the third matrix and the third bias. -/
theorem layer3_at (c : Dev nD) (i : Fin 100000) (q : Fin 2) :
    W14 m ρ c (Proc.devRef .tc main_v59_0) (ix2 i q)
      = kerLayer (Cert.ReferenceIdeal.RGraph.dR (edges m c)) (Cert.ReferenceIdeal.RGraph.sR (edges m c)) (Cert.ReferenceIdeal.RGraph.PR (edges m c))
          (fun j k => W10 m ρ c (Proc.devRef .tc main_v43) (ix2 j k)) (fun k q => m ((c.tc : Thread nD τ).loc main_arg6) (ix2 k q))
          (fun q => m ((c.tc : Thread nD τ).loc main_arg7) (ix1 q)) i q :=
  have e3 : W12 m ρ c (Proc.devRef .tc main_v3) = Cert.ReferenceIdeal.ReadP.val_main_v3 (F := Ideal) (edges m c) :=
    (KKeep.keep_v3_12_3 m ρ c).trans (KGraph.src_eq m ρ c)
  have e6 : W12 m ρ c (Proc.devRef .tc main_v6) = Cert.ReferenceIdeal.ReadP.val_main_v6 (F := Ideal) (edges m c) :=
    (KKeep.keep_v6_12_3 m ρ c).trans (KGraph.dst_eq m ρ c)
  have hDc : broadcastInDim S6500000x1 ![0] bcast_S6500000_S6500000x1_0 (W12 m ρ c (Proc.devRef .tc main_v6))
      = Cert.ReferenceIdeal.ReadP.val_main_v42 (F := Ideal) (edges m c) :=
    dcol_of (W12 m ρ c (Proc.devRef .tc main_v6)) (edges m c) e6
  have hSc : broadcastInDim S6500000x1 ![0] bcast_S6500000_S6500000x1_0
        (select (cmpi .slt (W12 m ρ c (Proc.devRef .tc main_v3)) (broadcastInDim S6500000 ![] bcast_S_S6500000 (constantI S_ 32 0#32)))
          (addi (W12 m ρ c (Proc.devRef .tc main_v3)) (broadcastInDim S6500000 ![] bcast_S_S6500000 (constantI S_ 32 100000#32)))
          (W12 m ρ c (Proc.devRef .tc main_v3)))
      = Cert.ReferenceIdeal.ReadP.val_main_v36 (F := Ideal) (edges m c) :=
    scol_of (W12 m ρ c (Proc.devRef .tc main_v3)) (edges m c) e3
  have ewm : W11 m ρ c (Proc.devRef .tc main_v44) = (m ((c.tc : Thread nD τ).loc main_arg6) : S4x2.Idx → EReal) :=
    (KChain.c11_v44 m ρ c).trans (KKeep.keep_arg6_10_0 m ρ c)
  have ebr : W13 m ρ c (Proc.devRef .tc main_v56) = shapeCast S1x2 (m ((c.tc : Thread nD τ).loc main_arg7)) shapeCasts_S2_S1x2 :=
    (KChain.c13_v56 m ρ c).trans (congrArg (fun v => shapeCast S1x2 v shapeCasts_S2_S1x2) (KKeep.keep_arg7_12_0 m ρ c))
  (Cert.GcnArr.kerLayer_arr (K := 4) Cert.ReferenceIdeal.RGraph.hN scatter_S100000x2_S6500000x1_S6500000x2_1_0_0_1 wfS2 scat2 gather_S100000x2_S6500000x1_S6500000x2_1_0_n_n_0_1_12 wfG2 gath2
    (W11 m ρ c (Proc.devRef .tc main_v43)) (W11 m ρ c (Proc.devRef .tc main_v44)) (W3 m ρ c (Proc.devRef .tc main_v15)) (W13 m ρ c (Proc.devRef .tc main_v56))
    (broadcastInDim S100000x2 ![] bcast_S_S100000x2 (constant (F := Ideal) S_ .f32 0x00000000#32))
    (W12 m ρ c (Proc.devRef .tc main_v45)) (W13 m ρ c (Proc.devRef .tc main_v55)) (W14 m ρ c (Proc.devRef .tc main_v59_0))
    (fun _ => Ideal.ofBits_zero_f32)
    (Cert.ReferenceIdeal.ReadP.val_main_v42 (F := Ideal) (edges m c)) (Cert.ReferenceIdeal.ReadP.val_main_v36 (F := Ideal) (edges m c))
    (fun j q => (congrFun ((KChain.c12_v45 m ρ c).trans (congrArg (fun d => KReg.G4 (W11 m ρ c (Proc.devRef .tc main_v43)) (W11 m ρ c (Proc.devRef .tc main_v44)) d) (KKeep.keep_v15_11_3 m ρ c))) (ix2 j q)).trans (mm4_at _ _ _ j q))
    ((KChain.c13_v55 m ρ c).trans
      (congrArg₂ (fun Dc Sc => Host.scatterAdd (F := Ideal) (φ := .f32) scatter_S100000x2_S6500000x1_S6500000x2_1_0_0_1
          (broadcastInDim S100000x2 ![] bcast_S_S100000x2 (constant (F := Ideal) S_ .f32 0x00000000#32)) Dc
          (Host.gather gather_S100000x2_S6500000x1_S6500000x2_1_0_n_n_0_1_12 (W12 m ρ c (Proc.devRef .tc main_v45)) Sc)) hDc hSc))
    (fun i q => (congrFun ((KChain.c14_h3 m ρ c).trans (congrArg (fun d => KReg.G5h (W13 m ρ c (Proc.devRef .tc main_v55)) d (W13 m ρ c (Proc.devRef .tc main_v56))) (KKeep.keep_v15_13_3 m ρ c))) (ix2 i q)).trans (bt5_at _ _ _ i q)) i q).trans
  (kerLayer_congr (fun j => KGraph.wcol_at m ρ c j) (fun _ => rfl) (fun j k => congrFun (KKeep.keep_v43_11_10 m ρ c) (ix2 j k))
    (fun k q => congrFun ewm (ix2 k q))
    (fun q => (congrFun ebr (ix2 (0 : Fin 1) q)).trans (shapeCast_a_1a_apply _ _ 0 q)) i q)

end Cert.KernelIdeal.KLayer

end
-- ==== Proof.KLayerOut.lean ====
/-
  The idealized kernel's class scores read at an entry: the third layer's features times the classifier matrix, plus the
  classifier bias.
-/
import proofs.«139661_j19516331393575_2_alg».proof.Proof.KLayerBase
import proofs.«139661_j19516331393575_2_alg».proof.Proof.GcnAffine

set_option maxRecDepth 16384

noncomputable section

namespace Cert.KernelIdeal.KLayer

open Cert.KernelIdeal Cert.KernelIdeal.Gen Cert.KernelIdeal.KGraph
open Idealize.ShloMosaic Idealize.ShloMosaic.TcCoe Idealize.SL.Sem Idealize.ShloMosaic.ValueIdx
open Cert.GcnLaw

variable (m : (ℓ : Loc nD τ sig) → Buf (Elt Ideal) ℓ) (ρ : Dev nD → PrngReg)

/-! ## The class scores -/

set_option maxHeartbeats 16000000 in
/-- THE SCORES at `(i, q)`: the affine layer over the third layer's features, the classifier matrix and its bias. -/
theorem out_at (c : Dev nD) (i : Fin 100000) (q : Fin 4) :
    W14 m ρ c (Proc.devRef .tc main_v59_1) (ix2 i q)
      = Cert.GcnAffine.affine (fun i k => W14 m ρ c (Proc.devRef .tc main_v59_0) (ix2 i k)) (fun k q => m ((c.tc : Thread nD τ).loc main_arg8) (ix2 k q))
          (fun q => m ((c.tc : Thread nD τ).loc main_arg9) (ix1 q)) i q :=
  have e58 : W13 m ρ c (Proc.devRef .tc main_v58) = (m ((c.tc : Thread nD τ).loc main_arg8) : S2x4.Idx → EReal) :=
    (KChain.c13_v58 m ρ c).trans (KKeep.keep_arg8_12_0 m ρ c)
  have e57 : W13 m ρ c (Proc.devRef .tc main_v57) = shapeCast S1x4 (m ((c.tc : Thread nD τ).loc main_arg9)) shapeCasts_S4_S1x4 :=
    (KChain.c13_v57 m ρ c).trans (congrArg (fun v => shapeCast S1x4 v shapeCasts_S4_S1x4) (KKeep.keep_arg9_12_0 m ρ c))
  (congrFun (KChain.c14_out m ρ c) (ix2 i q)).trans
    ((sc_at _ _ _ _ _ i q).trans
      (Cert.GcnAffine.affine_intro _ _ _ _ _ _ i q
        (fun k => congrFun (KChain.c14_h3 m ρ c).symm (ix2 i k))
        (fun k => congrFun e58 (ix2 k q))
        ((congrFun e57 (ix2 (0 : Fin 1) q)).trans (shapeCast_a_1a_apply _ _ 0 q))))

end Cert.KernelIdeal.KLayer

end
-- ==== Proof.RValBase.lean ====
/-
  The reference program's layers read at an index.

  The reference computes each graph-convolution layer in the first arrangement: the product of the node features with
  the layer's matrix, gathered at each edge's source node, times the product of the weights of the edge's two end nodes,
  added into the edge's destination row, plus the bias, through tanh.  Its stages are the generated ones; read here at
  entry `(i, c)`, the gathers as the operand at the clamped start index and the scatter-adds as the operand plus the sum
  over the edges whose start index is the row, each layer is the first arrangement of the layer law over

  * `dR`  the weight of a node (inverse square root of its degree, zero at degree zero),
  * `sR`  the source node of an edge (negative indices wrapped, then clamped),
  * `tR`  the destination node of an edge as the weights are gathered at it (wrapped, then clamped),
  * `PR`  "edge `e` is added into row `i`": the raw destination index reads as `i`.
-/
import proofs.«139661_j19516331393575_2_alg».proof.Proof.RGraph

set_option maxRecDepth 16384

noncomputable section

namespace Cert.ReferenceIdeal.RVal

open Cert.ReferenceIdeal Cert.ReferenceIdeal.ReadP Idealize.ShloMosaic Idealize.ShloMosaic.ValueIdx
open Cert.LibSegRows Cert.GcnIndex Cert.GcnLaw Cert.ReferenceIdeal.RGraph

/-! ## The records of the program are the row and flat gathers and scatters -/

theorem wf_rowScat4 : ScatterDims.WF ⟨2, ![100000, 4]⟩ ⟨2, ![6500000, 1]⟩ ⟨2, ![6500000, 4]⟩ [1] [0] [0] 1 := scatter_S100000x4_S6500000x1_S6500000x4_1_0_0_1.wf
theorem rowScat4 : scatter_S100000x4_S6500000x1_S6500000x4_1_0_0_1 = rowScatter 100000 4 6500000 wf_rowScat4 := rfl
theorem wf_rowGath4 : GatherDims.WF ⟨2, ![100000, 4]⟩ ⟨2, ![6500000, 1]⟩ ⟨2, ![6500000, 4]⟩ [1] [0] [] [0] [] 1 ![1, 4] := gather_S100000x4_S6500000x1_S6500000x4_1_0_n_n_0_1_14.wf
theorem rowGath4 : gather_S100000x4_S6500000x1_S6500000x4_1_0_n_n_0_1_14 = rowGather 100000 4 6500000 wf_rowGath4 := rfl
theorem wf_rowScat2 : ScatterDims.WF ⟨2, ![100000, 2]⟩ ⟨2, ![6500000, 1]⟩ ⟨2, ![6500000, 2]⟩ [1] [0] [0] 1 := scatter_S100000x2_S6500000x1_S6500000x2_1_0_0_1.wf
theorem rowScat2 : scatter_S100000x2_S6500000x1_S6500000x2_1_0_0_1 = rowScatter 100000 2 6500000 wf_rowScat2 := rfl
theorem wf_rowGath2 : GatherDims.WF ⟨2, ![100000, 2]⟩ ⟨2, ![6500000, 1]⟩ ⟨2, ![6500000, 2]⟩ [1] [0] [] [0] [] 1 ![1, 2] := gather_S100000x2_S6500000x1_S6500000x2_1_0_n_n_0_1_12.wf
theorem rowGath2 : gather_S100000x2_S6500000x1_S6500000x2_1_0_n_n_0_1_12 = rowGather 100000 2 6500000 wf_rowGath2 := rfl
theorem wf_flatScat : ScatterDims.WF ⟨1, ![100000]⟩ ⟨2, ![6500000, 1]⟩ ⟨1, ![6500000]⟩ [] [0] [0] 1 := scatter_S100000_S6500000x1_S6500000_n_0_0_1.wf
theorem flatScat : scatter_S100000_S6500000x1_S6500000_n_0_0_1 = flatScatter 100000 6500000 wf_flatScat := rfl
theorem wf_flatGath : GatherDims.WF ⟨1, ![100000]⟩ ⟨2, ![6500000, 1]⟩ ⟨1, ![6500000]⟩ [] [0] [] [0] [] 1 ![1] := gather_S100000_S6500000x1_S6500000_n_0_n_n_0_1_1.wf
theorem flatGath : gather_S100000_S6500000x1_S6500000_n_0_n_n_0_1_1 = flatGather 100000 6500000 wf_flatGath := rfl

/-- A flat gather of the weights at a column of start indices, read at edge `e`. -/
theorem weights_at (x1 : Edges) (idx : IVec S6500000x1 32) (e : Fin 6500000) :
    Host.gather gather_S100000_S6500000x1_S6500000_n_0_n_n_0_1_1 (val_main_v15 (F := Ideal) x1) idx (ix1 e)
      = dR x1 (clampRow hN idx e) := by
  rw [flatGath]
  exact flatGather_apply hN _ _ idx e

end Cert.ReferenceIdeal.RVal

end
-- ==== Proof.RVal1.lean ====
/-
  The reference program's first layer, read at an entry.

  The generated stages are read one operation at a time; the row gather is the operand at the clamped start index, the
  scatter-add the operand plus the sum over the edges whose start index is the row, the flat gathers of the node weights
  the weights of the edge's end nodes.  Put together, the layer at `(i, c)` is the first arrangement of the layer law over
  the shared graph data (`dR`, `sR`, `tR`, `PR`).
-/
import proofs.«139661_j19516331393575_2_alg».proof.Proof.RValBase
import proofs.«139661_j19516331393575_2_alg».proof.Proof.GcnArr

set_option maxRecDepth 16384

noncomputable section

namespace Cert.ReferenceIdeal.RVal

open Cert.ReferenceIdeal Cert.ReferenceIdeal.ReadP Idealize.ShloMosaic Idealize.ShloMosaic.ValueIdx
open Cert.LibSegRows Cert.GcnIndex Cert.GcnLaw Cert.ReferenceIdeal.RGraph

/-! ## Layer 1 -/

/-- The message of edge `e` before normalisation: row `sR e` of the product of the layer's input with its matrix. -/
theorem msg1 (x0 : (⟨S100000x128, .f32⟩ : BufTy).Contents (Elt Ideal)) (x1 : Edges) (x2 : (⟨S128x4, .f32⟩ : BufTy).Contents (Elt Ideal)) (e : Fin 6500000) (c : Fin 4) :
    val_main_v37 (F := Ideal) x0 x1 x2 (ix2 e c)
      = rowDot (fun j k => x0 (ix2 j k)) (fun k c => x2 (ix2 k c)) (sR x1 e) c := by
  unfold val_main_v37
  rw [rowGath4]
  refine (rowGather_apply hN _ _ _ e c).trans ?_
  rw [val_main_v7_apply]
  unfold rowDot sR
  refine Finset.sum_congr rfl fun k _ => ?_
  refine congrArg₂ (· * ·) ?_ ?_
  · refine congrArg x0 (funext fun a => Fin.ext ?_)
    match a with
    | ⟨0, _⟩ => rfl
    | ⟨1, _⟩ => rfl
  · refine congrArg x2 (funext fun a => Fin.ext ?_)
    match a with
    | ⟨0, _⟩ => rfl
    | ⟨1, _⟩ => rfl

/-- The normalisation of edge `e`: the weights of its two end nodes, multiplied. -/
theorem norm1 (x1 : Edges) (e : Fin 6500000) (c : Fin 4) :
    val_main_v39 (F := Ideal) x1 (ix2 e c) = dR x1 (sR x1 e) * dR x1 (tR x1 e) := by
  rw [val_main_v39_apply, val_main_v38_apply, val_main_v30_apply]
  have hi : idx_main_v38 (idx_main_v39 (ix2 e c)) = ix1 e := funext fun a => Fin.ext (by
    match a with
    | ⟨0, _⟩ => rfl)
  rw [hi]
  unfold val_main_v22 val_main_v29
  rw [show val_main_v21 (F := Ideal) x1 = val_main_v36 (F := Ideal) x1 from rfl, weights_at, weights_at]
  rfl

/-- LAYER 1 at `(i, c)` is the first arrangement over the features, the first matrix and the first bias. -/
theorem layer1 (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (i : Fin 100000) (c : Fin 4) :
    val_main_v47 (F := Ideal) x0 x1 x2 x3 (ix2 i c)
      = refLayer (dR x1) (sR x1) (tR x1) (PR x1) (fun j k => x0 (ix2 j k)) (fun k c => x2 (ix2 k c))
          (fun c => x3 (ix1 c)) i c :=
  Cert.GcnArr.refLayer_arr scatter_S100000x4_S6500000x1_S6500000x4_1_0_0_1 wf_rowScat4 rowScat4
    (dR x1) (sR x1) (tR x1) (fun j k => x0 (ix2 j k)) (fun k c => x2 (ix2 k c)) (fun c => x3 (ix1 c))
    (val_main_v41 (F := Ideal)) (val_main_v43 (F := Ideal) x0 x1 x2) (val_main_v47 (F := Ideal) x0 x1 x2 x3) (val_main_v40 (F := Ideal) x0 x1 x2)
    (fun idx => by rw [val_main_v41_apply, val_main_cst_8_apply]; exact Ideal.ofBits_zero_f32)
    (val_main_v42 (F := Ideal) x1)
    (fun e c => by rw [val_main_v40_apply, msg1, norm1]; rfl)
    (by unfold val_main_v43; rfl)
    (fun i c => by
      have hi : idx_main_v44 (idx_main_v45 (ix2 i c)) = ix1 c := funext fun a => Fin.ext (by
        match a with
        | ⟨0, _⟩ => rfl)
      rw [val_main_v47_apply, val_main_v46_apply, Ideal.hostUnary_tanh_def, Ideal.addf_def,
        val_main_v45_apply, val_main_v44_apply, hi])
    i c

end Cert.ReferenceIdeal.RVal

end
-- ==== Proof.RVal2.lean ====
/-
  The reference program's second layer, read at an entry.

  The generated stages are read one operation at a time; the row gather is the operand at the clamped start index, the
  scatter-add the operand plus the sum over the edges whose start index is the row, the flat gathers of the node weights
  the weights of the edge's end nodes.  Put together, the layer at `(i, c)` is the first arrangement of the layer law over
  the shared graph data (`dR`, `sR`, `tR`, `PR`).
-/
import proofs.«139661_j19516331393575_2_alg».proof.Proof.RValBase
import proofs.«139661_j19516331393575_2_alg».proof.Proof.GcnArr

set_option maxRecDepth 16384

noncomputable section

namespace Cert.ReferenceIdeal.RVal

open Cert.ReferenceIdeal Cert.ReferenceIdeal.ReadP Idealize.ShloMosaic Idealize.ShloMosaic.ValueIdx
open Cert.LibSegRows Cert.GcnIndex Cert.GcnLaw Cert.ReferenceIdeal.RGraph

/-! ## Layer 2 -/

/-- The message of edge `e` before normalisation: row `sR e` of the product of the layer's input with its matrix. -/
theorem msg2 (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (x4 : (⟨S4x4, .f32⟩ : BufTy).Contents (Elt Ideal)) (e : Fin 6500000) (c : Fin 4) :
    val_main_v78 (F := Ideal) x0 x1 x2 x3 x4 (ix2 e c)
      = rowDot (fun j k => val_main_v47 (F := Ideal) x0 x1 x2 x3 (ix2 j k)) (fun k c => x4 (ix2 k c)) (sR x1 e) c := by
  unfold val_main_v78
  rw [rowGath4, show val_main_v77 (F := Ideal) x1 = val_main_v36 (F := Ideal) x1 from rfl]
  refine (rowGather_apply hN _ _ _ e c).trans ?_
  rw [val_main_v48_apply]
  unfold rowDot sR
  refine Finset.sum_congr rfl fun k _ => ?_
  refine congrArg₂ (· * ·) ?_ ?_
  · refine congrArg (val_main_v47 (F := Ideal) x0 x1 x2 x3) (funext fun a => Fin.ext ?_)
    match a with
    | ⟨0, _⟩ => rfl
    | ⟨1, _⟩ => rfl
  · refine congrArg x4 (funext fun a => Fin.ext ?_)
    match a with
    | ⟨0, _⟩ => rfl
    | ⟨1, _⟩ => rfl

/-- The normalisation of edge `e`: the weights of its two end nodes, multiplied. -/
theorem norm2 (x1 : Edges) (e : Fin 6500000) (c : Fin 4) :
    val_main_v80 (F := Ideal) x1 (ix2 e c) = dR x1 (sR x1 e) * dR x1 (tR x1 e) := by
  rw [val_main_v80_apply, val_main_v79_apply, val_main_v71_apply]
  have hi : idx_main_v79 (idx_main_v80 (ix2 e c)) = ix1 e := funext fun a => Fin.ext (by
    match a with
    | ⟨0, _⟩ => rfl)
  rw [hi]
  unfold val_main_v63 val_main_v70
  rw [show val_main_v56 (F := Ideal) x1 = val_main_v15 (F := Ideal) x1 from rfl,
    show val_main_v62 (F := Ideal) x1 = val_main_v36 (F := Ideal) x1 from rfl,
    show val_main_v69 (F := Ideal) x1 = val_main_v28 (F := Ideal) x1 from rfl,
    weights_at, weights_at]
  rfl

/-- LAYER 2 at `(i, c)` is the first arrangement over the first layer's output, the second matrix and the second bias. -/
theorem layer2 (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (i : Fin 100000) (c : Fin 4) :
    val_main_v88 (F := Ideal) x0 x1 x2 x3 x4 x5 (ix2 i c)
      = refLayer (dR x1) (sR x1) (tR x1) (PR x1) (fun j k => val_main_v47 (F := Ideal) x0 x1 x2 x3 (ix2 j k)) (fun k c => x4 (ix2 k c))
          (fun c => x5 (ix1 c)) i c :=
  Cert.GcnArr.refLayer_arr scatter_S100000x4_S6500000x1_S6500000x4_1_0_0_1 wf_rowScat4 rowScat4
    (dR x1) (sR x1) (tR x1) (fun j k => val_main_v47 (F := Ideal) x0 x1 x2 x3 (ix2 j k)) (fun k c => x4 (ix2 k c)) (fun c => x5 (ix1 c))
    (val_main_v82 (F := Ideal)) (val_main_v84 (F := Ideal) x0 x1 x2 x3 x4) (val_main_v88 (F := Ideal) x0 x1 x2 x3 x4 x5) (val_main_v81 (F := Ideal) x0 x1 x2 x3 x4)
    (fun idx => by rw [val_main_v82_apply, val_main_cst_19_apply]; exact Ideal.ofBits_zero_f32)
    (val_main_v42 (F := Ideal) x1)
    (fun e c => by rw [val_main_v81_apply, msg2, norm2]; rfl)
    (by unfold val_main_v84; rw [show val_main_v83 (F := Ideal) x1 = val_main_v42 (F := Ideal) x1 from rfl])
    (fun i c => by
      have hi : idx_main_v85 (idx_main_v86 (ix2 i c)) = ix1 c := funext fun a => Fin.ext (by
        match a with
        | ⟨0, _⟩ => rfl)
      rw [val_main_v88_apply, val_main_v87_apply, Ideal.hostUnary_tanh_def, Ideal.addf_def,
        val_main_v86_apply, val_main_v85_apply, hi])
    i c

end Cert.ReferenceIdeal.RVal

end
-- ==== Proof.RVal3.lean ====
/-
  The reference program's third layer, read at an entry.

  The generated stages are read one operation at a time; the row gather is the operand at the clamped start index, the
  scatter-add the operand plus the sum over the edges whose start index is the row, the flat gathers of the node weights
  the weights of the edge's end nodes.  Put together, the layer at `(i, c)` is the first arrangement of the layer law over
  the shared graph data (`dR`, `sR`, `tR`, `PR`).
-/
import proofs.«139661_j19516331393575_2_alg».proof.Proof.RValBase
import proofs.«139661_j19516331393575_2_alg».proof.Proof.GcnArr

set_option maxRecDepth 16384

noncomputable section

namespace Cert.ReferenceIdeal.RVal

open Cert.ReferenceIdeal Cert.ReferenceIdeal.ReadP Idealize.ShloMosaic Idealize.ShloMosaic.ValueIdx
open Cert.LibSegRows Cert.GcnIndex Cert.GcnLaw Cert.ReferenceIdeal.RGraph

/-! ## Layer 3 -/

/-- The message of edge `e` before normalisation: row `sR e` of the product of the layer's input with its matrix. -/
theorem msg3 (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x2, .f32⟩ : BufTy).Contents (Elt Ideal)) (e : Fin 6500000) (c : Fin 2) :
    val_main_v119 (F := Ideal) x0 x1 x2 x3 x4 x5 x6 (ix2 e c)
      = rowDot (fun j k => val_main_v88 (F := Ideal) x0 x1 x2 x3 x4 x5 (ix2 j k)) (fun k c => x6 (ix2 k c)) (sR x1 e) c := by
  unfold val_main_v119
  rw [rowGath2, show val_main_v118 (F := Ideal) x1 = val_main_v36 (F := Ideal) x1 from rfl]
  refine (rowGather_apply hN _ _ _ e c).trans ?_
  rw [val_main_v89_apply]
  unfold rowDot sR
  refine Finset.sum_congr rfl fun k _ => ?_
  refine congrArg₂ (· * ·) ?_ ?_
  · refine congrArg (val_main_v88 (F := Ideal) x0 x1 x2 x3 x4 x5) (funext fun a => Fin.ext ?_)
    match a with
    | ⟨0, _⟩ => rfl
    | ⟨1, _⟩ => rfl
  · refine congrArg x6 (funext fun a => Fin.ext ?_)
    match a with
    | ⟨0, _⟩ => rfl
    | ⟨1, _⟩ => rfl

/-- The normalisation of edge `e`: the weights of its two end nodes, multiplied. -/
theorem norm3 (x1 : Edges) (e : Fin 6500000) (c : Fin 2) :
    val_main_v121 (F := Ideal) x1 (ix2 e c) = dR x1 (sR x1 e) * dR x1 (tR x1 e) := by
  rw [val_main_v121_apply, val_main_v120_apply, val_main_v112_apply]
  have hi : idx_main_v120 (idx_main_v121 (ix2 e c)) = ix1 e := funext fun a => Fin.ext (by
    match a with
    | ⟨0, _⟩ => rfl)
  rw [hi]
  unfold val_main_v104 val_main_v111
  rw [show val_main_v97 (F := Ideal) x1 = val_main_v15 (F := Ideal) x1 from rfl,
    show val_main_v103 (F := Ideal) x1 = val_main_v36 (F := Ideal) x1 from rfl,
    show val_main_v110 (F := Ideal) x1 = val_main_v28 (F := Ideal) x1 from rfl,
    weights_at, weights_at]
  rfl

/-- LAYER 3 at `(i, c)` is the first arrangement over the second layer's output, the third matrix and the third bias. -/
theorem layer3 (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x2, .f32⟩ : BufTy).Contents (Elt Ideal)) (x7 : (⟨S2, .f32⟩ : BufTy).Contents (Elt Ideal)) (i : Fin 100000) (c : Fin 2) :
    val_main_v129 (F := Ideal) x0 x1 x2 x3 x4 x5 x6 x7 (ix2 i c)
      = refLayer (dR x1) (sR x1) (tR x1) (PR x1) (fun j k => val_main_v88 (F := Ideal) x0 x1 x2 x3 x4 x5 (ix2 j k)) (fun k c => x6 (ix2 k c))
          (fun c => x7 (ix1 c)) i c :=
  Cert.GcnArr.refLayer_arr scatter_S100000x2_S6500000x1_S6500000x2_1_0_0_1 wf_rowScat2 rowScat2
    (dR x1) (sR x1) (tR x1) (fun j k => val_main_v88 (F := Ideal) x0 x1 x2 x3 x4 x5 (ix2 j k)) (fun k c => x6 (ix2 k c)) (fun c => x7 (ix1 c))
    (val_main_v123 (F := Ideal)) (val_main_v125 (F := Ideal) x0 x1 x2 x3 x4 x5 x6) (val_main_v129 (F := Ideal) x0 x1 x2 x3 x4 x5 x6 x7) (val_main_v122 (F := Ideal) x0 x1 x2 x3 x4 x5 x6)
    (fun idx => by rw [val_main_v123_apply, val_main_cst_30_apply]; exact Ideal.ofBits_zero_f32)
    (val_main_v42 (F := Ideal) x1)
    (fun e c => by rw [val_main_v122_apply, msg3, norm3]; rfl)
    (by unfold val_main_v125; rw [show val_main_v124 (F := Ideal) x1 = val_main_v42 (F := Ideal) x1 from rfl])
    (fun i c => by
      have hi : idx_main_v126 (idx_main_v127 (ix2 i c)) = ix1 c := funext fun a => Fin.ext (by
        match a with
        | ⟨0, _⟩ => rfl)
      rw [val_main_v129_apply, val_main_v128_apply, Ideal.hostUnary_tanh_def, Ideal.addf_def,
        val_main_v127_apply, val_main_v126_apply, hi])
    i c

end Cert.ReferenceIdeal.RVal

end
-- ==== Proof.RValOut.lean ====
/-
  The reference program's class scores, read at an entry: row `i` of the third layer's output times column `c` of the
  classifier matrix, plus the classifier bias.
-/
import proofs.«139661_j19516331393575_2_alg».proof.Proof.RValBase
import proofs.«139661_j19516331393575_2_alg».proof.Proof.GcnAffine

set_option maxRecDepth 16384

noncomputable section

namespace Cert.ReferenceIdeal.RVal

open Cert.ReferenceIdeal Cert.ReferenceIdeal.ReadP Idealize.ShloMosaic Idealize.ShloMosaic.ValueIdx
open Cert.LibSegRows Cert.GcnIndex Cert.GcnLaw Cert.ReferenceIdeal.RGraph

/-! ## The class scores -/

/-- THE SCORES at `(i, c)`: row `i` of the third layer's output times column `c` of the classifier matrix, plus its bias. -/
theorem out_at (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x2, .f32⟩ : BufTy).Contents (Elt Ideal)) (x7 : (⟨S2, .f32⟩ : BufTy).Contents (Elt Ideal)) (x8 : (⟨S2x4, .f32⟩ : BufTy).Contents (Elt Ideal)) (x9 : (⟨S4, .f32⟩ : BufTy).Contents (Elt Ideal)) (i : Fin 100000) (c : Fin 4) :
    val_main_v133 (F := Ideal) x0 x1 x2 x3 x4 x5 x6 x7 x8 x9 (ix2 i c)
      = (∑ k : Fin 2, val_main_v129 (F := Ideal) x0 x1 x2 x3 x4 x5 x6 x7 (ix2 i k) * x8 (ix2 k c)) + x9 (ix1 c) := by
  rw [val_main_v133_apply, val_main_v130_apply, val_main_v132_apply, val_main_v131_apply, Ideal.addf_def]
  refine congrArg₂ (· + ·) (Finset.sum_congr rfl fun k _ => ?_) ?_
  · refine congrArg₂ (· * ·) ?_ ?_
    · refine congrArg (val_main_v129 (F := Ideal) x0 x1 x2 x3 x4 x5 x6 x7) (funext fun a => Fin.ext ?_)
      match a with
      | ⟨0, _⟩ => rfl
      | ⟨1, _⟩ => rfl
    · refine congrArg x8 (funext fun a => Fin.ext ?_)
      match a with
      | ⟨0, _⟩ => rfl
      | ⟨1, _⟩ => rfl
  · refine congrArg x9 (funext fun a => Fin.ext ?_)
    match a with
    | ⟨0, _⟩ => rfl

/-- The scores as the affine layer over the third layer's output, the classifier matrix and its bias. -/
theorem out_affine (x0 : (⟨S100000x128, .f32⟩ : BufTy).Contents (Elt Ideal)) (x1 : Edges) (x2 : (⟨S128x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x2, .f32⟩ : BufTy).Contents (Elt Ideal)) (x7 : (⟨S2, .f32⟩ : BufTy).Contents (Elt Ideal)) (x8 : (⟨S2x4, .f32⟩ : BufTy).Contents (Elt Ideal)) (x9 : (⟨S4, .f32⟩ : BufTy).Contents (Elt Ideal)) (i : Fin 100000) (c : Fin 4) :
    val_main_v133 (F := Ideal) x0 x1 x2 x3 x4 x5 x6 x7 x8 x9 (ix2 i c)
      = Cert.GcnAffine.affine (fun i k => val_main_v129 (F := Ideal) x0 x1 x2 x3 x4 x5 x6 x7 (ix2 i k)) (fun k c => x8 (ix2 k c)) (fun c => x9 (ix1 c)) i c :=
  out_at x0 x1 x2 x3 x4 x5 x6 x7 x8 x9 i c

end Cert.ReferenceIdeal.RVal

end
-- ==== Proof.Bridge.lean ====
/-
  The two programs compute one function.

  With the graph data shared (node weights, edge sources, "edge into row"), each layer of the kernel is the second
  arrangement of the layer law and the same layer of the reference is the first, over the same input, matrix and bias; the
  law makes them equal, layer by layer: the first layer's outputs agree, hence the second layer's inputs, hence its outputs,
  hence the third's.  The class scores are the same expression of the third layer's output on both sides.  Read at every
  entry, the kernel's two result arrays after its run are the reference's two result stages of the same arguments.
-/
import proofs.«139661_j19516331393575_2_alg».proof.Proof.GcnAffine
import proofs.«139661_j19516331393575_2_alg».proof.Proof.KLayer1
import proofs.«139661_j19516331393575_2_alg».proof.Proof.KLayer2
import proofs.«139661_j19516331393575_2_alg».proof.Proof.KLayer3
import proofs.«139661_j19516331393575_2_alg».proof.Proof.KLayerOut
import proofs.«139661_j19516331393575_2_alg».proof.Proof.RVal1
import proofs.«139661_j19516331393575_2_alg».proof.Proof.RVal2
import proofs.«139661_j19516331393575_2_alg».proof.Proof.RVal3
import proofs.«139661_j19516331393575_2_alg».proof.Proof.RValOut

set_option maxRecDepth 16384

noncomputable section

namespace Cert.Bridge

open Cert.KernelIdeal Cert.KernelIdeal.Gen Cert.KernelIdeal.KGraph
open Idealize.ShloMosaic Idealize.ShloMosaic.TcCoe Idealize.SL.Sem Idealize.ShloMosaic.ValueIdx
open Cert.GcnLaw Cert.ReferenceIdeal.RGraph

variable (m : (ℓ : Loc nD τ sig) → Buf (Elt Ideal) ℓ) (ρ : Dev nD → PrngReg)

/-- The first layer's outputs agree. -/
theorem h1_eq (c : Dev nD) (i : Fin 100000) (q : Fin 4) :
    W6 m ρ c (Proc.devRef .tc main_v29) (ix2 i q)
      = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) (ix2 i q) :=
  (KLayer.layer1_at m ρ c i q).trans
    ((layer_eq (dR (edges m c)) (dR_nonneg _) (dR_ne_top _) (sR (edges m c)) (tR (edges m c)) (PR (edges m c)) (tR_of_PR _) _ _ _ i q).symm.trans
      (Cert.ReferenceIdeal.RVal.layer1 (m ((c.tc : Thread nD τ).loc main_arg0)) (m ((c.tc : Thread nD τ).loc main_arg1)) (m ((c.tc : Thread nD τ).loc main_arg2)) (m ((c.tc : Thread nD τ).loc main_arg3)) i q).symm)

/-- The second layer's outputs agree. -/
theorem h2_eq (c : Dev nD) (i : Fin 100000) (q : Fin 4) :
    W10 m ρ c (Proc.devRef .tc main_v43) (ix2 i q)
      = Cert.ReferenceIdeal.ReadP.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 i q) :=
  (KLayer.layer2_at m ρ c i q).trans
    ((KLayer.kerLayer_congr (fun _ => rfl) (fun _ => rfl) (fun j k => h1_eq m ρ c j k) (fun _ _ => rfl) (fun _ => rfl) i q).trans
      ((layer_eq (dR (edges m c)) (dR_nonneg _) (dR_ne_top _) (sR (edges m c)) (tR (edges m c)) (PR (edges m c)) (tR_of_PR _) _ _ _ i q).symm.trans
        (Cert.ReferenceIdeal.RVal.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i q).symm))

/-- The third layer's outputs agree. -/
theorem h3_eq (c : Dev nD) (i : Fin 100000) (q : Fin 2) :
    W14 m ρ c (Proc.devRef .tc main_v59_0) (ix2 i q)
      = Cert.ReferenceIdeal.ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 i q) :=
  (KLayer.layer3_at m ρ c i q).trans
    ((KLayer.kerLayer_congr (fun _ => rfl) (fun _ => rfl) (fun j k => h2_eq m ρ c j k) (fun _ _ => rfl) (fun _ => rfl) i q).trans
      ((layer_eq (dR (edges m c)) (dR_nonneg _) (dR_ne_top _) (sR (edges m c)) (tR (edges m c)) (PR (edges m c)) (tR_of_PR _) _ _ _ i q).symm.trans
        (Cert.ReferenceIdeal.RVal.layer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) i q).symm))

/-- The class scores agree. -/
theorem out_eq (c : Dev nD) (i : Fin 100000) (q : Fin 4) :
    W14 m ρ c (Proc.devRef .tc main_v59_1) (ix2 i q)
      = Cert.ReferenceIdeal.ReadP.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 i q) :=
  (KLayer.out_at m ρ c i q).trans
    ((Cert.GcnAffine.affine_congr (fun i k => h3_eq m ρ c i k) (fun _ _ => rfl) (fun _ => rfl) i q).trans
      (Cert.ReferenceIdeal.RVal.out_affine (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i q).symm)

/-- THE FEATURES: the kernel's second result array is the reference's stage. -/
theorem h3_arr (c : Dev nD) :
    W14 m ρ c (Proc.devRef .tc main_v59_0) = Cert.ReferenceIdeal.ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  funext fun j => by
    obtain ⟨i, q, rfl⟩ : ∃ (i : Fin 100000) (q : Fin 2), j = ix2 i q := ⟨j 0, j 1, eq_ix2 j⟩
    exact h3_eq m ρ c i q

/-- THE SCORES: the kernel's first result array is the reference's stage. -/
theorem out_arr (c : Dev nD) :
    W14 m ρ c (Proc.devRef .tc main_v59_1) = Cert.ReferenceIdeal.ReadP.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  funext fun j => by
    obtain ⟨i, q, rfl⟩ : ∃ (i : Fin 100000) (q : Fin 4), j = ix2 i q := ⟨j 0, j 1, eq_ix2 j⟩
    exact out_eq m ρ c i q

end Cert.Bridge

end
-- ==== Proof.lean ====
/-
  A three-layer graph convolution network with a linear classifier, as a tiled kernel and as plain array code, computes one
  function on the extended reals.

  Each layer of the reference multiplies the node features by the layer's matrix, gathers the product at every edge's source
  node, scales the gathered row by the product of the inverse square roots of the degrees of the edge's two end nodes, adds
  the rows into the edge's destination node, adds a bias and takes tanh.  The kernel scales the features by the source
  node's weight BEFORE the product, and scales the aggregate by the destination node's weight AFTER the sum.  The two are the
  same because the weights are nonnegative finite numbers, and such a factor distributes over any finite sum of extended
  reals; no other law of real arithmetic is used, so nothing is asked of the feature, matrix and bias entries.  The edge
  indices may be any machine integers: both programs read them through the same gathers (clamped) and scatter-adds (dropped
  when out of range), and an edge that is added into row `i` has its destination weight gathered at `i`.

  The frames of the two kernel programs are the generated ones; the reference's frame is its run with the results dropped;
  the idealization rewrote nothing; and the value claim puts the kernel's run (its result arrays at the last boundary of its
  six regions) beside the reference's run (its result stages) and identifies them entry by entry.
-/
import proofs.«139661_j19516331393575_2_alg».proof.Defs
import proofs.«139661_j19516331393575_2_alg».proof.Proof.Gen.Kernel
import proofs.«139661_j19516331393575_2_alg».proof.Proof.Gen.Kernel.Frame
import proofs.«139661_j19516331393575_2_alg».proof.Proof.Gen.KernelIdeal
import proofs.«139661_j19516331393575_2_alg».proof.Proof.Gen.KernelIdeal.Frame
import proofs.«139661_j19516331393575_2_alg».proof.Proof.Gen.ReferenceIdeal
import proofs.«139661_j19516331393575_2_alg».proof.Proof.Gen.Pre_finite_inputs
import proofs.«139661_j19516331393575_2_alg».proof.Proof.KRun
import proofs.«139661_j19516331393575_2_alg».proof.Proof.RefRunP
import proofs.«139661_j19516331393575_2_alg».proof.Proof.RefReadP
import proofs.«139661_j19516331393575_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- From memories that agree on the ten arguments both programs run, and the reference's two result stages are the two arrays
    the kernel's last region leaves: the class scores and the third layer's features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v59_1),
    fun c => Cert.KernelIdeal.Gen.W14 m ρ c (Proc.devRef .tc Cert.KernelIdeal.main_v59_0),
    Cert.KernelIdeal.KRun.run_results m ρ, ?_⟩
  refine (θ_run Cert.ReferenceIdeal.defs _ _).mono (fun _ h c => ?_) (Cert.ReferenceIdeal.ValueP.run (F := Ideal) m' ρ')
  obtain ⟨a0, a1, a2, a3, a4, a5, a6, a7, a8, a9⟩ := hagree c
  -- the reference's two result stages at its own arguments are the stages at the kernel's arguments
  have e133 : Cert.ReferenceIdeal.ValueP.res_main_v133 m' c
      = Cert.ReferenceIdeal.ReadP.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
    rw [Cert.ReferenceIdeal.ReadP.val_main_v133_eq, a0, a1, a2, a3, a4, a5, a6, a7, a8, a9]
  have e129 : Cert.ReferenceIdeal.ValueP.res_main_v129 m' c
      = Cert.ReferenceIdeal.ReadP.val_main_v129 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    rw [Cert.ReferenceIdeal.ReadP.val_main_v129_eq, a0, a1, a2, a3, a4, a5, a6, a7]
  exact ⟨(h c).1.trans (e133.trans (Cert.Bridge.out_arr m ρ c).symm),
    (h c).2.1.trans (e129.trans (Cert.Bridge.h3_arr m ρ c).symm), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
